-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 128]⟩ ⟨2, ![1024, 1024]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 1024]⟩ ⟨2, ![1024, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x128 : Shape := ⟨2, ![1024, 128]⟩
abbrev S1024x1024 : Shape := ⟨2, ![1024, 1024]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S1024x128 .f32) (main_arg1 : FVec F S1024x1024 .f32) : IVec S_ 1 :=
  let main_v0 : FVec F S1024x128 .f32 := Host.absf main_arg0
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  main_v8
-- ==== Pre_finite_inputs_ReferenceIdeal.lean ====
abbrev S1024x1024 : Shape := ⟨2, ![1024, 1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel

variable [Facts]

def fn {F : FTy → Type} [FloatOps F] (main_arg0 : FVec F S1024x1024 .f32) (main_arg1 : FVec F S1024x1024 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  main_v8
-- ==== Kernel.lean ====
abbrev S1024x128 : Shape := ⟨2, ![1024, 128]⟩
abbrev S1024x1024 : Shape := ⟨2, ![1024, 1024]⟩
abbrev S128x1024 : Shape := ⟨2, ![128, 1024]⟩
abbrev S7x128x128 : Shape := ⟨3, ![7, 128, 128]⟩
abbrev S7 : Shape := ⟨1, ![7]⟩
abbrev S_ : Shape := ⟨0, ![]⟩
abbrev S128x128 : Shape := ⟨2, ![128, 128]⟩
abbrev S1 : Shape := ⟨1, ![1]⟩
abbrev S1x128x128 : Shape := ⟨3, ![1, 128, 128]⟩

abbrev nBuf : Space → Nat
  | .hbm => 3
  | .vmem => 6
  | .smem => 0
  | _ => 0

abbrev bufTy : (tb : Table) → Fin (tcTables nBuf tb) → BufTy
  | .hbm, ⟨0, _⟩ => ⟨S1024x128, .f32⟩
  | .hbm, ⟨1, _⟩ => ⟨S1024x1024, .f32⟩
  | .hbm, ⟨2, _⟩ => ⟨S128x1024, .f32⟩
  | .local _ .vmem, ⟨0, _⟩ => ⟨S1024x128, .f32⟩
  | .local _ .vmem, ⟨1, _⟩ => ⟨S1024x1024, .f32⟩
  | .local _ .vmem, ⟨2, _⟩ => ⟨S128x1024, .f32⟩
  | .local _ .vmem, ⟨3, _⟩ => ⟨S1024x128, .bf16⟩
  | .local _ .vmem, ⟨4, _⟩ => ⟨S7x128x128, .bf16⟩
  | .local _ .vmem, ⟨5, _⟩ => ⟨S1024x1024, .bf16⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  { ofTc nBuf bufTy 1 17 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32 : BitVec 32 := 128#32
  let v44 : BitVec 32 := Scalar.muli v2 c128_i32
  let v45 : Index := Scalar.indexCast v44
  let c0_35 : Index := 0#32
  ![v45.toNat, 0]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_36 : BitVec 32 := 128#32
  let v47 : BitVec 32 := Scalar.muli v2 c128_i32_36
  let v48 : Index := Scalar.indexCast v47
  let c0_37 : Index := 0#32
  ![v48.toNat, 0]
def k0_off3 (d0 : Dev nD) (c1_i32_39 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v51 : BitVec 32 := Scalar.addi v2 c1_i32_39
  let c8_i32_40 : BitVec 32 := 8#32
  let v52 : BitVec 32 := Scalar.remsi v51 c8_i32_40
  let c128_i32_41 : BitVec 32 := 128#32
  let v53 : BitVec 32 := Scalar.muli v52 c128_i32_41
  let c0_i32_49 : BitVec 32 := 0#32
  ![v53.toNat, 0]
def k0_dev8 (d0 : Dev nD) : Nat :=
  let c0_i32_46 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_39 : BitVec 32 := 1#32
  let v51 : BitVec 32 := Scalar.addi v2 c1_i32_39
  let c8_i32_40 : BitVec 32 := 8#32
  let v52 : BitVec 32 := Scalar.remsi v51 c8_i32_40
  let c1_i32_45 : BitVec 32 := 1#32
  let v54 : BitVec 32 := Scalar.muli v52 c1_i32_45
  let v55 : BitVec 32 := Scalar.addi c0_i32_46 v54
  v55.toNat
def k0_dev9 (d0 : Dev nD) : Nat :=
  let c0_i32_57 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_50 : BitVec 32 := 2#32
  let v63 : BitVec 32 := Scalar.addi v2 c2_i32_50
  let c8_i32_51 : BitVec 32 := 8#32
  let v64 : BitVec 32 := Scalar.remsi v63 c8_i32_51
  let c1_i32_56 : BitVec 32 := 1#32
  let v66 : BitVec 32 := Scalar.muli v64 c1_i32_56
  let v67 : BitVec 32 := Scalar.addi c0_i32_57 v66
  v67.toNat
def k0_dev10 (d0 : Dev nD) : Nat :=
  let c0_i32_68 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_61 : BitVec 32 := 3#32
  let v75 : BitVec 32 := Scalar.addi v2 c3_i32_61
  let c8_i32_62 : BitVec 32 := 8#32
  let v76 : BitVec 32 := Scalar.remsi v75 c8_i32_62
  let c1_i32_67 : BitVec 32 := 1#32
  let v78 : BitVec 32 := Scalar.muli v76 c1_i32_67
  let v79 : BitVec 32 := Scalar.addi c0_i32_68 v78
  v79.toNat
def k0_dev11 (d0 : Dev nD) : Nat :=
  let c0_i32_79 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_72 : BitVec 32 := 4#32
  let v87 : BitVec 32 := Scalar.addi v2 c4_i32_72
  let c8_i32_73 : BitVec 32 := 8#32
  let v88 : BitVec 32 := Scalar.remsi v87 c8_i32_73
  let c1_i32_78 : BitVec 32 := 1#32
  let v90 : BitVec 32 := Scalar.muli v88 c1_i32_78
  let v91 : BitVec 32 := Scalar.addi c0_i32_79 v90
  v91.toNat
def k0_dev12 (d0 : Dev nD) : Nat :=
  let c0_i32_90 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_83 : BitVec 32 := 5#32
  let v99 : BitVec 32 := Scalar.addi v2 c5_i32_83
  let c8_i32_84 : BitVec 32 := 8#32
  let v100 : BitVec 32 := Scalar.remsi v99 c8_i32_84
  let c1_i32_89 : BitVec 32 := 1#32
  let v102 : BitVec 32 := Scalar.muli v100 c1_i32_89
  let v103 : BitVec 32 := Scalar.addi c0_i32_90 v102
  v103.toNat
def k0_dev13 (d0 : Dev nD) : Nat :=
  let c0_i32_101 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_94 : BitVec 32 := 6#32
  let v111 : BitVec 32 := Scalar.addi v2 c6_i32_94
  let c8_i32_95 : BitVec 32 := 8#32
  let v112 : BitVec 32 := Scalar.remsi v111 c8_i32_95
  let c1_i32_100 : BitVec 32 := 1#32
  let v114 : BitVec 32 := Scalar.muli v112 c1_i32_100
  let v115 : BitVec 32 := Scalar.addi c0_i32_101 v114
  v115.toNat
def k0_dev14 (d0 : Dev nD) : Nat :=
  let c0_i32_112 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_105 : BitVec 32 := 7#32
  let v123 : BitVec 32 := Scalar.addi v2 c7_i32_105
  let c8_i32_106 : BitVec 32 := 8#32
  let v124 : BitVec 32 := Scalar.remsi v123 c8_i32_106
  let c1_i32_111 : BitVec 32 := 1#32
  let v126 : BitVec 32 := Scalar.muli v124 c1_i32_111
  let v127 : BitVec 32 := Scalar.addi c0_i32_112 v126
  v127.toNat
def k0_off4 (d0 : Dev nD) (c1_i32_124 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v142 : BitVec 32 := Scalar.subi v2 c1_i32_124
  let c8_i32_125 : BitVec 32 := 8#32
  let v143 : BitVec 32 := Scalar.addi v142 c8_i32_125
  let c8_i32_126 : BitVec 32 := 8#32
  let v144 : BitVec 32 := Scalar.remsi v143 c8_i32_126
  let c128_i32_130 : BitVec 32 := 128#32
  let v147 : BitVec 32 := Scalar.muli v144 c128_i32_130
  let v148 : Index := Scalar.indexCast v147
  let c0_131 : Index := 0#32
  ![v148.toNat, 0]
abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

class Facts₀ : Prop where
  hamt_1 : (1#32 : BitVec 32).msb = false
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  bitsLt_bf16_f32 : FTy.bits .bf16 < FTy.bits .f32
  packedbf16_S1024x128_S1024x128_0_0 : (Rect.unit (s := S1024x128) ![0, 0] S1024x128.size inb_S1024x128_S1024x128_0_0).PackedRows (EltTy.packing .bf16)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  h_S128x128 : 0 < S128x128.numel
  h_S128x1024 : 0 < S128x1024.numel
  hamt_7 : (7#32 : BitVec 32).msb = false
  inb_S7_S1_0 : ∀ a, (![0] : Fin 1 → Nat) a + S1.size a ≤ S7.size a
  squeezes_S1_S_ : S1.Squeezes S_
  inb_S7x128x128_S1x128x128_0_0_0 : ∀ a, (![0, 0, 0] : Fin 3 → Nat) a + S1x128x128.size a ≤ S7x128x128.size a
  squeezes_S1x128x128_S128x128 : S1x128x128.Squeezes S128x128
  wordsbf16_S7x128x128_S1x128x128_0_0_0 : (Rect.unit (s := S7x128x128) ![0, 0, 0] S1x128x128.size inb_S7x128x128_S1x128x128_0_0_0).WholeWords (EltTy.packing .bf16)
  inb_S7_S1_1 : ∀ a, (![1] : Fin 1 → Nat) a + S1.size a ≤ S7.size a
  inb_S7x128x128_S1x128x128_1_0_0 : ∀ a, (![1, 0, 0] : Fin 3 → Nat) a + S1x128x128.size a ≤ S7x128x128.size a
  wordsbf16_S7x128x128_S1x128x128_1_0_0 : (Rect.unit (s := S7x128x128) ![1, 0, 0] S1x128x128.size inb_S7x128x128_S1x128x128_1_0_0).WholeWords (EltTy.packing .bf16)
  inb_S7_S1_2 : ∀ a, (![2] : Fin 1 → Nat) a + S1.size a ≤ S7.size a
  inb_S7x128x128_S1x128x128_2_0_0 : ∀ a, (![2, 0, 0] : Fin 3 → Nat) a + S1x128x128.size a ≤ S7x128x128.size a
  wordsbf16_S7x128x128_S1x128x128_2_0_0 : (Rect.unit (s := S7x128x128) ![2, 0, 0] S1x128x128.size inb_S7x128x128_S1x128x128_2_0_0).WholeWords (EltTy.packing .bf16)
  inb_S7_S1_3 : ∀ a, (![3] : Fin 1 → Nat) a + S1.size a ≤ S7.size a
  inb_S7x128x128_S1x128x128_3_0_0 : ∀ a, (![3, 0, 0] : Fin 3 → Nat) a + S1x128x128.size a ≤ S7x128x128.size a
  wordsbf16_S7x128x128_S1x128x128_3_0_0 : (Rect.unit (s := S7x128x128) ![3, 0, 0] S1x128x128.size inb_S7x128x128_S1x128x128_3_0_0).WholeWords (EltTy.packing .bf16)
  inb_S7_S1_4 : ∀ a, (![4] : Fin 1 → Nat) a + S1.size a ≤ S7.size a
  inb_S7x128x128_S1x128x128_4_0_0 : ∀ a, (![4, 0, 0] : Fin 3 → Nat) a + S1x128x128.size a ≤ S7x128x128.size a
  wordsbf16_S7x128x128_S1x128x128_4_0_0 : (Rect.unit (s := S7x128x128) ![4, 0, 0] S1x128x128.size inb_S7x128x128_S1x128x128_4_0_0).WholeWords (EltTy.packing .bf16)
  inb_S7_S1_5 : ∀ a, (![5] : Fin 1 → Nat) a + S1.size a ≤ S7.size a
  inb_S7x128x128_S1x128x128_5_0_0 : ∀ a, (![5, 0, 0] : Fin 3 → Nat) a + S1x128x128.size a ≤ S7x128x128.size a
  wordsbf16_S7x128x128_S1x128x128_5_0_0 : (Rect.unit (s := S7x128x128) ![5, 0, 0] S1x128x128.size inb_S7x128x128_S1x128x128_5_0_0).WholeWords (EltTy.packing .bf16)
  inb_S7_S1_6 : ∀ a, (![6] : Fin 1 → Nat) a + S1.size a ≤ S7.size a
  inb_S7x128x128_S1x128x128_6_0_0 : ∀ a, (![6, 0, 0] : Fin 3 → Nat) a + S1x128x128.size a ≤ S7x128x128.size a
  wordsbf16_S7x128x128_S1x128x128_6_0_0 : (Rect.unit (s := S7x128x128) ![6, 0, 0] S1x128x128.size inb_S7x128x128_S1x128x128_6_0_0).WholeWords (EltTy.packing .bf16)
  h_S1x128x128 : 0 < S1x128x128.numel
  shapeCasts_S1x128x128_S128x128 : S1x128x128.ShapeCasts S128x128
  inb_S128x1024_S128x1024_0_0 : ∀ a, (![0, 0] : Fin 2 → Nat) a + S128x1024.size a ≤ S128x1024.size a
  dot_S128x128_S128x1024_S128x1024_1_0_0_1_n_n_wf : DotDims.WF S128x128 S128x1024 S128x1024 [1] [0] [0] [1] [] []
  hcc0_scratch3 : 3 + S7.numel ≤ 17
  hcc0_scratch4 : 10 + S7.numel ≤ 17
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_off1_inb : ∀ d0 : Dev nD, ∀ a, (k0_off1 d0) a + S128x128.size a ≤ S1024x128.size a
  k0_off2_inb : ∀ d0 : Dev nD, ∀ a, (k0_off2 d0) a + S128x1024.size a ≤ S1024x1024.size a
  k0_off3_inb : ∀ d0 : Dev nD, ∀ (r : Fin 7), ∀ a, (k0_off3 d0 (BitVec.ofNat 32 (1 + r.val))) a + S128x128.size a ≤ S1024x128.size a
  k0_off3_wordsbf16 : ∀ d0 : Dev nD, ∀ (r : Fin 7), (Rect.unit (s := S1024x128) (k0_off3 d0 (BitVec.ofNat 32 (1 + r.val))) S128x128.size (k0_off3_inb d0 r)).WholeWords (EltTy.packing .bf16)
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_off4_inb : ∀ d0 : Dev nD, ∀ (r : Fin 7), ∀ a, (k0_off4 d0 (BitVec.ofNat 32 (1 + r.val))) a + S128x1024.size a ≤ S1024x1024.size a
  hstage0_0 : ∀ j, (stage0_0 j).IsWhole
  hstage0_1 : ∀ j, (stage0_1 j).IsWhole
  hstage0_2 : ∀ j, (stage0_2 j).IsWhole

variable [Facts₀]

abbrev cc0_scratch3 : DmaSems sig S7 := SemArray.consecutive 3 S7 hcc0_scratch3
abbrev cc0_scratch4 : DmaSems sig S7 := SemArray.consecutive 10 S7 hcc0_scratch4
def dot_S128x128_S128x1024_S128x1024_1_0_0_1_n_n : DotDims S128x128 S128x1024 S128x1024 where
  lhsContracting := [1]
  rhsContracting := [0]
  lhsNonContracting := [0]
  rhsNonContracting := [1]
  lhsBatch := []
  rhsBatch := []
  wf := dot_S128x128_S128x1024_S128x1024_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_v1) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x1024 : Shape := ⟨2, ![1024, 1024]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S_, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S_, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S_, .f32⟩
  | .hbm, ⟨17, _⟩ => ⟨S1024x1024, .f32⟩
  | .hbm, ⟨18, _⟩ => ⟨S1024x1024, .f32⟩
  | .hbm, ⟨19, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  bcast_S_S1024x1024 : S_.BroadcastsInDim S1024x1024 (![] : Fin 0 → Fin S1024x1024.rank)
  dot_S1024x1024_S1024x1024_S1024x1024_1_0_0_1_n_n_wf : DotDims.WF S1024x1024 S1024x1024 S1024x1024 [1] [0] [0] [1] [] []

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

class Facts : Prop extends Facts₀ where

variable [Facts]
-- ==== Proof.Views.lean ====
/-
  The all-to-all's geometry, for any float instance: the ring offsets between devices, the semaphores and the pieces of
  the scratch buffers that one exchange uses, and what each buffer holds once written.

  Device `c`'s exchange number `j` (of seven) goes to the device `j + 1` places after it and arrives from the device
  `j + 1` places before it. What is sent is the 128 rows of the sender's converted block of `x` that the addressee's
  row block needs; it lands in slot `j` of the addressee's receive buffer.
-/
import proofs.«900403_g7700000000000404_dist_a2a_gemm_m1024_k1024_n1024_f32_gelu_v7x_i8_1_alg».proof.Proof.Gen.KernelIdeal
import proofs.«900403_g7700000000000404_dist_a2a_gemm_m1024_k1024_n1024_f32_gelu_v7x_i8_1_alg».proof.Proof.Gen.KernelIdeal.Skeleton
import proofs.«900403_g7700000000000404_dist_a2a_gemm_m1024_k1024_n1024_f32_gelu_v7x_i8_1_alg».proof.Proof.Gen.KernelIdeal.Launch
import proofs.«900403_g7700000000000404_dist_a2a_gemm_m1024_k1024_n1024_f32_gelu_v7x_i8_1_alg».proof.Proof.Gen.KernelIdeal.Points
import Idealize.ShloMosaic.Lib.Pipeline.Launch
import Idealize.ShloMosaic.Lib.Pipeline.Kit
import Idealize.ShloMosaic.Lib.Tactic
import Idealize.ShloMosaic.Lib.ValueIdx

noncomputable section

namespace Cert.KernelIdeal.A2a

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ring offsets -/

/-- The device `j + 1` places after `c`: where exchange `j` of `c` goes. -/
def peer (c : Dev nD) (j : Fin 7) : Dev nD := ⟨(c.val + j.val + 1) % 8, Nat.mod_lt _ (by decide)⟩
/-- The device `j + 1` places before `c`: where exchange `j` into `c` comes from. -/
def orig (c : Dev nD) (j : Fin 7) : Dev nD := ⟨(c.val + 7 - j.val) % 8, Nat.mod_lt _ (by decide)⟩
/-- Exchange `6 - j`: going `j + 1` places back is going `7 - j` places on. -/
def rev (j : Fin 7) : Fin 7 := ⟨6 - j.val, by omega⟩

theorem orig_peer (c : Dev nD) (j : Fin 7) : orig (peer c j) j = c := by revert c j; decide
theorem peer_orig (c : Dev nD) (j : Fin 7) : peer (orig c j) j = c := by revert c j; decide
theorem peer_rev (c : Dev nD) (j : Fin 7) : peer c (rev j) = orig c j := by revert c j; decide
theorem orig_rev (c : Dev nD) (j : Fin 7) : orig c (rev j) = peer c j := by revert c j; decide
theorem rev_rev (j : Fin 7) : rev (rev j) = j := by revert j; decide
theorem peer_ne (c : Dev nD) (j : Fin 7) : peer c j ≠ c := by revert c j; decide
theorem peer_inj (c : Dev nD) (j j' : Fin 7) (h : peer c j = peer c j') : j = j' := by revert c j j'; decide
theorem orig_inj (c : Dev nD) (j j' : Fin 7) (h : orig c j = orig c j') : j = j' := by revert c j j'; decide

/-- Exchange `j` seen as a permutation of the devices. -/
def ringJ (j : Fin 7) : Dev nD ≃ Dev nD := ⟨fun c => peer c j, fun c => orig c j, fun c => orig_peer c j, fun c => peer_orig c j⟩

/-- The kernel's device chains: signal `j` and copy `j` both address `peer c j`. -/
theorem dev1_eq (c : Dev nD) : (⟨k0_dev1 c, k0_dev1_lt c⟩ : Dev nD) = peer c 0 := Fin.ext (k0_dev1_eq c)
theorem dev2_eq (c : Dev nD) : (⟨k0_dev2 c, k0_dev2_lt c⟩ : Dev nD) = peer c 1 := Fin.ext (k0_dev2_eq c)
theorem dev3_eq (c : Dev nD) : (⟨k0_dev3 c, k0_dev3_lt c⟩ : Dev nD) = peer c 2 := Fin.ext (k0_dev3_eq c)
theorem dev4_eq (c : Dev nD) : (⟨k0_dev4 c, k0_dev4_lt c⟩ : Dev nD) = peer c 3 := Fin.ext (k0_dev4_eq c)
theorem dev5_eq (c : Dev nD) : (⟨k0_dev5 c, k0_dev5_lt c⟩ : Dev nD) = peer c 4 := Fin.ext (k0_dev5_eq c)
theorem dev6_eq (c : Dev nD) : (⟨k0_dev6 c, k0_dev6_lt c⟩ : Dev nD) = peer c 5 := Fin.ext (k0_dev6_eq c)
theorem dev7_eq (c : Dev nD) : (⟨k0_dev7 c, k0_dev7_lt c⟩ : Dev nD) = peer c 6 := Fin.ext (k0_dev7_eq c)
theorem dev8_eq (c : Dev nD) : (⟨k0_dev8 c, k0_dev8_lt c⟩ : Dev nD) = peer c 0 := Fin.ext (k0_dev8_eq c)
theorem dev9_eq (c : Dev nD) : (⟨k0_dev9 c, k0_dev9_lt c⟩ : Dev nD) = peer c 1 := Fin.ext (k0_dev9_eq c)
theorem dev10_eq (c : Dev nD) : (⟨k0_dev10 c, k0_dev10_lt c⟩ : Dev nD) = peer c 2 := Fin.ext (k0_dev10_eq c)
theorem dev11_eq (c : Dev nD) : (⟨k0_dev11 c, k0_dev11_lt c⟩ : Dev nD) = peer c 3 := Fin.ext (k0_dev11_eq c)
theorem dev12_eq (c : Dev nD) : (⟨k0_dev12 c, k0_dev12_lt c⟩ : Dev nD) = peer c 4 := Fin.ext (k0_dev12_eq c)
theorem dev13_eq (c : Dev nD) : (⟨k0_dev13 c, k0_dev13_lt c⟩ : Dev nD) = peer c 5 := Fin.ext (k0_dev13_eq c)
theorem dev14_eq (c : Dev nD) : (⟨k0_dev14 c, k0_dev14_lt c⟩ : Dev nD) = peer c 6 := Fin.ext (k0_dev14_eq c)

/-! ## The semaphores -/

/-- The runtime's barrier semaphore of this collective. -/
abbrev barS : Sem sig := (SemArray.scalar (sig.barrier 0 rfl) : Sems sig S_).sem
/-- Exchange `j`'s send semaphore (on the sender) and receive semaphore (on the addressee). -/
def sendSem (j : Fin 7) : DmaSem sig := ⟨3 + j.val, by have := j.isLt; show 3 + j.val < 17; omega⟩
def recvSem (j : Fin 7) : DmaSem sig := ⟨10 + j.val, by have := j.isLt; show 10 + j.val < 17; omega⟩

abbrev barCell (c : Dev nD) : GSem nD τ sig := ((c : Thread nD τ), .reg barS)
abbrev sendCell (c : Dev nD) (j : Fin 7) : GSem nD τ sig := ((c : Thread nD τ), .dma (sendSem j))
abbrev recvCell (c : Dev nD) (j : Fin 7) : GSem nD τ sig := ((c : Thread nD τ), .dma (recvSem j))

/-! ## The pieces of the scratch buffers -/

abbrev xM : Memref sig .tc .vmem S1024x128 .f32 := Memref.whole cc0_stg0_0
abbrev wM : Memref sig .tc .vmem S1024x1024 .f32 := Memref.whole cc0_stg1_0
abbrev oM : Memref sig .tc .vmem S128x1024 .f32 := Memref.whole cc0_stg2_0
abbrev stM : Memref sig .tc .vmem S1024x128 .bf16 := Memref.whole cc0_scratch0
abbrev cmM : Memref sig .tc .vmem S7x128x128 .bf16 := Memref.whole cc0_scratch1
abbrev wbM : Memref sig .tc .vmem S1024x1024 .bf16 := Memref.whole cc0_scratch2

/-- The 128 rows of `c`'s converted `x` block that exchange `j` sends: the row block of the addressee. -/
def srcM (c : Dev nD) (j : Fin 7) : Memref sig .tc .vmem S128x128 .bf16 :=
  stM.slice (Rect.unit (s := S1024x128) (k0_off3 c (BitVec.ofNat 32 (1 + j.val))) S128x128.size (k0_off3_inb c j)) (fun _ => rfl)

theorem inb_slot (j : Fin 7) : ∀ a, (![j.val, 0, 0] : Fin 3 → Nat) a + S1x128x128.size a ≤ S7x128x128.size a := by
  revert j; decide

/-- Slot `j` of the receive buffer, as the 128 × 128 array a copy writes. -/
def dstM (j : Fin 7) : Memref sig .tc .vmem S128x128 .bf16 :=
  (cmM.slice (Rect.unit (s := S7x128x128) ![j.val, 0, 0] S1x128x128.size (inb_slot j)) (fun _ => rfl)).squeeze S128x128 squeezes_S1x128x128_S128x128

/-! ## The resource algebra and the pieces as assertions -/

/-- The rounds library's copy for this protocol: duties are named by the exchange number. -/
abbrev UB : Type := URounds (GSem nD τ sig) (Fin 7)
abbrev UU : Type := UR sig nD τ × UB

/-- Exchange `j`'s source rows of `c`'s stage buffer, and slot `j` of `c`'s receive buffer, each held whole. -/
def srcPts (c : Dev nD) (j : Fin 7) (f : Buf (Elt F) ((c : Thread nD τ).loc cc0_scratch0)) : sProp (MT nD τ sig Unit (Elt F) ℕ UU ℕ) :=
  (srcM c j).view.loc (c : Thread nD τ) ↦[(srcM c j).view.set]{fullShare} f
def slotPts (c : Dev nD) (j : Fin 7) (f : Buf (Elt F) ((c : Thread nD τ).loc cc0_scratch1)) : sProp (MT nD τ sig Unit (Elt F) ℕ UU ℕ) :=
  (dstM j).view.loc (c : Thread nD τ) ↦[(dstM j).view.set]{fullShare} f

/-! ## What the buffers hold -/

variable (m : (ℓ : Loc nD τ sig) → Buf (Elt F) ℓ)

/-- Device `c`'s block of `x` and its copy of `w`, as staged for the body. -/
def xstg (c : Dev nD) : (cc0_stg0_0 : Ref sig .tc).ty.Contents (Elt F) :=
  (win0_0.blk (0 : Fin 1)).view.read (Elt F) (m ((c : Thread nD τ).loc main_arg0))
def wstg (c : Dev nD) : (cc0_stg1_0 : Ref sig .tc).ty.Contents (Elt F) :=
  (win0_1.blk (0 : Fin 1)).view.read (Elt F) (m ((c : Thread nD τ).loc main_arg1))

/-- The converted copies the body writes first: of its block of `x`, and of `w`. -/
def stageV (c : Dev nD) : (cc0_scratch0 : Ref sig .tc).ty.Contents (Elt F) := k0_pay1 (xstg m c)
def wbV (c : Dev nD) : (cc0_scratch2 : Ref sig .tc).ty.Contents (Elt F) := k0_pay2 (wstg m c)

/-- The receive buffer once every exchange has landed: slot `j` holds rows `128 c …` of the converted `x` block of the
    device `j + 1` places before `c`. -/
def commV (c : Dev nD) : (cc0_scratch1 : Ref sig .tc).ty.Contents (Elt F) := fun i =>
  stageV m (orig c ⟨(i 0).val, (i 0).isLt⟩)
    (ValueIdx.ix2 ⟨128 * c.val + (i 1).val, by have h1 : (i 1).val < 128 := (i 1).isLt; have h2 : c.val < 8 := c.isLt; omega⟩ ⟨(i 2).val, (i 2).isLt⟩)

/-! ## The body's arithmetic as one term -/

/-- The body's result from the sixteen blocks it loads: the local product, seven more accumulated in order, then the
    smooth gate applied entrywise (the payloads of the body, composed). -/
def kernOut (v46 : Vec F S128x128 .bf16) (v49 : Vec F S128x1024 .bf16)
    (v145 : Vec F S1x128x128 .bf16) (v149 : Vec F S128x1024 .bf16) (v162 : Vec F S1x128x128 .bf16) (v166 : Vec F S128x1024 .bf16)
    (v179 : Vec F S1x128x128 .bf16) (v183 : Vec F S128x1024 .bf16) (v196 : Vec F S1x128x128 .bf16) (v200 : Vec F S128x1024 .bf16)
    (v213 : Vec F S1x128x128 .bf16) (v217 : Vec F S128x1024 .bf16) (v230 : Vec F S1x128x128 .bf16) (v234 : Vec F S128x1024 .bf16)
    (v247 : Vec F S1x128x128 .bf16) (v251 : Vec F S128x1024 .bf16) : FVec F S128x1024 .f32 :=
  let v219 := k0_pay7 (k0_pay5 (k0_pay4 (k0_pay3 v46 v49) v145 v149 v162 v166) v179 v183) (k0_pay6 v196) v200
    (constant S128x1024 .f32 0x00000000#32) v213 v217
  k0_pay11 (k0_pay9 v219 v230 v234 v247 v251) (k0_pay10 v219 v230 v234 v247 v251)

/-- The blocks device `c` loads: its own rows of its converted `x` block and the matching rows of the converted `w`; -/
def ldOwn (c : Dev nD) : Vec F S128x128 .bf16 :=
  (stM : Memref sig .tc .vmem S1024x128 .bf16).view.readAt (Elt F) (Rect.unit (s := S1024x128) (k0_off1 c) S128x128.size (k0_off1_inb c)).toLoadRect (stageV m c)
def ldWb0 (c : Dev nD) : Vec F S128x1024 .bf16 :=
  (wbM : Memref sig .tc .vmem S1024x1024 .bf16).view.readAt (Elt F) (Rect.unit (s := S1024x1024) (k0_off2 c) S128x1024.size (k0_off2_inb c)).toLoadRect (wbV m c)
/-- slot `j` of the receive buffer and the rows of the converted `w` of the device the slot's contents came from. -/
def ldSlot (c : Dev nD) (j : Fin 7) : Vec F S1x128x128 .bf16 :=
  (cmM : Memref sig .tc .vmem S7x128x128 .bf16).view.readAt (Elt F) (Rect.unit (s := S7x128x128) ![j.val, 0, 0] S1x128x128.size (inb_slot j)).toLoadRect (commV m c)
def ldWb (c : Dev nD) (j : Fin 7) : Vec F S128x1024 .bf16 :=
  (wbM : Memref sig .tc .vmem S1024x1024 .bf16).view.readAt (Elt F) (Rect.unit (s := S1024x1024) (k0_off4 c (BitVec.ofNat 32 (1 + j.val))) S128x1024.size (k0_off4_inb c j)).toLoadRect (wbV m c)

/-- Device `c`'s result block. -/
def outAt (c : Dev nD) : (cc0_stg2_0 : Ref sig .tc).ty.Contents (Elt F) :=
  kernOut (ldOwn m c) (ldWb0 m c) (ldSlot m c 0) (ldWb m c 0) (ldSlot m c 1) (ldWb m c 1) (ldSlot m c 2) (ldWb m c 2)
    (ldSlot m c 3) (ldWb m c 3) (ldSlot m c 4) (ldWb m c 4) (ldSlot m c 5) (ldWb m c 5) (ldSlot m c 6) (ldWb m c 6)

end Cert.KernelIdeal.A2a

end
-- ==== Proof.Protocol.lean ====
/-
  The exchange protocol as rounds of duties, for any float instance.

  Every semaphore is used for one round. A device's barrier semaphore collects seven units, one from each other
  device; the unit of the device `j + 1` places before it comes with that device's receive slot `6 - j`, the slot this
  device's own exchange `6 - j` writes. A send semaphore collects one copy's credit and hands the source rows back;
  a receive semaphore collects one copy's credit and hands over the slot, now holding the sender's rows.
  A device may wait on its barrier semaphore while it still owes its seven copies, because receive semaphores rank
  above barrier semaphores; every other wait happens when nothing is owed.
-/
import proofs.«900403_g7700000000000404_dist_a2a_gemm_m1024_k1024_n1024_f32_gelu_v7x_i8_1_alg».proof.Proof.Views

noncomputable section

namespace Cert.KernelIdeal.A2a

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- One copy's credit: that of a 128 × 128 block of the receive buffer. -/
abbrev N : ℕ := (dstM 0 : Memref sig .tc .vmem S128x128 .bf16).view.dmaCredit
theorem N_pos : 0 < N := View.dmaCredit_pos _ (by decide)

/-! ## Which exchange a semaphore belongs to -/

def sendIdx : SemLoc sig → Option (Fin 7)
  | .dma q => if h : 3 ≤ q.val ∧ q.val < 10 then some ⟨q.val - 3, by omega⟩ else none
  | .reg _ => none
def recvIdx : SemLoc sig → Option (Fin 7)
  | .dma q => if h : 10 ≤ q.val then some ⟨q.val - 10, by have : q.val < 17 := q.isLt; omega⟩ else none
  | .reg _ => none

theorem sendIdx_send (j : Fin 7) : sendIdx (.dma (sendSem j)) = some j := by revert j; decide
theorem recvIdx_send (j : Fin 7) : recvIdx (.dma (sendSem j)) = none := by revert j; decide
theorem recvIdx_recv (j : Fin 7) : recvIdx (.dma (recvSem j)) = some j := by revert j; decide
theorem sendIdx_recv (j : Fin 7) : sendIdx (.dma (recvSem j)) = none := by revert j; decide
theorem send_ne_bar (j : Fin 7) : (SemLoc.dma (sendSem j) : SemLoc sig) ≠ .reg barS := fun h => by cases h
theorem recv_ne_bar (j : Fin 7) : (SemLoc.dma (recvSem j) : SemLoc sig) ≠ .reg barS := fun h => by cases h

/-! ## The schedule -/

/-- What the unit of the device `d + 1` places before `c` hands `c`: that device's receive slot `6 - d`. -/
def barPay (c : Dev nD) (d : Fin 7) : sProp 𝕄 := iprop(∃ f, slotPts (orig c d) (rev d) f)
/-- What a landed copy hands the addressee: its slot holding the sender's rows. -/
def recvPay (c : Dev nD) (j : Fin 7) : sProp 𝕄 := slotPts c j (commV m c)
/-- What a sent copy hands the sender: its source rows back. -/
def sendPay (c : Dev nD) (j : Fin 7) : sProp 𝕄 := srcPts c j (stageV m c)

def a2aRd : Rounds.Schedule (GSem nD τ sig) (Fin 7) 𝕄 where
  duties g r := if r = 0 ∧ g.1.2 = .tc then
      (if g.2 = .reg barS then Finset.univ else if (sendIdx g.2).isSome ∨ (recvIdx g.2).isSome then {0} else ∅) else ∅
  amount g _ _ := if g.2 = .reg barS then 1 else N
  payload g _ d :=
    if g.2 = .reg barS then barPay g.1.1 d
    else match recvIdx g.2 with
      | some j => recvPay m g.1.1 j
      | none => match sendIdx g.2 with
        | some j => sendPay m g.1.1 j
        | none => iprop(emp)
  amount_pos g _ _ _ := by
    by_cases h : g.2 = .reg barS
    · rw [if_pos h]; exact Nat.one_pos
    · rw [if_neg h]; exact N_pos

section Sched
variable (c : Dev nD) (j : Fin 7)

theorem duties_bar : (a2aRd (F := F) m).duties (barCell c) 0 = Finset.univ := by
  dsimp only [a2aRd]; rw [if_pos ⟨rfl, rfl⟩, if_pos rfl]
theorem duties_send : (a2aRd (F := F) m).duties (sendCell c j) 0 = {0} := by
  dsimp only [a2aRd]; rw [if_pos ⟨rfl, rfl⟩, if_neg (send_ne_bar j), if_pos (Or.inl (by rw [sendIdx_send]; rfl))]
theorem duties_recv : (a2aRd (F := F) m).duties (recvCell c j) 0 = {0} := by
  dsimp only [a2aRd]; rw [if_pos ⟨rfl, rfl⟩, if_neg (recv_ne_bar j), if_pos (Or.inr (by rw [recvIdx_recv]; rfl))]
theorem duties_later (g : GSem nD τ sig) : ∀ r, 1 ≤ r → (a2aRd (F := F) m).duties g r = ∅ :=
  fun r hr => by dsimp only [a2aRd]; rw [if_neg fun h => by omega]

theorem amount_bar (d : Fin 7) : (a2aRd (F := F) m).amount (barCell c) 0 d = 1 := by dsimp only [a2aRd]; exact if_pos rfl
theorem amount_send (d : Fin 7) : (a2aRd (F := F) m).amount (sendCell c j) 0 d = N := by dsimp only [a2aRd]; exact if_neg (send_ne_bar j)
theorem amount_recv (d : Fin 7) : (a2aRd (F := F) m).amount (recvCell c j) 0 d = N := by dsimp only [a2aRd]; exact if_neg (recv_ne_bar j)

theorem expect_bar : (a2aRd (F := F) m).expect (barCell c) 0 = 7 := by
  unfold Schedule.expect Schedule.amountOf
  rw [duties_bar, Finset.sum_congr rfl fun d _ => amount_bar m c d, Finset.sum_const, Finset.card_univ, Fintype.card_fin, smul_eq_mul]
theorem expect_send : (a2aRd (F := F) m).expect (sendCell c j) 0 = N := by
  unfold Schedule.expect Schedule.amountOf; rw [duties_send, Finset.sum_singleton, amount_send]
theorem expect_recv : (a2aRd (F := F) m).expect (recvCell c j) 0 = N := by
  unfold Schedule.expect Schedule.amountOf; rw [duties_recv, Finset.sum_singleton, amount_recv]

theorem payload_bar (d : Fin 7) : (a2aRd (F := F) m).payload (barCell c) 0 d = barPay c d := by dsimp only [a2aRd]; rw [if_pos rfl]
theorem payload_send (d : Fin 7) : (a2aRd (F := F) m).payload (sendCell c j) 0 d = sendPay m c j := by
  dsimp only [a2aRd]; rw [if_neg (send_ne_bar j), recvIdx_send, sendIdx_send]
theorem payload_recv (d : Fin 7) : (a2aRd (F := F) m).payload (recvCell c j) 0 d = recvPay m c j := by
  dsimp only [a2aRd]; rw [if_neg (recv_ne_bar j), recvIdx_recv]

end Sched

/-! ## The payloads can be kept in invariants -/

omit [FloatOps F] in
instance slotPts_storable (c : Dev nD) (j : Fin 7) (f) : BI.Storable (upEmb : UEmb _ 𝕄) (slotPts (F := F) c j f) := by
  unfold slotPts; delta dstM; infer_instance
omit [FloatOps F] in
instance srcPts_storable (c : Dev nD) (j : Fin 7) (f) : BI.Storable (upEmb : UEmb _ 𝕄) (srcPts (F := F) c j f) := by
  unfold srcPts; delta srcM; infer_instance

/-- Every payload of the schedule can be kept in an invariant. -/
instance a2aRd_payload_storable (g : GSem nD τ sig) (r : ℕ) (d : Fin 7) :
    BI.Storable (upEmb : UEmb _ 𝕄) ((a2aRd (F := F) m).payload g r d) := by
  show BI.Storable upEmb (if g.2 = .reg barS then barPay g.1.1 d
    else match recvIdx g.2 with
      | some j => recvPay m g.1.1 j
      | none => match sendIdx g.2 with
        | some j => sendPay m g.1.1 j
        | none => iprop(emp))
  unfold barPay recvPay sendPay
  (repeat' split) <;> infer_instance

/-! ## What each device owes at launch; the levels -/

/-- The unit device `c` owes the barrier semaphore of the device `j + 1` places on, and the copy's credit it owes that
    device's receive semaphore `j`. -/
def barT (c : Dev nD) (j : Fin 7) : CellTallies nD τ sig Unit := tallyAt (barCell (peer c j)) () 1
def recvT (c : Dev nD) (j : Fin 7) : CellTallies nD τ sig Unit := tallyAt (recvCell (peer c j) j) () N

/-- What is still owed before copy `k` (copies `k … 6`), then before signal `k` (all copies and signals `k … 6`):
    summed so that each step peels the last summand. -/
def OR6 (c : Dev nD) : CellTallies nD τ sig Unit := recvT c 6
def OR5 (c : Dev nD) : CellTallies nD τ sig Unit := OR6 c + recvT c 5
def OR4 (c : Dev nD) : CellTallies nD τ sig Unit := OR5 c + recvT c 4
def OR3 (c : Dev nD) : CellTallies nD τ sig Unit := OR4 c + recvT c 3
def OR2 (c : Dev nD) : CellTallies nD τ sig Unit := OR3 c + recvT c 2
def OR1 (c : Dev nD) : CellTallies nD τ sig Unit := OR2 c + recvT c 1
def OR0 (c : Dev nD) : CellTallies nD τ sig Unit := OR1 c + recvT c 0
def OB6 (c : Dev nD) : CellTallies nD τ sig Unit := OR0 c + barT c 6
def OB5 (c : Dev nD) : CellTallies nD τ sig Unit := OB6 c + barT c 5
def OB4 (c : Dev nD) : CellTallies nD τ sig Unit := OB5 c + barT c 4
def OB3 (c : Dev nD) : CellTallies nD τ sig Unit := OB4 c + barT c 3
def OB2 (c : Dev nD) : CellTallies nD τ sig Unit := OB3 c + barT c 2
def OB1 (c : Dev nD) : CellTallies nD τ sig Unit := OB2 c + barT c 1
def O₀ (c : Dev nD) : CellTallies nD τ sig Unit := OB1 c + barT c 0

def L (g : GSem nD τ sig) : Finset Unit := if g.1.2 = .tc then {()} else ∅
/-- Barrier semaphores at 1, receive semaphores at 2, everything else (staging, send) at 0. -/
def lv (g : GSem nD τ sig) (_ : Unit) : ℕ := if g.2 = .reg barS then 1 else if (recvIdx g.2).isSome then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := if_pos rfl
theorem lv_recv (c : Dev nD) (j : Fin 7) : lv (recvCell c j) () = 2 := by
  unfold lv; rw [if_neg (recv_ne_bar j), if_pos (by rw [recvIdx_recv]; rfl)]

theorem recvT_pos {c : Dev nD} {j : Fin 7} {g : GSem nD τ sig} {u : Unit} (h : 0 < recvT c j g u) : g = recvCell (peer c j) j := by
  unfold recvT at h; rw [tallyAt_apply] at h
  by_contra hn; rw [if_neg (fun h' => hn h'.1)] at h; exact Nat.lt_irrefl 0 h
theorem barT_pos {c : Dev nD} {j : Fin 7} {g : GSem nD τ sig} {u : Unit} (h : 0 < barT c j g u) : g = barCell (peer c j) := by
  unfold barT at h; rw [tallyAt_apply] at h
  by_contra hn; rw [if_neg (fun h' => hn h'.1)] at h; exact Nat.lt_irrefl 0 h

/-- Whatever the copies' dues are positive on is a receive semaphore of another device; -/
theorem OR0_pos {c : Dev nD} {g : GSem nD τ sig} {u : Unit} (h : 0 < OR0 c g u) : ∃ j, g = recvCell (peer c j) j := by
  unfold OR0 OR1 OR2 OR3 OR4 OR5 OR6 at h
  rcases Pipeline.add_pos_cases h with h | h
  · rcases Pipeline.add_pos_cases h with h | h
    · rcases Pipeline.add_pos_cases h with h | h
      · rcases Pipeline.add_pos_cases h with h | h
        · rcases Pipeline.add_pos_cases h with h | h
          · rcases Pipeline.add_pos_cases h with h | h
            · exact ⟨6, recvT_pos h⟩
            · exact ⟨5, recvT_pos h⟩
          · exact ⟨4, recvT_pos h⟩
        · exact ⟨3, recvT_pos h⟩
      · exact ⟨2, recvT_pos h⟩
    · exact ⟨1, recvT_pos h⟩
  · exact ⟨0, recvT_pos h⟩

/-- and the launch dues besides on a barrier semaphore. -/
theorem O₀_pos {c : Dev nD} {g : GSem nD τ sig} {u : Unit} (h : 0 < O₀ c g u) :
    (∃ j, g = recvCell (peer c j) j) ∨ ∃ j, g = barCell (peer c j) := by
  unfold O₀ OB1 OB2 OB3 OB4 OB5 OB6 at h
  rcases Pipeline.add_pos_cases h with h | h
  · rcases Pipeline.add_pos_cases h with h | h
    · rcases Pipeline.add_pos_cases h with h | h
      · rcases Pipeline.add_pos_cases h with h | h
        · rcases Pipeline.add_pos_cases h with h | h
          · rcases Pipeline.add_pos_cases h with h | h
            · rcases Pipeline.add_pos_cases h with h | h
              · exact .inl (OR0_pos h)
              · exact .inr ⟨6, barT_pos h⟩
            · exact .inr ⟨5, barT_pos h⟩
          · exact .inr ⟨4, barT_pos h⟩
        · exact .inr ⟨3, barT_pos h⟩
      · exact .inr ⟨2, barT_pos h⟩
    · exact .inr ⟨1, barT_pos h⟩
  · exact .inr ⟨0, barT_pos h⟩

/-- A wait on a semaphore of level 0 is allowed under the launch dues, and under none. -/
theorem mayWait_low (c : Dev nD) (s : SemLoc sig) (hs : lv ((c : Thread nD τ), s) () = 0) (O : CellTallies nD τ sig Unit) (hO : O = O₀ c ∨ O = 0) :
    (levAts L lv : sProp 𝕄) ⊢ MayWait (c : Thread nD τ) s () O := by
  rcases hO with rfl | rfl
  · refine Pipeline.mayWait_of_levAts (by rw [L_tc]; exact Finset.mem_singleton_self _) fun g u hg => ?_
    rcases O₀_pos hg with ⟨j, rfl⟩ | ⟨j, rfl⟩
    · exact ⟨by rw [L_tc]; exact Finset.mem_singleton_self _, by rw [hs, lv_recv]; decide⟩
    · exact ⟨by rw [L_tc]; exact Finset.mem_singleton_self _, by rw [hs, lv_bar]; decide⟩
  · rw [MayWait_zero]; iintro -; iempintro

/-- At its barrier wait a device owes its seven copies only: receive semaphores, above its barrier semaphore. -/
theorem mayWait_bar (c : Dev nD) : (levAts L lv : sProp 𝕄) ⊢ MayWait (c : Thread nD τ) (.reg barS) () (OR0 c) := by
  refine Pipeline.mayWait_of_levAts (by rw [L_tc]; exact Finset.mem_singleton_self _) fun g u hg => ?_
  obtain ⟨j, rfl⟩ := OR0_pos hg
  exact ⟨by rw [L_tc]; exact Finset.mem_singleton_self _, by rw [lv_bar, lv_recv]; decide⟩

/-! ## The cells, the ghost state, the pipeline's proof data -/

/-- A device's fifteen semaphores of the protocol: the barrier's, then per exchange the send and the receive one. -/
abbrev CK : Type := Option (Bool × Fin 7)
def csem : CK → SemLoc sig
  | none => .reg barS
  | some (false, j) => .dma (sendSem j)
  | some (true, j) => .dma (recvSem j)
abbrev kcell (ck : Dev nD × CK) : GSem nD τ sig := ((ck.1 : Thread nD τ), csem ck.2)

/-- Every cell's invariant under the names `K` the launch allocated them at, and every cell's round 0 reached. -/
def records (K : Dev nD × CK → ℕ) : sProp 𝕄 :=
  iprop((bigSep Finset.univ fun ck : Dev nD × CK => cellInv ER (a2aRd m) (K ck) (kcell ck))
    ∗ bigSep Finset.univ fun ck : Dev nD × CK => reached ER (kcell ck) 0)

instance records_persistent (K : Dev nD × CK → ℕ) : BI.Persistent (records m K) := by unfold records; infer_instance

theorem inv_at (K : Dev nD × CK → ℕ) (ck : Dev nD × CK) : records m K ⊢ cellInv ER (a2aRd m) (K ck) (kcell ck) := by
  unfold records
  exact (sep_elim_left (PROP := sProp 𝕄)).trans
    (bigSep_elim (Φ := fun ck : Dev nD × CK => (cellInv ER (a2aRd m) (K ck) (kcell ck) : sProp 𝕄)) (Finset.mem_univ ck))
theorem reached_at (K : Dev nD × CK → ℕ) (ck : Dev nD × CK) : records m K ⊢ reached ER (kcell ck) 0 := by
  unfold records
  exact (sep_elim_right (PROP := sProp 𝕄)).trans
    (bigSep_elim (Φ := fun ck : Dev nD × CK => (reached ER (kcell ck) 0 : sProp 𝕄)) (Finset.mem_univ ck))

/-- The tokens of the duties device `c` pays, per exchange: its unit on the barrier semaphore of the device `j + 1` places
    on (that semaphore's duty `j`), the copy's credit on that device's receive semaphore `j`, and on its own send semaphore `j`. -/
def payToks (c : Dev nD) : sProp 𝕄 :=
  bigSep Finset.univ fun j : Fin 7 => iprop(dutyTok ER (barCell (peer c j)) 0 j ∗ dutyTok ER (recvCell (peer c j) j) 0 0 ∗ dutyTok ER (sendCell c j) 0 0)

/-- Device `c`'s positions: at round 0 of its fifteen cells, nothing taken. -/
def positions (c : Dev nD) : sProp 𝕄 := bigSep Finset.univ fun k : CK => atPos ER (kcell (c, k)) 0 ∅ 0

def ghost (K : Dev nD × CK → ℕ) (c : Dev nD) : sProp 𝕄 := iprop(records m K ∗ positions c ∗ payToks c)

/-- The credit the launch deals device `c`: its barrier's seven units and each receive semaphore's copy credit. -/
def launchCreds (c : Dev nD) : sProp 𝕄 :=
  iprop(cred (tallyAt (barCell c) () 7) ∗ bigSep Finset.univ fun j : Fin 7 => cred (tallyAt (recvCell c j) () N))

/-- What device `c`'s body starts from, besides its buffers. -/
def start (c : Dev nD) : sProp 𝕄 := iprop((∃ K, ghost m K c) ∗ launchCreds c ∗ levAts L lv)

/-- The three scratch buffers of a device, each whole at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- The fourteen semaphores of the exchanges at zero, closed. -/
def closedSems (c : Dev nD) : sProp 𝕄 :=
  iprop((bigSep Finset.univ fun j : Fin 7 => semVal (sendCell c j) 0) ∗ bigSep Finset.univ fun j : Fin 7 => semVal (recvCell c j) 0)

def Φ₀ (c : Dev nD) : sProp 𝕄 := iprop(start m c ∗ scratch c)
def Φ₁ (c : Dev nD) : sProp 𝕄 := iprop(scratch c ∗ closedSems c)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => wstg m c
    | ⟨2, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

end Cert.KernelIdeal.A2a

end
-- ==== Proof.BodyStmt.lean ====
/-
  The body's proof obligation on one device, spelt out: from the invariants of the cells the device touches, its
  positions, duty tokens and launch credit, what it owes, and its six buffers, the body runs to a state where the
  scratch buffers are whole again, the fourteen exchange semaphores are closed at zero, nothing is owed, the two
  inputs' staging buffers are unchanged and the result's staging buffer holds the device's result block.
-/
import proofs.«900403_g7700000000000404_dist_a2a_gemm_m1024_k1024_n1024_f32_gelu_v7x_i8_1_alg».proof.Proof.Protocol

noncomputable section

namespace Cert.KernelIdeal.A2a

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A slot of the receive buffer under an opaque name: the same assertion as `slotPts`. -/
@[irreducible] def parkSlot (c : Dev nD) (j : Fin 7) (f : Buf (Elt F) ((c : Thread nD τ).loc cc0_scratch1)) : sProp 𝕄 := slotPts c j f
theorem parkSlot_def (c : Dev nD) (j : Fin 7) (f : Buf (Elt F) ((c : Thread nD τ).loc cc0_scratch1)) : parkSlot c j f = slotPts c j f := by unfold parkSlot; rfl
theorem parkSlot_eq (c : Dev nD) (j : Fin 7) (f : Buf (Elt F) ((c : Thread nD τ).loc cc0_scratch1)) :
    parkSlot c j f = ((dstM j).view.loc (c : Thread nD τ) ↦[(dstM j).view.set]{fullShare} f : sProp 𝕄) := by unfold parkSlot slotPts; rfl

/-- The launch dues, summand by summand. -/
theorem O₀_sum (c : Dev nD) : O₀ c = (tallyAt (recvCell (peer c 6) 6) () N + tallyAt (recvCell (peer c 5) 5) () N + tallyAt (recvCell (peer c 4) 4) () N + tallyAt (recvCell (peer c 3) 3) () N + tallyAt (recvCell (peer c 2) 2) () N + tallyAt (recvCell (peer c 1) 1) () N + tallyAt (recvCell (peer c 0) 0) () N + tallyAt (barCell (peer c 6)) () 1 + tallyAt (barCell (peer c 5)) () 1 + tallyAt (barCell (peer c 4)) () 1 + tallyAt (barCell (peer c 3)) () 1 + tallyAt (barCell (peer c 2)) () 1 + tallyAt (barCell (peer c 1)) () 1 + tallyAt (barCell (peer c 0)) () 1 : CellTallies nD τ sig Unit) := rfl

/-- What the body leaves. -/
def postFlat (c : Dev nD) : sProp 𝕄 :=
  iprop(scratch c ∗ closedSems c ∗ (∃ W', owes (c : Thread nD τ) 0 W')
    ∗ ((xM : Memref sig .tc .vmem S1024x128 .f32).view.loc (c : Thread nD τ) ↦[(xM : Memref sig .tc .vmem S1024x128 .f32).view.set]{fullShare} xstg m c)
    ∗ ((wM : Memref sig .tc .vmem S1024x1024 .f32).view.loc (c : Thread nD τ) ↦[(wM : Memref sig .tc .vmem S1024x1024 .f32).view.set]{fullShare} wstg m c)
    ∗ ((oM : Memref sig .tc .vmem S128x1024 .f32).view.loc (c : Thread nD τ) ↦[(oM : Memref sig .tc .vmem S128x1024 .f32).view.set]{fullShare} outAt m c))

/-- The body's obligation, flat. -/
def SoundFlat : Prop :=
  ∀ (K : Dev nD × CK → ℕ) (c : Dev nD) (W : Waits sig Unit) (g2 : Buf (Elt F) ((c : Thread nD τ).loc cc0_stg2_0))
    (f0 : Buf (Elt F) ((c : Thread nD τ).loc cc0_scratch0)) (f1 : Buf (Elt F) ((c : Thread nD τ).loc cc0_scratch1)) (f2 : Buf (Elt F) ((c : Thread nD τ).loc cc0_scratch2)),
    iprop(cellInv ER (a2aRd m) (K (c, none)) (barCell c)
      ∗ cellInv ER (a2aRd m) (K (c, some (false, 0))) (sendCell c 0)
      ∗ cellInv ER (a2aRd m) (K (c, some (false, 1))) (sendCell c 1)
      ∗ cellInv ER (a2aRd m) (K (c, some (false, 2))) (sendCell c 2)
      ∗ cellInv ER (a2aRd m) (K (c, some (false, 3))) (sendCell c 3)
      ∗ cellInv ER (a2aRd m) (K (c, some (false, 4))) (sendCell c 4)
      ∗ cellInv ER (a2aRd m) (K (c, some (false, 5))) (sendCell c 5)
      ∗ cellInv ER (a2aRd m) (K (c, some (false, 6))) (sendCell c 6)
      ∗ cellInv ER (a2aRd m) (K (c, some (true, 0))) (recvCell c 0)
      ∗ cellInv ER (a2aRd m) (K (c, some (true, 1))) (recvCell c 1)
      ∗ cellInv ER (a2aRd m) (K (c, some (true, 2))) (recvCell c 2)
      ∗ cellInv ER (a2aRd m) (K (c, some (true, 3))) (recvCell c 3)
      ∗ cellInv ER (a2aRd m) (K (c, some (true, 4))) (recvCell c 4)
      ∗ cellInv ER (a2aRd m) (K (c, some (true, 5))) (recvCell c 5)
      ∗ cellInv ER (a2aRd m) (K (c, some (true, 6))) (recvCell c 6)
      ∗ cellInv ER (a2aRd m) (K (peer c 0, none)) (barCell (peer c 0))
      ∗ cellInv ER (a2aRd m) (K (peer c 1, none)) (barCell (peer c 1))
      ∗ cellInv ER (a2aRd m) (K (peer c 2, none)) (barCell (peer c 2))
      ∗ cellInv ER (a2aRd m) (K (peer c 3, none)) (barCell (peer c 3))
      ∗ cellInv ER (a2aRd m) (K (peer c 4, none)) (barCell (peer c 4))
      ∗ cellInv ER (a2aRd m) (K (peer c 5, none)) (barCell (peer c 5))
      ∗ cellInv ER (a2aRd m) (K (peer c 6, none)) (barCell (peer c 6))
      ∗ cellInv ER (a2aRd m) (K (peer c 0, some (true, 0))) (recvCell (peer c 0) 0)
      ∗ cellInv ER (a2aRd m) (K (peer c 1, some (true, 1))) (recvCell (peer c 1) 1)
      ∗ cellInv ER (a2aRd m) (K (peer c 2, some (true, 2))) (recvCell (peer c 2) 2)
      ∗ cellInv ER (a2aRd m) (K (peer c 3, some (true, 3))) (recvCell (peer c 3) 3)
      ∗ cellInv ER (a2aRd m) (K (peer c 4, some (true, 4))) (recvCell (peer c 4) 4)
      ∗ cellInv ER (a2aRd m) (K (peer c 5, some (true, 5))) (recvCell (peer c 5) 5)
      ∗ cellInv ER (a2aRd m) (K (peer c 6, some (true, 6))) (recvCell (peer c 6) 6)
      ∗ reached ER (barCell (peer c 0)) 0
      ∗ reached ER (barCell (peer c 1)) 0
      ∗ reached ER (barCell (peer c 2)) 0
      ∗ reached ER (barCell (peer c 3)) 0
      ∗ reached ER (barCell (peer c 4)) 0
      ∗ reached ER (barCell (peer c 5)) 0
      ∗ reached ER (barCell (peer c 6)) 0
      ∗ reached ER (recvCell (peer c 0) 0) 0
      ∗ reached ER (recvCell (peer c 1) 1) 0
      ∗ reached ER (recvCell (peer c 2) 2) 0
      ∗ reached ER (recvCell (peer c 3) 3) 0
      ∗ reached ER (recvCell (peer c 4) 4) 0
      ∗ reached ER (recvCell (peer c 5) 5) 0
      ∗ reached ER (recvCell (peer c 6) 6) 0
      ∗ reached ER (sendCell c 0) 0
      ∗ reached ER (sendCell c 1) 0
      ∗ reached ER (sendCell c 2) 0
      ∗ reached ER (sendCell c 3) 0
      ∗ reached ER (sendCell c 4) 0
      ∗ reached ER (sendCell c 5) 0
      ∗ reached ER (sendCell c 6) 0
      ∗ levAts L lv
      ∗ atPos ER (barCell c) 0 ∅ 0
      ∗ atPos ER (sendCell c 0) 0 ∅ 0
      ∗ atPos ER (sendCell c 1) 0 ∅ 0
      ∗ atPos ER (sendCell c 2) 0 ∅ 0
      ∗ atPos ER (sendCell c 3) 0 ∅ 0
      ∗ atPos ER (sendCell c 4) 0 ∅ 0
      ∗ atPos ER (sendCell c 5) 0 ∅ 0
      ∗ atPos ER (sendCell c 6) 0 ∅ 0
      ∗ atPos ER (recvCell c 0) 0 ∅ 0
      ∗ atPos ER (recvCell c 1) 0 ∅ 0
      ∗ atPos ER (recvCell c 2) 0 ∅ 0
      ∗ atPos ER (recvCell c 3) 0 ∅ 0
      ∗ atPos ER (recvCell c 4) 0 ∅ 0
      ∗ atPos ER (recvCell c 5) 0 ∅ 0
      ∗ atPos ER (recvCell c 6) 0 ∅ 0
      ∗ dutyTok ER (barCell (peer c 0)) 0 0
      ∗ dutyTok ER (barCell (peer c 1)) 0 1
      ∗ dutyTok ER (barCell (peer c 2)) 0 2
      ∗ dutyTok ER (barCell (peer c 3)) 0 3
      ∗ dutyTok ER (barCell (peer c 4)) 0 4
      ∗ dutyTok ER (barCell (peer c 5)) 0 5
      ∗ dutyTok ER (barCell (peer c 6)) 0 6
      ∗ dutyTok ER (recvCell (peer c 0) 0) 0 0
      ∗ dutyTok ER (recvCell (peer c 1) 1) 0 0
      ∗ dutyTok ER (recvCell (peer c 2) 2) 0 0
      ∗ dutyTok ER (recvCell (peer c 3) 3) 0 0
      ∗ dutyTok ER (recvCell (peer c 4) 4) 0 0
      ∗ dutyTok ER (recvCell (peer c 5) 5) 0 0
      ∗ dutyTok ER (recvCell (peer c 6) 6) 0 0
      ∗ dutyTok ER (sendCell c 0) 0 0
      ∗ dutyTok ER (sendCell c 1) 0 0
      ∗ dutyTok ER (sendCell c 2) 0 0
      ∗ dutyTok ER (sendCell c 3) 0 0
      ∗ dutyTok ER (sendCell c 4) 0 0
      ∗ dutyTok ER (sendCell c 5) 0 0
      ∗ dutyTok ER (sendCell c 6) 0 0
      ∗ cred (tallyAt (barCell c) () 7)
      ∗ cred (tallyAt (recvCell c 0) () N)
      ∗ cred (tallyAt (recvCell c 1) () N)
      ∗ cred (tallyAt (recvCell c 2) () N)
      ∗ cred (tallyAt (recvCell c 3) () N)
      ∗ cred (tallyAt (recvCell c 4) () N)
      ∗ cred (tallyAt (recvCell c 5) () N)
      ∗ cred (tallyAt (recvCell c 6) () N)
      ∗ owes (c : Thread nD τ) (O₀ c) W
      ∗ ((xM : Memref sig .tc .vmem S1024x128 .f32).view.loc (c : Thread nD τ) ↦[(xM : Memref sig .tc .vmem S1024x128 .f32).view.set]{fullShare} xstg m c)
      ∗ ((wM : Memref sig .tc .vmem S1024x1024 .f32).view.loc (c : Thread nD τ) ↦[(wM : Memref sig .tc .vmem S1024x1024 .f32).view.set]{fullShare} wstg m c)
      ∗ ((oM : Memref sig .tc .vmem S128x1024 .f32).view.loc (c : Thread nD τ) ↦[(oM : Memref sig .tc .vmem S128x1024 .f32).view.set]{fullShare} g2)
      ∗ ((stM : Memref sig .tc .vmem S1024x128 .bf16).view.loc (c : Thread nD τ) ↦[(stM : Memref sig .tc .vmem S1024x128 .bf16).view.set]{fullShare} f0)
      ∗ parkSlot c 0 f1
      ∗ parkSlot c 1 f1
      ∗ parkSlot c 2 f1
      ∗ parkSlot c 3 f1
      ∗ parkSlot c 4 f1
      ∗ parkSlot c 5 f1
      ∗ parkSlot c 6 f1
      ∗ ((wbM : Memref sig .tc .vmem S1024x1024 .bf16).view.loc (c : Thread nD τ) ↦[(wbM : Memref sig .tc .vmem S1024x1024 .bf16).view.set]{fullShare} f2))
      ⊢ wp frame (wpE (defs₀ (F := F)) 𝒱₀ c none) Set.univ
          (cc0_body (Memref.whole cc0_stg0_0) (Memref.isWhole_whole _) (Memref.whole cc0_stg1_0) (Memref.isWhole_whole _) (Memref.whole cc0_stg2_0) (Memref.isWhole_whole _)
            (Memref.whole cc0_scratch0) (Memref.isWhole_whole _) (Memref.whole cc0_scratch1) (Memref.isWhole_whole _) (Memref.whole cc0_scratch2) (Memref.isWhole_whole _) cc0_scratch3 cc0_scratch4) (fun _ => postFlat m c)

end Cert.KernelIdeal.A2a

end
-- ==== Proof.Regions.lean ====
/-
  The two scratch buffers of the exchange cut into the pieces each copy owns: the stage buffer into the seven row blocks
  that are sent and the one that is kept, the receive buffer into its seven slots.
-/
import proofs.«900403_g7700000000000404_dist_a2a_gemm_m1024_k1024_n1024_f32_gelu_v7x_i8_1_alg».proof.Proof.Views

noncomputable section

namespace Cert.KernelIdeal.A2a

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The receive buffer -/

abbrev slotR (j : Fin 7) : Rect S7x128x128 := Rect.unit (s := S7x128x128) ![j.val, 0, 0] S1x128x128.size (inb_slot j)

/-- Slot `j` is the part of the receive buffer whose first coordinate is `j`. -/
theorem dst_set (j : Fin 7) : (dstM j).view.set = (slotR j).set :=
  (View.set_reshape _ _).trans (View.set_slice_whole _ _)

theorem mem_slotR (j : Fin 7) (i : S7x128x128.Idx) : i ∈ (slotR j).set ↔ (i 0).val = j.val := by
  rw [Rect.mem_set_unit]
  constructor
  · intro h; have := h 0; simp at this; omega
  · intro h a
    have := (i a).isLt
    fin_cases a <;> simp_all

theorem mem_dst (j : Fin 7) (i : S7x128x128.Idx) : i ∈ (dstM j).view.set ↔ (i 0).val = j.val := by
  rw [dst_set]; exact mem_slotR j i

theorem slotR_disjoint {j j' : Fin 7} (h : j ≠ j') : Disjoint (slotR j).set (slotR j').set := by
  rw [Finset.disjoint_left]
  intro i hi hi'
  rw [mem_slotR] at hi hi'
  exact h (Fin.ext (hi.symm.trans hi'))

theorem slotR_cover : (Finset.univ : Finset S7x128x128.Idx) =
    (slotR 0).set ∪ ((slotR 1).set ∪ ((slotR 2).set ∪ ((slotR 3).set ∪ ((slotR 4).set ∪ ((slotR 5).set ∪ (slotR 6).set))))) := by
  ext i
  have hi : (i 0).val < 7 := (i 0).isLt
  simp only [Finset.mem_univ, Finset.mem_union, mem_slotR, true_iff]
  show (i 0).val = 0 ∨ (i 0).val = 1 ∨ (i 0).val = 2 ∨ (i 0).val = 3 ∨ (i 0).val = 4 ∨ (i 0).val = 5 ∨ (i 0).val = 6
  omega

omit [FloatOps F] in
theorem slotPts_eq (c : Dev nD) (j : Fin 7) (f : Buf (Elt F) ((c : Thread nD τ).loc cc0_scratch1)) :
    slotPts c j f = ((((c : Thread nD τ).loc cc0_scratch1) ↦[(slotR j).set]{fullShare} f : sProp 𝕄)) :=
  congrArg (fun S => ((((c : Thread nD τ).loc cc0_scratch1) ↦[S]{fullShare} f : sProp 𝕄))) (dst_set j)

omit [FloatOps F] in
/-- The receive buffer is its seven slots. -/
theorem comm_split (c : Dev nD) (f : Buf (Elt F) ((c : Thread nD τ).loc cc0_scratch1)) :
    ((((c : Thread nD τ).loc cc0_scratch1) ↦{fullShare} f : sProp 𝕄)) ⊣⊢
      iprop(slotPts c 0 f ∗ slotPts c 1 f ∗ slotPts c 2 f ∗ slotPts c 3 f ∗ slotPts c 4 f ∗ slotPts c 5 f ∗ slotPts c 6 f) := by
  simp only [slotPts_eq]
  have e0 : ((((c : Thread nD τ).loc cc0_scratch1) ↦{fullShare} f : sProp 𝕄)) = _ :=
    congrArg (fun S => ((((c : Thread nD τ).loc cc0_scratch1) ↦[S]{fullShare} f : sProp 𝕄))) slotR_cover
  rw [e0]
  have d : ∀ {j j' : Fin 7}, j ≠ j' → Disjoint (slotR j).set (slotR j').set := fun h => slotR_disjoint h
  refine (Region.is_union ?_).trans (sep_congr_right ((Region.is_union ?_).trans (sep_congr_right
    ((Region.is_union ?_).trans (sep_congr_right ((Region.is_union ?_).trans (sep_congr_right
    ((Region.is_union ?_).trans (sep_congr_right (Region.is_union ?_))))))))))
  all_goals first
    | (simp only [Finset.disjoint_union_right]; (repeat' constructor) <;> exact d (by decide))
    | exact d (by decide)

/-! ## The stage buffer -/

/-- The rows exchange `j` sends, and the rows that stay. -/
abbrev srcR (c : Dev nD) (j : Fin 7) : Rect S1024x128 :=
  Rect.unit (s := S1024x128) (k0_off3 c (BitVec.ofNat 32 (1 + j.val))) S128x128.size (k0_off3_inb c j)
abbrev ownR (c : Dev nD) : Rect S1024x128 := Rect.unit (s := S1024x128) (k0_off1 c) S128x128.size (k0_off1_inb c)

/-- Device `c`'s own row block of its stage buffer, as a memref. -/
def ownM (c : Dev nD) : Memref sig .tc .vmem S128x128 .bf16 := stM.slice (ownR c) (fun _ => rfl)

theorem src_set (c : Dev nD) (j : Fin 7) : (srcM c j).view.set = (srcR c j).set := View.set_slice_whole _ _
theorem own_set (c : Dev nD) : (ownM c).view.set = (ownR c).set := View.set_slice_whole _ _

/-- The rows exchange `j` sends are the row block of the addressee. -/
theorem mem_srcR (c : Dev nD) (j : Fin 7) (i : S1024x128.Idx) : i ∈ (srcR c j).set ↔ (i 0).val / 128 = (peer c j).val := by
  rw [Rect.mem_set_unit, k0_off3_eq]
  show _ ↔ (i 0).val / 128 = (c.val + j.val + 1) % 8
  constructor
  · intro h; have := h 0; simp at this; omega
  · intro h a
    have := (i a).isLt
    fin_cases a <;> simp_all <;> omega

theorem mem_ownR (c : Dev nD) (i : S1024x128.Idx) : i ∈ (ownR c).set ↔ (i 0).val / 128 = c.val := by
  rw [Rect.mem_set_unit, k0_off1_eq]
  constructor
  · intro h; have := h 0; simp at this; omega
  · intro h a
    have := (i a).isLt
    fin_cases a <;> simp_all <;> omega

theorem srcR_disjoint (c : Dev nD) {j j' : Fin 7} (h : j ≠ j') : Disjoint (srcR c j).set (srcR c j').set := by
  rw [Finset.disjoint_left]
  intro i hi hi'
  rw [mem_srcR] at hi hi'
  exact h (peer_inj c j j' (Fin.ext (hi.symm.trans hi')))

theorem srcR_ownR_disjoint (c : Dev nD) (j : Fin 7) : Disjoint (srcR c j).set (ownR c).set := by
  rw [Finset.disjoint_left]
  intro i hi hi'
  rw [mem_srcR] at hi; rw [mem_ownR] at hi'
  exact peer_ne c j (Fin.ext (hi.symm.trans hi'))

theorem peer_cover (c b : Dev nD) : b = peer c 0 ∨ b = peer c 1 ∨ b = peer c 2 ∨ b = peer c 3 ∨ b = peer c 4 ∨ b = peer c 5 ∨
    b = peer c 6 ∨ b = c := by revert c b; decide

theorem stage_cover (c : Dev nD) : (Finset.univ : Finset S1024x128.Idx) =
    (srcR c 0).set ∪ ((srcR c 1).set ∪ ((srcR c 2).set ∪ ((srcR c 3).set ∪ ((srcR c 4).set ∪ ((srcR c 5).set ∪
      ((srcR c 6).set ∪ (ownR c).set)))))) := by
  ext i
  have hi : (i 0).val / 128 < 8 := by have : (i 0).val < 1024 := (i 0).isLt; omega
  simp only [Finset.mem_univ, Finset.mem_union, mem_srcR, mem_ownR, true_iff]
  have := peer_cover c ⟨(i 0).val / 128, hi⟩
  simpa only [Fin.ext_iff] using this

/-- The rows of the stage buffer that no exchange sends, held whole. -/
def stageRest (c : Dev nD) (f : Buf (Elt F) ((c : Thread nD τ).loc cc0_scratch0)) : sProp 𝕄 :=
  (ownM c).view.loc (c : Thread nD τ) ↦[(ownM c).view.set]{fullShare} f

omit [FloatOps F] in
theorem srcPts_eq (c : Dev nD) (j : Fin 7) (f : Buf (Elt F) ((c : Thread nD τ).loc cc0_scratch0)) :
    srcPts c j f = ((((c : Thread nD τ).loc cc0_scratch0) ↦[(srcR c j).set]{fullShare} f : sProp 𝕄)) :=
  congrArg (fun S => ((((c : Thread nD τ).loc cc0_scratch0) ↦[S]{fullShare} f : sProp 𝕄))) (src_set c j)

omit [FloatOps F] in
theorem stageRest_eq (c : Dev nD) (f : Buf (Elt F) ((c : Thread nD τ).loc cc0_scratch0)) :
    stageRest c f = ((((c : Thread nD τ).loc cc0_scratch0) ↦[(ownR c).set]{fullShare} f : sProp 𝕄)) :=
  congrArg (fun S => ((((c : Thread nD τ).loc cc0_scratch0) ↦[S]{fullShare} f : sProp 𝕄))) (own_set c)

omit [FloatOps F] in
/-- The stage buffer is the seven row blocks that are sent and the one that stays. -/
theorem stage_split (c : Dev nD) (f : Buf (Elt F) ((c : Thread nD τ).loc cc0_scratch0)) :
    ((((c : Thread nD τ).loc cc0_scratch0) ↦{fullShare} f : sProp 𝕄)) ⊣⊢
      iprop(srcPts c 0 f ∗ srcPts c 1 f ∗ srcPts c 2 f ∗ srcPts c 3 f ∗ srcPts c 4 f ∗ srcPts c 5 f ∗ srcPts c 6 f ∗
        stageRest c f) := by
  simp only [srcPts_eq, stageRest_eq]
  have e0 : ((((c : Thread nD τ).loc cc0_scratch0) ↦{fullShare} f : sProp 𝕄)) = _ :=
    congrArg (fun S => ((((c : Thread nD τ).loc cc0_scratch0) ↦[S]{fullShare} f : sProp 𝕄))) (stage_cover c)
  rw [e0]
  have d : ∀ j j' : Fin 7, j ≠ j' → Disjoint (srcR c j).set (srcR c j').set := fun _ _ h => srcR_disjoint c h
  have d' : ∀ j : Fin 7, Disjoint (srcR c j).set (ownR c).set := srcR_ownR_disjoint c
  have dU : ∀ {I J K : Finset S1024x128.Idx}, Disjoint I J → Disjoint I K → Disjoint I (J ∪ K) :=
    fun h1 h2 => Finset.disjoint_union_right.mpr ⟨h1, h2⟩
  refine (Region.is_union ?_).trans (sep_congr_right ((Region.is_union ?_).trans (sep_congr_right
    ((Region.is_union ?_).trans (sep_congr_right ((Region.is_union ?_).trans (sep_congr_right
    ((Region.is_union ?_).trans (sep_congr_right ((Region.is_union ?_).trans (sep_congr_right
    (Region.is_union ?_))))))))))))
  · exact (dU (d 0 1 (by decide)) (dU (d 0 2 (by decide)) (dU (d 0 3 (by decide)) (dU (d 0 4 (by decide)) (dU (d 0 5 (by decide)) (dU (d 0 6 (by decide)) (d' 0)))))))
  · exact (dU (d 1 2 (by decide)) (dU (d 1 3 (by decide)) (dU (d 1 4 (by decide)) (dU (d 1 5 (by decide)) (dU (d 1 6 (by decide)) (d' 1))))))
  · exact (dU (d 2 3 (by decide)) (dU (d 2 4 (by decide)) (dU (d 2 5 (by decide)) (dU (d 2 6 (by decide)) (d' 2)))))
  · exact (dU (d 3 4 (by decide)) (dU (d 3 5 (by decide)) (dU (d 3 6 (by decide)) (d' 3))))
  · exact (dU (d 4 5 (by decide)) (dU (d 4 6 (by decide)) (d' 4)))
  · exact (dU (d 5 6 (by decide)) (d' 5))
  · exact (d' 6)

end Cert.KernelIdeal.A2a

end
-- ==== Proof.Launch.lean ====
/-
  The launch of the exchange: every device's semaphores, the ghost state of the protocol's cells and the duty tokens
  are dealt at once, each device gets the tokens of the duties it pays and the credit of what the others owe it, and
  the launch theorem turns the proof of one device's body into a run of the whole mesh.
-/
import proofs.«900403_g7700000000000404_dist_a2a_gemm_m1024_k1024_n1024_f32_gelu_v7x_i8_1_alg».proof.Proof.Protocol
import proofs.«900403_g7700000000000404_dist_a2a_gemm_m1024_k1024_n1024_f32_gelu_v7x_i8_1_alg».proof.Proof.Gen.KernelIdeal.Frame

noncomputable section

namespace Cert.KernelIdeal.A2a

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens the launch mints -/

/-- The kernel's own fourteen semaphores: per exchange the send and the receive one. -/
abbrev osem : Bool × Fin 7 → SemLoc sig := fun k => csem (some k)

theorem ownSemFacts : Pipeline.OwnSemFacts cfg0.spec osem := by decide

theorem share_eq (c : Dev nD) (w : Fin cfg0.W) : (dats m 0 c).share w = fullShare := by unfold Dat.share; split <;> rfl

theorem csem_injective : Function.Injective csem := by intro a b; revert a b; decide

theorem kcell_injective : Function.Injective (kcell : Dev nD × CK → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]
def ringCells : Finset (GSem nD τ sig) := Finset.univ.map ⟨kcell, kcell_injective⟩

/-- A device's own cells' duty tokens as minted: the barrier's seven, and one per send and per receive semaphore. -/
abbrev tokOf (cj : Dev nD × (Fin 7 ⊕ (Bool × Fin 7))) : GSem nD τ sig × ℕ × Fin 7 := match cj.2 with
  | .inl d => (barCell cj.1, 0, d)
  | .inr k => (kcell (cj.1, some k), 0, 0)
theorem tokOf_injective : Function.Injective (tokOf : Dev nD × (Fin 7 ⊕ (Bool × Fin 7)) → GSem nD τ sig × ℕ × Fin 7) := by
  rintro ⟨c, j⟩ ⟨c', j'⟩ h
  have h1 : c = c' := by
    have := congrArg (fun x : GSem nD τ sig × ℕ × Fin 7 => x.1.1.1) h
    rcases j with d | k <;> rcases j' with d' | k' <;> exact this
  subst h1
  have : j = j' := by
    rcases j with d | k <;> rcases j' with d' | k'
    · exact congrArg Sum.inl (congrArg (fun x : GSem nD τ sig × ℕ × Fin 7 => x.2.2) h)
    · exact absurd (csem_injective (a₁ := none) (a₂ := some k') (congrArg (fun x : GSem nD τ sig × ℕ × Fin 7 => x.1.2) h)) (fun h' => by cases h')
    · exact absurd (csem_injective (a₁ := some k) (a₂ := none) (congrArg (fun x : GSem nD τ sig × ℕ × Fin 7 => x.1.2) h)) (fun h' => by cases h')
    · exact congrArg Sum.inr (Option.some.inj (csem_injective (congrArg (fun x : GSem nD τ sig × ℕ × Fin 7 => x.1.2) h)))
  subst this; rfl
def ringToks : Finset (GSem nD τ sig × ℕ × Fin 7) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep Finset.univ fun d : Fin 7 => dutyTok ER (barCell c) 0 d)
    ∗ bigSep Finset.univ fun k : Bool × Fin 7 => dutyTok ER (kcell (c, some k)) 0 0)

/-- What the launch element deals device `c`. -/
def G (c : Dev nD) : sProp 𝕄 :=
  iprop((bigSep Finset.univ fun k : CK => roundState ER (a2aRd m) (kcell (c, k)) 0)
    ∗ (bigSep Finset.univ fun k : CK => iprop(atPos ER (kcell (c, k)) 0 ∅ 0 ∗ reached ER (kcell (c, k)) 0)) ∗ toks c)

/-- What the global step makes of it. -/
def G' (c : Dev nD) : sProp 𝕄 := iprop(∃ K, ghost m K c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum]; rfl
  iintro HX
  imod (Rounds.fund ER (a2aRd m) ringCells ringToks) $$ HX with ⟨Hst, Hr, Hat, Htok⟩
  imodintro
  ihave Hst' := (Entails.of_eq (hX fun g => roundState ER (a2aRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Every cell's invariant allocated, the tokens dealt to the payers -/

omit [FloatOps F] in
/-- The fifteen cells of a device: the barrier's, then the fourteen of the exchanges. -/
theorem bigSep_CK (Φ : CK → sProp 𝕄) : bigSep Finset.univ Φ = iprop(Φ none ∗ bigSep Finset.univ fun k : Bool × Fin 7 => Φ (some k)) := by
  rw [bigSep_univ_at Φ none, show (Finset.univ.erase (none : CK)) = Finset.univ.map ⟨some, Option.some_injective _⟩ from by decide, bigSep_map]; rfl

omit [FloatOps F] in
/-- The fourteen, by kind. -/
theorem bigSep_BJ (Φ : Bool × Fin 7 → sProp 𝕄) :
    bigSep Finset.univ Φ = iprop((bigSep Finset.univ fun j : Fin 7 => Φ (false, j)) ∗ bigSep Finset.univ fun j : Fin 7 => Φ (true, j)) := by
  rw [bigSep_univ_prod, bigSep_univ_eq_bigSepL [false, true] (by decide) (by decide)]; rfl

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

omit [FloatOps F] in
/-- The send and receive semaphores are the kernel's own fourteen; -/
theorem ownSems0_eq (c : Dev nD) : (Pipeline.ownSems0 (Ix := Unit) (Name := ℕ) (U := UU) (Lvl := ℕ) (Val := Elt F) (τ := τ) osem c : sProp 𝕄)
    = closedSems c := by
  unfold Pipeline.ownSems0 closedSems; rw [bigSep_BJ]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [unscopedSems0_eq, bigSep_CK]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (a2aRd m) κ (kcell (c, k))))
          ∗ (bigSep Finset.univ fun k : CK => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (a2aRd m) (kcell (c, k)) 0)
      ⊢ (|={Set.univ}=> bigSep Finset.univ fun k : CK => iprop(∃ κ : ℕ, cellInv ER (a2aRd m) κ (kcell (c, k))) : sProp 𝕄) from by
        rw [← bigSep_sep']
        exact (bigSep_mono fun k _ => (Rounds.body_intro ER (a2aRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × CK → ℕ) (c : Dev nD) : iprop(records m K ∗ positions c ∗ payToks c) ⊢ G' m c := by
  unfold G' ghost
  iintro H
  iexists K
  iexact H

omit [FloatOps F] in
/-- A device's own tokens by kind. -/
theorem toks_eq (c : Dev nD) : (toks c : sProp 𝕄) = iprop((bigSep Finset.univ fun d : Fin 7 => dutyTok ER (barCell c) 0 d)
    ∗ (bigSep Finset.univ fun j : Fin 7 => dutyTok ER (sendCell c j) 0 0) ∗ bigSep Finset.univ fun j : Fin 7 => dutyTok ER (recvCell c j) 0 0) := by
  unfold toks; rw [bigSep_BJ]; rfl

omit [FloatOps F] in
/-- What each device holds for exchange `j` of itself, all devices holding it for exchange `j` of the device `j + 1` places on instead. -/
theorem swap_peer (Φ : Dev nD → Fin 7 → sProp 𝕄) :
    (bigSep Finset.univ fun c : Dev nD => bigSep Finset.univ fun j : Fin 7 => Φ c j)
      = bigSep Finset.univ fun c : Dev nD => bigSep Finset.univ fun j : Fin 7 => Φ (peer c j) j :=
  (bigSep_univ_comm Φ).trans ((bigSep_congr fun j _ => bigSep_univ_equiv (ringJ j) (fun c => Φ c j)).trans
    (bigSep_univ_comm (fun (j : Fin 7) (c : Dev nD) => Φ (peer c j) j)))

omit [FloatOps F] in
theorem payToks_eq : (bigSep Finset.univ fun c : Dev nD => (payToks c : sProp 𝕄))
    = iprop((bigSep Finset.univ fun c : Dev nD => bigSep Finset.univ fun j : Fin 7 => dutyTok ER (barCell (peer c j)) 0 j)
      ∗ (bigSep Finset.univ fun c : Dev nD => bigSep Finset.univ fun j : Fin 7 => dutyTok ER (recvCell (peer c j) j) 0 0)
      ∗ bigSep Finset.univ fun c : Dev nD => bigSep Finset.univ fun j : Fin 7 => dutyTok ER (sendCell c j) 0 0) := by
  unfold payToks; simp only [bigSep_sep']

omit [FloatOps F] in
/-- The tokens dealt to the payers: barrier duty `j` and the receive duty of exchange `j` go `j + 1` places back. -/
theorem toks_around : (bigSep Finset.univ fun c : Dev nD => (toks c : sProp 𝕄)) ⊢ bigSep Finset.univ fun c : Dev nD => payToks c := by
  rw [payToks_eq, bigSep_congr (fun c _ => toks_eq c), bigSep_sep', bigSep_sep',
    swap_peer (fun c d => (dutyTok ER (barCell c) 0 d : sProp 𝕄)), swap_peer (fun c j => (dutyTok ER (recvCell c j) 0 0 : sProp 𝕄))]
  iintro ⟨H1, H2, H3⟩
  isplitl [H1]; · iexact H1
  isplitl [H3]; · iexact H3
  iexact H2

theorem regroup :
    (bigSep Finset.univ fun c : Dev nD => iprop((bigSep Finset.univ fun k : CK => iprop(∃ κ : ℕ, cellInv ER (a2aRd m) κ (kcell (c, k))))
          ∗ (bigSep Finset.univ fun k : CK => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CK => iprop(∃ κ : ℕ, cellInv ER (a2aRd m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (a2aRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (Entails.of_eq (bigSep_sep' Finset.univ (fun c : Dev nD => (positions c : sProp 𝕄)) payToks).symm)
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

omit [FloatOps F] in
/-- Every device owing the barrier semaphore `j + 1` places on one unit, each device is dealt one unit of credit on its own; -/
theorem cred_bar (c : Dev nD) (j : Fin 7) :
    (Pipeline.launchCred (fun d => barT d j) c : sProp 𝕄) ⊢ cred (tallyAt (barCell c) () 1) :=
  Pipeline.launchCred_tallyAt (.reg barS) (fun d => peer d j) (fun d => orig d j) (fun c => peer_orig c j) (fun d => orig_peer d j) () 1 c
omit [FloatOps F] in
/-- likewise a copy's credit on its receive semaphore `j`. -/
theorem cred_recv (c : Dev nD) (j : Fin 7) :
    (Pipeline.launchCred (fun d => recvT d j) c : sProp 𝕄) ⊢ cred (tallyAt (recvCell c j) () N) :=
  Pipeline.launchCred_tallyAt (.dma (recvSem j)) (fun d => peer d j) (fun d => orig d j) (fun c => peer_orig c j) (fun d => orig_peer d j) () N c

omit [FloatOps F] in
theorem cred_join (g : GSem nD τ sig) (a b : ℕ) : iprop(cred (tallyAt g () a) ∗ cred (tallyAt g () b)) ⊢ (cred (tallyAt g () (a + b)) : sProp 𝕄) := by
  rw [← tallyAt_add]; exact (cred_add _ _).2

omit [FloatOps F] in
/-- The launch dues, summand by summand. -/
theorem launchCred_split (c : Dev nD) : (Pipeline.launchCred O₀ c : sProp 𝕄)
    = iprop((((((((((((((Pipeline.launchCred (fun d => recvT d 6) c ∗ Pipeline.launchCred (fun d => recvT d 5) c) ∗ Pipeline.launchCred (fun d => recvT d 4) c)
        ∗ Pipeline.launchCred (fun d => recvT d 3) c) ∗ Pipeline.launchCred (fun d => recvT d 2) c) ∗ Pipeline.launchCred (fun d => recvT d 1) c)
        ∗ Pipeline.launchCred (fun d => recvT d 0) c) ∗ Pipeline.launchCred (fun d => barT d 6) c) ∗ Pipeline.launchCred (fun d => barT d 5) c)
        ∗ Pipeline.launchCred (fun d => barT d 4) c) ∗ Pipeline.launchCred (fun d => barT d 3) c) ∗ Pipeline.launchCred (fun d => barT d 2) c)
        ∗ Pipeline.launchCred (fun d => barT d 1) c) ∗ Pipeline.launchCred (fun d => barT d 0) c)) := by
  rw [← Pipeline.launchCred_add, ← Pipeline.launchCred_add, ← Pipeline.launchCred_add, ← Pipeline.launchCred_add, ← Pipeline.launchCred_add,
    ← Pipeline.launchCred_add, ← Pipeline.launchCred_add, ← Pipeline.launchCred_add, ← Pipeline.launchCred_add, ← Pipeline.launchCred_add,
    ← Pipeline.launchCred_add, ← Pipeline.launchCred_add, ← Pipeline.launchCred_add]
  rfl

omit [FloatOps F] in
theorem creds (c : Dev nD) : (Pipeline.launchCred O₀ c : sProp 𝕄) ⊢ launchCreds c := by
  rw [launchCred_split]
  unfold launchCreds
  rw [bigSep_fin7]
  iintro ⟨⟨⟨⟨⟨⟨⟨⟨⟨⟨⟨⟨⟨R6, R5⟩, R4⟩, R3⟩, R2⟩, R1⟩, R0⟩, B6⟩, B5⟩, B4⟩, B3⟩, B2⟩, B1⟩, B0⟩
  ihave C0 := (cred_bar (F := F) c 0) $$ B0
  ihave C1 := (cred_bar (F := F) c 1) $$ B1
  ihave C2 := (cred_bar (F := F) c 2) $$ B2
  ihave C3 := (cred_bar (F := F) c 3) $$ B3
  ihave C4 := (cred_bar (F := F) c 4) $$ B4
  ihave C5 := (cred_bar (F := F) c 5) $$ B5
  ihave C6 := (cred_bar (F := F) c 6) $$ B6
  ihave D1 := (cred_join (F := F) (barCell c) 1 1) $$ [C0 C1]
  · isplitl [C0] <;> iassumption
  ihave D2 := (cred_join (F := F) (barCell c) 2 1) $$ [D1 C2]
  · isplitl [D1] <;> iassumption
  ihave D3 := (cred_join (F := F) (barCell c) 3 1) $$ [D2 C3]
  · isplitl [D2] <;> iassumption
  ihave D4 := (cred_join (F := F) (barCell c) 4 1) $$ [D3 C4]
  · isplitl [D3] <;> iassumption
  ihave D5 := (cred_join (F := F) (barCell c) 5 1) $$ [D4 C5]
  · isplitl [D4] <;> iassumption
  ihave D6 := (cred_join (F := F) (barCell c) 6 1) $$ [D5 C6]
  · isplitl [D5] <;> iassumption
  isplitl [D6]; · iexact D6
  isplitl [R0]; · iapply (cred_recv (F := F) c 0); iexact R0
  isplitl [R1]; · iapply (cred_recv (F := F) c 1); iexact R1
  isplitl [R2]; · iapply (cred_recv (F := F) c 2); iexact R2
  isplitl [R3]; · iapply (cred_recv (F := F) c 3); iexact R3
  isplitl [R4]; · iapply (cred_recv (F := F) c 4); iexact R4
  isplitl [R5]; · iapply (cred_recv (F := F) c 5); iexact R5
  iapply (cred_recv (F := F) c 6); iexact R6

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁ scratch
  iintro ⟨Hr, Hz⟩
  isplitr; · iempintro
  isplitl [Hz]; · iexact Hz
  iexact Hr

/-- The pipeline's own waits, on its three staging semaphores, rank below everything a device owes. -/
theorem waits (c : Dev nD) : (levAts L lv : sProp 𝕄) ⊢ Pipeline.cellsWaits cfgs (dats m) () 0 c :=
  Pipeline.cellsWaits_intro cfgs (dats m) () 0 c fun w s t =>
    mayWait_low c _ (by fin_cases w <;> fin_cases s <;> revert c <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- At the compiled mesh of eight devices, for any float values, from any memory with zero counters: given the proof of
    one device's body, every weakly fair execution of the eight kernels — meeting on the barrier semaphore, then
    exchanging rows — terminates, and every final state has each device's arrays at the computed contents. -/
theorem run_main (hbody : ∀ c, BodyObligation (dats (F := F) m 0 c) (defs₀ (F := F)) 𝒱₀ () Set.univ) :
    θ_run defs (onTc (τ := τ) (main (F := F))) (s₀ m ρ) (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- info: 'Cert.KernelIdeal.A2a.run_main' depends on axioms: [propext, Classical.choice, Quot.sound] -/
#guard_msgs in #print axioms run_main

/-! ## The arrays after the run -/

/-- The two argument arrays hold what they held. -/
theorem finalA_x (c : Dev nD) : finalA m c (0 : Fin 3) = m ((c : Thread nD τ).loc main_arg0) :=
  (dats (F := F) m 0 c).arrAt_in (0 : Fin 3) rfl _
theorem finalA_w (c : Dev nD) : finalA m c (1 : Fin 3) = m ((c : Thread nD τ).loc main_arg1) :=
  (dats (F := F) m 0 c).arrAt_in (1 : Fin 3) rfl _

/-- The result array, read through its one block, holds what the body left at the one point. -/
theorem final_read (c : Dev nD) :
    ((cfg0.win (2 : Fin 3)).blk t0_0).view.read (Elt F) ((dats (F := F) m 0 c).arrAt (2 : Fin 3) cfg0.N)
      = (dats (F := F) m 0 c).flushed (2 : Fin 3) t0_0 := by
  rw [show cfg0.N = (t0_0 : Fin cfg0.N).val + 1 from rfl, (dats (F := F) m 0 c).arrAt_succ (2 : Fin 3) t0_0, flush0_2 t0_0, if_pos rfl]
  exact View.read_write_univ _ _

/-- The result array's block is the whole array: it ends as device `c`'s result block. -/
theorem finalA_out (c : Dev nD) : finalA m c (2 : Fin 3) = outAt m c := by
  have ho := final_read (F := F) m c
  have hz2 : (fun a => (win0_2.index t0_0) a * main_v1.ty.shape.size a) = fun _ => 0 := funext fun a => by fin_cases a <;> decide
  have hr2 := fun f => Memref.read_access_unit_zero (Elt F) main_v1 hz2 (fun a => by fin_cases a <;> decide) f
  rw [hr2] at ho
  unfold finalA
  rw [ho]
  rfl

/-- info: 'Cert.KernelIdeal.A2a.finalA_out' depends on axioms: [propext, Classical.choice, Quot.sound] -/
#guard_msgs in #print axioms finalA_out

end Cert.KernelIdeal.A2a

end
-- ==== Proof.BodyGlue.lean ====
/-
  The body's proof obligation in the form the launch theorem asks for, from the flat statement of it: the ghost state
  a device starts from is opened into the invariants, positions, tokens and credit the flat statement lists, the
  receive buffer is cut into its slots, and what the body leaves is folded back into the pipeline's postcondition.
-/
import proofs.«900403_g7700000000000404_dist_a2a_gemm_m1024_k1024_n1024_f32_gelu_v7x_i8_1_alg».proof.Proof.BodyStmt
import proofs.«900403_g7700000000000404_dist_a2a_gemm_m1024_k1024_n1024_f32_gelu_v7x_i8_1_alg».proof.Proof.Regions
import proofs.«900403_g7700000000000404_dist_a2a_gemm_m1024_k1024_n1024_f32_gelu_v7x_i8_1_alg».proof.Proof.Launch
import proofs.«900403_g7700000000000404_dist_a2a_gemm_m1024_k1024_n1024_f32_gelu_v7x_i8_1_alg».proof.Proof.Gen.KernelIdeal.Points

noncomputable section

namespace Cert.KernelIdeal.A2a

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Small restatements -/

omit [FloatOps F] in
/-- A whole buffer held through its whole memref is the buffer held. -/
theorem whole_pts (c : Dev nD) (b : Ref sig .tc) (f : Buf (Elt F) ((c : Thread nD τ).loc b)) :
    (((Memref.whole b).view.loc (c : Thread nD τ)) ↦[(Memref.whole b).view.set]{fullShare} f : sProp 𝕄)
      = (((c : Thread nD τ).loc b) ↦{fullShare} f : sProp 𝕄) := by
  rw [View.set_whole]

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

omit [FloatOps F] in
/-- A staging buffer whole at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem positions_eq (c : Dev nD) : (positions c : sProp 𝕄) = iprop(atPos ER (barCell c) 0 ∅ 0
    ∗ (atPos ER (sendCell c 0) 0 ∅ 0 ∗ atPos ER (sendCell c 1) 0 ∅ 0 ∗ atPos ER (sendCell c 2) 0 ∅ 0 ∗ atPos ER (sendCell c 3) 0 ∅ 0 ∗ atPos ER (sendCell c 4) 0 ∅ 0 ∗ atPos ER (sendCell c 5) 0 ∅ 0 ∗ atPos ER (sendCell c 6) 0 ∅ 0)
    ∗ atPos ER (recvCell c 0) 0 ∅ 0 ∗ atPos ER (recvCell c 1) 0 ∅ 0 ∗ atPos ER (recvCell c 2) 0 ∅ 0 ∗ atPos ER (recvCell c 3) 0 ∅ 0 ∗ atPos ER (recvCell c 4) 0 ∅ 0 ∗ atPos ER (recvCell c 5) 0 ∅ 0 ∗ atPos ER (recvCell c 6) 0 ∅ 0) := by
  unfold positions; rw [bigSep_CK, bigSep_BJ, bigSep_fin7, bigSep_fin7]; rfl

omit [FloatOps F] in
theorem payToks_flat (c : Dev nD) : (payToks c : sProp 𝕄) = iprop((dutyTok ER (barCell (peer c 0)) 0 0 ∗ dutyTok ER (recvCell (peer c 0) 0) 0 0 ∗ dutyTok ER (sendCell c 0) 0 0)
    ∗ (dutyTok ER (barCell (peer c 1)) 0 1 ∗ dutyTok ER (recvCell (peer c 1) 1) 0 0 ∗ dutyTok ER (sendCell c 1) 0 0)
    ∗ (dutyTok ER (barCell (peer c 2)) 0 2 ∗ dutyTok ER (recvCell (peer c 2) 2) 0 0 ∗ dutyTok ER (sendCell c 2) 0 0)
    ∗ (dutyTok ER (barCell (peer c 3)) 0 3 ∗ dutyTok ER (recvCell (peer c 3) 3) 0 0 ∗ dutyTok ER (sendCell c 3) 0 0)
    ∗ (dutyTok ER (barCell (peer c 4)) 0 4 ∗ dutyTok ER (recvCell (peer c 4) 4) 0 0 ∗ dutyTok ER (sendCell c 4) 0 0)
    ∗ (dutyTok ER (barCell (peer c 5)) 0 5 ∗ dutyTok ER (recvCell (peer c 5) 5) 0 0 ∗ dutyTok ER (sendCell c 5) 0 0)
    ∗ (dutyTok ER (barCell (peer c 6)) 0 6 ∗ dutyTok ER (recvCell (peer c 6) 6) 0 0 ∗ dutyTok ER (sendCell c 6) 0 0)) := by
  unfold payToks; rw [bigSep_fin7]

omit [FloatOps F] in
theorem launchCreds_eq (c : Dev nD) : (launchCreds c : sProp 𝕄) = iprop(cred (tallyAt (barCell c) () 7)
    ∗ cred (tallyAt (recvCell c 0) () N) ∗ cred (tallyAt (recvCell c 1) () N) ∗ cred (tallyAt (recvCell c 2) () N) ∗ cred (tallyAt (recvCell c 3) () N) ∗ cred (tallyAt (recvCell c 4) () N) ∗ cred (tallyAt (recvCell c 5) () N) ∗ cred (tallyAt (recvCell c 6) () N)) := by
  unfold launchCreds; rw [bigSep_fin7]

/-! ## The obligation's two ends -/

/-- What the pipeline hands the body at the one point, -/
def bodyPre' (c : Dev nD) : sProp 𝕄 :=
  iprop(Φ₀ m c ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))

/-- and what it takes back. -/
def bodyPost' (c : Dev nD) : sProp 𝕄 :=
  iprop(Φ₁ c ∗ (dats m 0 c).owesAt () t0_0.succ ∗ stg c cc0_stg0_0 (xstg m c) ∗ stg c cc0_stg1_0 (wstg m c) ∗ stg c cc0_stg2_0 (outAt m c))

theorem post_of_flat (c : Dev nD) : postFlat m c ⊢ bodyPost' m c := by
  unfold postFlat bodyPost' Φ₁ Dat.owesAt Pipeline.owesWithin
  rw [show (dats m 0 c).owed t0_0.succ = 0 from rfl]
  iintro ⟨Hs, Hz, ⟨%W', HO⟩, Hx, Hw, Ho⟩
  isplitl [Hs Hz]
  · isplitl [Hs] <;> iassumption
  isplitl [HO]
  · iexists W'; isplitr; · ipureintro; exact fun _ _ => Or.inl trivial
    iexact HO
  isplitl [Hx]
  · iexists _; isplitr; · (ipureintro; rfl)
    iapply (Entails.of_eq (whole_pts c cc0_stg0_0 _)); iexact Hx
  isplitl [Hw]
  · iexists _; isplitr; · (ipureintro; rfl)
    iapply (Entails.of_eq (whole_pts c cc0_stg1_0 _)); iexact Hw
  iexists _; isplitr; · (ipureintro; rfl)
  iapply (Entails.of_eq (whole_pts c cc0_stg2_0 _)); iexact Ho

set_option maxRecDepth 8000 in
/-- From the pipeline's precondition, the flat statement's. -/
theorem pre_to_wp (h : SoundFlat (F := F) m) (c : Dev nD) :
    bodyPre' m c ⊢ wp frame (wpE (defs₀ (F := F)) 𝒱₀ c none) Set.univ
      (cc0_body (Memref.whole cc0_stg0_0) (Memref.isWhole_whole _) (Memref.whole cc0_stg1_0) (Memref.isWhole_whole _) (Memref.whole cc0_stg2_0) (Memref.isWhole_whole _)
        (Memref.whole cc0_scratch0) (Memref.isWhole_whole _) (Memref.whole cc0_scratch1) (Memref.isWhole_whole _) (Memref.whole cc0_scratch2) (Memref.isWhole_whole _) cc0_scratch3 cc0_scratch4)
      (fun _ => bodyPost' m c) := by
  unfold bodyPre' Φ₀ start ghost scratch
  rw [positions_eq, payToks_flat, launchCreds_eq]
  iintro ⟨⟨⟨⟨%K, #Hrec, ⟨HaB, ⟨HaS0, HaS1, HaS2, HaS3, HaS4, HaS5, HaS6⟩, HaR0, HaR1, HaR2, HaR3, HaR4, HaR5, HaR6⟩, ⟨Tb0, Tr0, Ts0⟩, ⟨Tb1, Tr1, Ts1⟩, ⟨Tb2, Tr2, Ts2⟩, ⟨Tb3, Tr3, Ts3⟩, ⟨Tb4, Tr4, Ts4⟩, ⟨Tb5, Tr5, Ts5⟩, ⟨Tb6, Tr6, Ts6⟩⟩, ⟨HcB, Hc0, Hc1, Hc2, Hc3, Hc4, Hc5, Hc6⟩, #Hlev⟩, ⟨%f0, Hs0⟩, ⟨%f1, Hs1⟩, ⟨%f2, Hs2⟩⟩,
    Ho, ⟨%d0, %g0, %hg0, Hx⟩, ⟨%d1, %g1, %hg1, Hw⟩, ⟨%d2, %g2, %hg2, Hout⟩⟩
  have hx : g0 = xstg m c := by rw [hg0]; unfold Dat.before; rw [if_pos (fetch0_0 t0_0)]; rfl
  have hw : g1 = wstg m c := by rw [hg1]; unfold Dat.before; rw [if_pos (fetch0_1 t0_0)]; rfl
  subst hx hw
  unfold Dat.owesAt Pipeline.owesWithin
  icases Ho with ⟨%W, %hW, HO⟩
  rw [show (dats m 0 c).owed t0_0.castSucc = O₀ c from rfl]
  ihave Hsl := (comm_split (F := F) c f1).1 $$ Hs1
  icases Hsl with ⟨P0, P1, P2, P3, P4, P5, P6⟩
  iapply (wp_mono _ _ _ (fun _ => post_of_flat m c))
  iapply (h K c W g2 f0 f1 f2)
  simp only [parkSlot_def]
  isplitr; · iapply (inv_at m K (c, none)); iexact Hrec
  isplitr; · iapply (inv_at m K (c, some (false, 0))); iexact Hrec
  isplitr; · iapply (inv_at m K (c, some (false, 1))); iexact Hrec
  isplitr; · iapply (inv_at m K (c, some (false, 2))); iexact Hrec
  isplitr; · iapply (inv_at m K (c, some (false, 3))); iexact Hrec
  isplitr; · iapply (inv_at m K (c, some (false, 4))); iexact Hrec
  isplitr; · iapply (inv_at m K (c, some (false, 5))); iexact Hrec
  isplitr; · iapply (inv_at m K (c, some (false, 6))); iexact Hrec
  isplitr; · iapply (inv_at m K (c, some (true, 0))); iexact Hrec
  isplitr; · iapply (inv_at m K (c, some (true, 1))); iexact Hrec
  isplitr; · iapply (inv_at m K (c, some (true, 2))); iexact Hrec
  isplitr; · iapply (inv_at m K (c, some (true, 3))); iexact Hrec
  isplitr; · iapply (inv_at m K (c, some (true, 4))); iexact Hrec
  isplitr; · iapply (inv_at m K (c, some (true, 5))); iexact Hrec
  isplitr; · iapply (inv_at m K (c, some (true, 6))); iexact Hrec
  isplitr; · iapply (inv_at m K (peer c 0, none)); iexact Hrec
  isplitr; · iapply (inv_at m K (peer c 1, none)); iexact Hrec
  isplitr; · iapply (inv_at m K (peer c 2, none)); iexact Hrec
  isplitr; · iapply (inv_at m K (peer c 3, none)); iexact Hrec
  isplitr; · iapply (inv_at m K (peer c 4, none)); iexact Hrec
  isplitr; · iapply (inv_at m K (peer c 5, none)); iexact Hrec
  isplitr; · iapply (inv_at m K (peer c 6, none)); iexact Hrec
  isplitr; · iapply (inv_at m K (peer c 0, some (true, 0))); iexact Hrec
  isplitr; · iapply (inv_at m K (peer c 1, some (true, 1))); iexact Hrec
  isplitr; · iapply (inv_at m K (peer c 2, some (true, 2))); iexact Hrec
  isplitr; · iapply (inv_at m K (peer c 3, some (true, 3))); iexact Hrec
  isplitr; · iapply (inv_at m K (peer c 4, some (true, 4))); iexact Hrec
  isplitr; · iapply (inv_at m K (peer c 5, some (true, 5))); iexact Hrec
  isplitr; · iapply (inv_at m K (peer c 6, some (true, 6))); iexact Hrec
  isplitr; · iapply (reached_at m K (peer c 0, none)); iexact Hrec
  isplitr; · iapply (reached_at m K (peer c 1, none)); iexact Hrec
  isplitr; · iapply (reached_at m K (peer c 2, none)); iexact Hrec
  isplitr; · iapply (reached_at m K (peer c 3, none)); iexact Hrec
  isplitr; · iapply (reached_at m K (peer c 4, none)); iexact Hrec
  isplitr; · iapply (reached_at m K (peer c 5, none)); iexact Hrec
  isplitr; · iapply (reached_at m K (peer c 6, none)); iexact Hrec
  isplitr; · iapply (reached_at m K (peer c 0, some (true, 0))); iexact Hrec
  isplitr; · iapply (reached_at m K (peer c 1, some (true, 1))); iexact Hrec
  isplitr; · iapply (reached_at m K (peer c 2, some (true, 2))); iexact Hrec
  isplitr; · iapply (reached_at m K (peer c 3, some (true, 3))); iexact Hrec
  isplitr; · iapply (reached_at m K (peer c 4, some (true, 4))); iexact Hrec
  isplitr; · iapply (reached_at m K (peer c 5, some (true, 5))); iexact Hrec
  isplitr; · iapply (reached_at m K (peer c 6, some (true, 6))); iexact Hrec
  isplitr; · iapply (reached_at m K (c, some (false, 0))); iexact Hrec
  isplitr; · iapply (reached_at m K (c, some (false, 1))); iexact Hrec
  isplitr; · iapply (reached_at m K (c, some (false, 2))); iexact Hrec
  isplitr; · iapply (reached_at m K (c, some (false, 3))); iexact Hrec
  isplitr; · iapply (reached_at m K (c, some (false, 4))); iexact Hrec
  isplitr; · iapply (reached_at m K (c, some (false, 5))); iexact Hrec
  isplitr; · iapply (reached_at m K (c, some (false, 6))); iexact Hrec
  isplitr; · iexact Hlev
  isplitl [HaB]; · iexact HaB
  isplitl [HaS0]; · iexact HaS0
  isplitl [HaS1]; · iexact HaS1
  isplitl [HaS2]; · iexact HaS2
  isplitl [HaS3]; · iexact HaS3
  isplitl [HaS4]; · iexact HaS4
  isplitl [HaS5]; · iexact HaS5
  isplitl [HaS6]; · iexact HaS6
  isplitl [HaR0]; · iexact HaR0
  isplitl [HaR1]; · iexact HaR1
  isplitl [HaR2]; · iexact HaR2
  isplitl [HaR3]; · iexact HaR3
  isplitl [HaR4]; · iexact HaR4
  isplitl [HaR5]; · iexact HaR5
  isplitl [HaR6]; · iexact HaR6
  isplitl [Tb0]; · iexact Tb0
  isplitl [Tb1]; · iexact Tb1
  isplitl [Tb2]; · iexact Tb2
  isplitl [Tb3]; · iexact Tb3
  isplitl [Tb4]; · iexact Tb4
  isplitl [Tb5]; · iexact Tb5
  isplitl [Tb6]; · iexact Tb6
  isplitl [Tr0]; · iexact Tr0
  isplitl [Tr1]; · iexact Tr1
  isplitl [Tr2]; · iexact Tr2
  isplitl [Tr3]; · iexact Tr3
  isplitl [Tr4]; · iexact Tr4
  isplitl [Tr5]; · iexact Tr5
  isplitl [Tr6]; · iexact Tr6
  isplitl [Ts0]; · iexact Ts0
  isplitl [Ts1]; · iexact Ts1
  isplitl [Ts2]; · iexact Ts2
  isplitl [Ts3]; · iexact Ts3
  isplitl [Ts4]; · iexact Ts4
  isplitl [Ts5]; · iexact Ts5
  isplitl [Ts6]; · iexact Ts6
  isplitl [HcB]; · iexact HcB
  isplitl [Hc0]; · iexact Hc0
  isplitl [Hc1]; · iexact Hc1
  isplitl [Hc2]; · iexact Hc2
  isplitl [Hc3]; · iexact Hc3
  isplitl [Hc4]; · iexact Hc4
  isplitl [Hc5]; · iexact Hc5
  isplitl [Hc6]; · iexact Hc6
  isplitl [HO]; · iexact HO
  isplitl [Hx]; · iapply (Entails.of_eq (whole_pts c cc0_stg0_0 _).symm); iexact Hx
  isplitl [Hw]; · iapply (Entails.of_eq (whole_pts c cc0_stg1_0 _).symm); iexact Hw
  isplitl [Hout]; · iapply (Entails.of_eq (whole_pts c cc0_stg2_0 _).symm); iexact Hout
  isplitl [Hs0]; · iapply (Entails.of_eq (whole_pts c cc0_scratch0 _).symm); iexact Hs0
  isplitl [P0]; · iexact P0
  isplitl [P1]; · iexact P1
  isplitl [P2]; · iexact P2
  isplitl [P3]; · iexact P3
  isplitl [P4]; · iexact P4
  isplitl [P5]; · iexact P5
  isplitl [P6]; · iexact P6
  iapply (Entails.of_eq (whole_pts c cc0_scratch2 _).symm); iexact Hs2

set_option maxRecDepth 8000 in
/-- The library's body obligation on device `c`, from the flat statement. -/
theorem body_obligation_of (h : SoundFlat (F := F) m) (c : Dev nD) : BodyObligation (dats (F := F) m 0 c) (defs₀ (F := F)) 𝒱₀ () Set.univ := fun t => by
  rw [fin_N0 t]
  rw [bigSep_W0, bigSep_W0]
  simp only [owns_whole_eq]
  exact pre_to_wp m h c

/-- info: 'Cert.KernelIdeal.A2a.body_obligation_of' depends on axioms: [propext, Classical.choice, Quot.sound] -/
#guard_msgs in #print axioms body_obligation_of

end Cert.KernelIdeal.A2a

end
-- ==== Proof.KViews.lean ====
/-
  The all-to-all's geometry, for any float instance: the ring offsets between devices, the semaphores and the pieces of
  the scratch buffers that one exchange uses, and what each buffer holds once written.

  Device `c`'s exchange number `j` (of seven) goes to the device `j + 1` places after it and arrives from the device
  `j + 1` places before it. What is sent is the 128 rows of the sender's converted block of `x` that the addressee's
  row block needs; it lands in slot `j` of the addressee's receive buffer.
-/
import proofs.«900403_g7700000000000404_dist_a2a_gemm_m1024_k1024_n1024_f32_gelu_v7x_i8_1_alg».proof.Proof.Gen.Kernel
import proofs.«900403_g7700000000000404_dist_a2a_gemm_m1024_k1024_n1024_f32_gelu_v7x_i8_1_alg».proof.Proof.Gen.Kernel.Skeleton
import proofs.«900403_g7700000000000404_dist_a2a_gemm_m1024_k1024_n1024_f32_gelu_v7x_i8_1_alg».proof.Proof.Gen.Kernel.Launch
import proofs.«900403_g7700000000000404_dist_a2a_gemm_m1024_k1024_n1024_f32_gelu_v7x_i8_1_alg».proof.Proof.Gen.Kernel.Points
import Idealize.ShloMosaic.Lib.Pipeline.Launch
import Idealize.ShloMosaic.Lib.Pipeline.Kit
import Idealize.ShloMosaic.Lib.Tactic
import Idealize.ShloMosaic.Lib.ValueIdx

noncomputable section

namespace Cert.Kernel.A2a

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ring offsets -/

/-- The device `j + 1` places after `c`: where exchange `j` of `c` goes. -/
def peer (c : Dev nD) (j : Fin 7) : Dev nD := ⟨(c.val + j.val + 1) % 8, Nat.mod_lt _ (by decide)⟩
/-- The device `j + 1` places before `c`: where exchange `j` into `c` comes from. -/
def orig (c : Dev nD) (j : Fin 7) : Dev nD := ⟨(c.val + 7 - j.val) % 8, Nat.mod_lt _ (by decide)⟩
/-- Exchange `6 - j`: going `j + 1` places back is going `7 - j` places on. -/
def rev (j : Fin 7) : Fin 7 := ⟨6 - j.val, by omega⟩

theorem orig_peer (c : Dev nD) (j : Fin 7) : orig (peer c j) j = c := by revert c j; decide
theorem peer_orig (c : Dev nD) (j : Fin 7) : peer (orig c j) j = c := by revert c j; decide
theorem peer_rev (c : Dev nD) (j : Fin 7) : peer c (rev j) = orig c j := by revert c j; decide
theorem orig_rev (c : Dev nD) (j : Fin 7) : orig c (rev j) = peer c j := by revert c j; decide
theorem rev_rev (j : Fin 7) : rev (rev j) = j := by revert j; decide
theorem peer_ne (c : Dev nD) (j : Fin 7) : peer c j ≠ c := by revert c j; decide
theorem peer_inj (c : Dev nD) (j j' : Fin 7) (h : peer c j = peer c j') : j = j' := by revert c j j'; decide
theorem orig_inj (c : Dev nD) (j j' : Fin 7) (h : orig c j = orig c j') : j = j' := by revert c j j'; decide

/-- Exchange `j` seen as a permutation of the devices. -/
def ringJ (j : Fin 7) : Dev nD ≃ Dev nD := ⟨fun c => peer c j, fun c => orig c j, fun c => orig_peer c j, fun c => peer_orig c j⟩

/-- The kernel's device chains: signal `j` and copy `j` both address `peer c j`. -/
theorem dev1_eq (c : Dev nD) : (⟨k0_dev1 c, k0_dev1_lt c⟩ : Dev nD) = peer c 0 := Fin.ext (k0_dev1_eq c)
theorem dev2_eq (c : Dev nD) : (⟨k0_dev2 c, k0_dev2_lt c⟩ : Dev nD) = peer c 1 := Fin.ext (k0_dev2_eq c)
theorem dev3_eq (c : Dev nD) : (⟨k0_dev3 c, k0_dev3_lt c⟩ : Dev nD) = peer c 2 := Fin.ext (k0_dev3_eq c)
theorem dev4_eq (c : Dev nD) : (⟨k0_dev4 c, k0_dev4_lt c⟩ : Dev nD) = peer c 3 := Fin.ext (k0_dev4_eq c)
theorem dev5_eq (c : Dev nD) : (⟨k0_dev5 c, k0_dev5_lt c⟩ : Dev nD) = peer c 4 := Fin.ext (k0_dev5_eq c)
theorem dev6_eq (c : Dev nD) : (⟨k0_dev6 c, k0_dev6_lt c⟩ : Dev nD) = peer c 5 := Fin.ext (k0_dev6_eq c)
theorem dev7_eq (c : Dev nD) : (⟨k0_dev7 c, k0_dev7_lt c⟩ : Dev nD) = peer c 6 := Fin.ext (k0_dev7_eq c)
theorem dev8_eq (c : Dev nD) : (⟨k0_dev8 c, k0_dev8_lt c⟩ : Dev nD) = peer c 0 := Fin.ext (k0_dev8_eq c)
theorem dev9_eq (c : Dev nD) : (⟨k0_dev9 c, k0_dev9_lt c⟩ : Dev nD) = peer c 1 := Fin.ext (k0_dev9_eq c)
theorem dev10_eq (c : Dev nD) : (⟨k0_dev10 c, k0_dev10_lt c⟩ : Dev nD) = peer c 2 := Fin.ext (k0_dev10_eq c)
theorem dev11_eq (c : Dev nD) : (⟨k0_dev11 c, k0_dev11_lt c⟩ : Dev nD) = peer c 3 := Fin.ext (k0_dev11_eq c)
theorem dev12_eq (c : Dev nD) : (⟨k0_dev12 c, k0_dev12_lt c⟩ : Dev nD) = peer c 4 := Fin.ext (k0_dev12_eq c)
theorem dev13_eq (c : Dev nD) : (⟨k0_dev13 c, k0_dev13_lt c⟩ : Dev nD) = peer c 5 := Fin.ext (k0_dev13_eq c)
theorem dev14_eq (c : Dev nD) : (⟨k0_dev14 c, k0_dev14_lt c⟩ : Dev nD) = peer c 6 := Fin.ext (k0_dev14_eq c)

/-! ## The semaphores -/

/-- The runtime's barrier semaphore of this collective. -/
abbrev barS : Sem sig := (SemArray.scalar (sig.barrier 0 rfl) : Sems sig S_).sem
/-- Exchange `j`'s send semaphore (on the sender) and receive semaphore (on the addressee). -/
def sendSem (j : Fin 7) : DmaSem sig := ⟨3 + j.val, by have := j.isLt; show 3 + j.val < 17; omega⟩
def recvSem (j : Fin 7) : DmaSem sig := ⟨10 + j.val, by have := j.isLt; show 10 + j.val < 17; omega⟩

abbrev barCell (c : Dev nD) : GSem nD τ sig := ((c : Thread nD τ), .reg barS)
abbrev sendCell (c : Dev nD) (j : Fin 7) : GSem nD τ sig := ((c : Thread nD τ), .dma (sendSem j))
abbrev recvCell (c : Dev nD) (j : Fin 7) : GSem nD τ sig := ((c : Thread nD τ), .dma (recvSem j))

/-! ## The pieces of the scratch buffers -/

abbrev xM : Memref sig .tc .vmem S1024x128 .f32 := Memref.whole cc0_stg0_0
abbrev wM : Memref sig .tc .vmem S1024x1024 .f32 := Memref.whole cc0_stg1_0
abbrev oM : Memref sig .tc .vmem S128x1024 .f32 := Memref.whole cc0_stg2_0
abbrev stM : Memref sig .tc .vmem S1024x128 .bf16 := Memref.whole cc0_scratch0
abbrev cmM : Memref sig .tc .vmem S7x128x128 .bf16 := Memref.whole cc0_scratch1
abbrev wbM : Memref sig .tc .vmem S1024x1024 .bf16 := Memref.whole cc0_scratch2

/-- The 128 rows of `c`'s converted `x` block that exchange `j` sends: the row block of the addressee. -/
def srcM (c : Dev nD) (j : Fin 7) : Memref sig .tc .vmem S128x128 .bf16 :=
  stM.slice (Rect.unit (s := S1024x128) (k0_off3 c (BitVec.ofNat 32 (1 + j.val))) S128x128.size (k0_off3_inb c j)) (fun _ => rfl)

theorem inb_slot (j : Fin 7) : ∀ a, (![j.val, 0, 0] : Fin 3 → Nat) a + S1x128x128.size a ≤ S7x128x128.size a := by
  revert j; decide

/-- Slot `j` of the receive buffer, as the 128 × 128 array a copy writes. -/
def dstM (j : Fin 7) : Memref sig .tc .vmem S128x128 .bf16 :=
  (cmM.slice (Rect.unit (s := S7x128x128) ![j.val, 0, 0] S1x128x128.size (inb_slot j)) (fun _ => rfl)).squeeze S128x128 squeezes_S1x128x128_S128x128

/-! ## The resource algebra and the pieces as assertions -/

/-- The rounds library's copy for this protocol: duties are named by the exchange number. -/
abbrev UB : Type := URounds (GSem nD τ sig) (Fin 7)
abbrev UU : Type := UR sig nD τ × UB

/-- Exchange `j`'s source rows of `c`'s stage buffer, and slot `j` of `c`'s receive buffer, each held whole. -/
def srcPts (c : Dev nD) (j : Fin 7) (f : Buf (Elt F) ((c : Thread nD τ).loc cc0_scratch0)) : sProp (MT nD τ sig Unit (Elt F) ℕ UU ℕ) :=
  (srcM c j).view.loc (c : Thread nD τ) ↦[(srcM c j).view.set]{fullShare} f
def slotPts (c : Dev nD) (j : Fin 7) (f : Buf (Elt F) ((c : Thread nD τ).loc cc0_scratch1)) : sProp (MT nD τ sig Unit (Elt F) ℕ UU ℕ) :=
  (dstM j).view.loc (c : Thread nD τ) ↦[(dstM j).view.set]{fullShare} f

/-! ## What the buffers hold -/

variable (m : (ℓ : Loc nD τ sig) → Buf (Elt F) ℓ)

/-- Device `c`'s block of `x` and its copy of `w`, as staged for the body. -/
def xstg (c : Dev nD) : (cc0_stg0_0 : Ref sig .tc).ty.Contents (Elt F) :=
  (win0_0.blk (0 : Fin 1)).view.read (Elt F) (m ((c : Thread nD τ).loc main_arg0))
def wstg (c : Dev nD) : (cc0_stg1_0 : Ref sig .tc).ty.Contents (Elt F) :=
  (win0_1.blk (0 : Fin 1)).view.read (Elt F) (m ((c : Thread nD τ).loc main_arg1))

/-- The converted copies the body writes first: of its block of `x`, and of `w`. -/
def stageV (c : Dev nD) : (cc0_scratch0 : Ref sig .tc).ty.Contents (Elt F) := k0_pay1 (xstg m c)
def wbV (c : Dev nD) : (cc0_scratch2 : Ref sig .tc).ty.Contents (Elt F) := k0_pay2 (wstg m c)

/-- The receive buffer once every exchange has landed: slot `j` holds rows `128 c …` of the converted `x` block of the
    device `j + 1` places before `c`. -/
def commV (c : Dev nD) : (cc0_scratch1 : Ref sig .tc).ty.Contents (Elt F) := fun i =>
  stageV m (orig c ⟨(i 0).val, (i 0).isLt⟩)
    (ValueIdx.ix2 ⟨128 * c.val + (i 1).val, by have h1 : (i 1).val < 128 := (i 1).isLt; have h2 : c.val < 8 := c.isLt; omega⟩ ⟨(i 2).val, (i 2).isLt⟩)

/-! ## The body's arithmetic as one term -/

/-- The body's result from the sixteen blocks it loads: the local product, seven more accumulated in order, then the
    smooth gate applied entrywise (the payloads of the body, composed). -/
def kernOut (v46 : Vec F S128x128 .bf16) (v49 : Vec F S128x1024 .bf16)
    (v145 : Vec F S1x128x128 .bf16) (v149 : Vec F S128x1024 .bf16) (v162 : Vec F S1x128x128 .bf16) (v166 : Vec F S128x1024 .bf16)
    (v179 : Vec F S1x128x128 .bf16) (v183 : Vec F S128x1024 .bf16) (v196 : Vec F S1x128x128 .bf16) (v200 : Vec F S128x1024 .bf16)
    (v213 : Vec F S1x128x128 .bf16) (v217 : Vec F S128x1024 .bf16) (v230 : Vec F S1x128x128 .bf16) (v234 : Vec F S128x1024 .bf16)
    (v247 : Vec F S1x128x128 .bf16) (v251 : Vec F S128x1024 .bf16) : FVec F S128x1024 .f32 :=
  let v219 := k0_pay7 (k0_pay5 (k0_pay4 (k0_pay3 v46 v49) v145 v149 v162 v166) v179 v183) (k0_pay6 v196) v200
    (constant S128x1024 .f32 0x00000000#32) v213 v217
  k0_pay11 (k0_pay9 v219 v230 v234 v247 v251) (k0_pay10 v219 v230 v234 v247 v251)

/-- The blocks device `c` loads: its own rows of its converted `x` block and the matching rows of the converted `w`; -/
def ldOwn (c : Dev nD) : Vec F S128x128 .bf16 :=
  (stM : Memref sig .tc .vmem S1024x128 .bf16).view.readAt (Elt F) (Rect.unit (s := S1024x128) (k0_off1 c) S128x128.size (k0_off1_inb c)).toLoadRect (stageV m c)
def ldWb0 (c : Dev nD) : Vec F S128x1024 .bf16 :=
  (wbM : Memref sig .tc .vmem S1024x1024 .bf16).view.readAt (Elt F) (Rect.unit (s := S1024x1024) (k0_off2 c) S128x1024.size (k0_off2_inb c)).toLoadRect (wbV m c)
/-- slot `j` of the receive buffer and the rows of the converted `w` of the device the slot's contents came from. -/
def ldSlot (c : Dev nD) (j : Fin 7) : Vec F S1x128x128 .bf16 :=
  (cmM : Memref sig .tc .vmem S7x128x128 .bf16).view.readAt (Elt F) (Rect.unit (s := S7x128x128) ![j.val, 0, 0] S1x128x128.size (inb_slot j)).toLoadRect (commV m c)
def ldWb (c : Dev nD) (j : Fin 7) : Vec F S128x1024 .bf16 :=
  (wbM : Memref sig .tc .vmem S1024x1024 .bf16).view.readAt (Elt F) (Rect.unit (s := S1024x1024) (k0_off4 c (BitVec.ofNat 32 (1 + j.val))) S128x1024.size (k0_off4_inb c j)).toLoadRect (wbV m c)

/-- Device `c`'s result block. -/
def outAt (c : Dev nD) : (cc0_stg2_0 : Ref sig .tc).ty.Contents (Elt F) :=
  kernOut (ldOwn m c) (ldWb0 m c) (ldSlot m c 0) (ldWb m c 0) (ldSlot m c 1) (ldWb m c 1) (ldSlot m c 2) (ldWb m c 2)
    (ldSlot m c 3) (ldWb m c 3) (ldSlot m c 4) (ldWb m c 4) (ldSlot m c 5) (ldWb m c 5) (ldSlot m c 6) (ldWb m c 6)

end Cert.Kernel.A2a

end
-- ==== Proof.KProtocol.lean ====
/-
  The exchange protocol as rounds of duties, for any float instance.

  Every semaphore is used for one round. A device's barrier semaphore collects seven units, one from each other
  device; the unit of the device `j + 1` places before it comes with that device's receive slot `6 - j`, the slot this
  device's own exchange `6 - j` writes. A send semaphore collects one copy's credit and hands the source rows back;
  a receive semaphore collects one copy's credit and hands over the slot, now holding the sender's rows.
  A device may wait on its barrier semaphore while it still owes its seven copies, because receive semaphores rank
  above barrier semaphores; every other wait happens when nothing is owed.
-/
import proofs.«900403_g7700000000000404_dist_a2a_gemm_m1024_k1024_n1024_f32_gelu_v7x_i8_1_alg».proof.Proof.KViews

noncomputable section

namespace Cert.Kernel.A2a

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- One copy's credit: that of a 128 × 128 block of the receive buffer. -/
abbrev N : ℕ := (dstM 0 : Memref sig .tc .vmem S128x128 .bf16).view.dmaCredit
theorem N_pos : 0 < N := View.dmaCredit_pos _ (by decide)

/-! ## Which exchange a semaphore belongs to -/

def sendIdx : SemLoc sig → Option (Fin 7)
  | .dma q => if h : 3 ≤ q.val ∧ q.val < 10 then some ⟨q.val - 3, by omega⟩ else none
  | .reg _ => none
def recvIdx : SemLoc sig → Option (Fin 7)
  | .dma q => if h : 10 ≤ q.val then some ⟨q.val - 10, by have : q.val < 17 := q.isLt; omega⟩ else none
  | .reg _ => none

theorem sendIdx_send (j : Fin 7) : sendIdx (.dma (sendSem j)) = some j := by revert j; decide
theorem recvIdx_send (j : Fin 7) : recvIdx (.dma (sendSem j)) = none := by revert j; decide
theorem recvIdx_recv (j : Fin 7) : recvIdx (.dma (recvSem j)) = some j := by revert j; decide
theorem sendIdx_recv (j : Fin 7) : sendIdx (.dma (recvSem j)) = none := by revert j; decide
theorem send_ne_bar (j : Fin 7) : (SemLoc.dma (sendSem j) : SemLoc sig) ≠ .reg barS := fun h => by cases h
theorem recv_ne_bar (j : Fin 7) : (SemLoc.dma (recvSem j) : SemLoc sig) ≠ .reg barS := fun h => by cases h

/-! ## The schedule -/

/-- What the unit of the device `d + 1` places before `c` hands `c`: that device's receive slot `6 - d`. -/
def barPay (c : Dev nD) (d : Fin 7) : sProp 𝕄 := iprop(∃ f, slotPts (orig c d) (rev d) f)
/-- What a landed copy hands the addressee: its slot holding the sender's rows. -/
def recvPay (c : Dev nD) (j : Fin 7) : sProp 𝕄 := slotPts c j (commV m c)
/-- What a sent copy hands the sender: its source rows back. -/
def sendPay (c : Dev nD) (j : Fin 7) : sProp 𝕄 := srcPts c j (stageV m c)

def a2aRd : Rounds.Schedule (GSem nD τ sig) (Fin 7) 𝕄 where
  duties g r := if r = 0 ∧ g.1.2 = .tc then
      (if g.2 = .reg barS then Finset.univ else if (sendIdx g.2).isSome ∨ (recvIdx g.2).isSome then {0} else ∅) else ∅
  amount g _ _ := if g.2 = .reg barS then 1 else N
  payload g _ d :=
    if g.2 = .reg barS then barPay g.1.1 d
    else match recvIdx g.2 with
      | some j => recvPay m g.1.1 j
      | none => match sendIdx g.2 with
        | some j => sendPay m g.1.1 j
        | none => iprop(emp)
  amount_pos g _ _ _ := by
    by_cases h : g.2 = .reg barS
    · rw [if_pos h]; exact Nat.one_pos
    · rw [if_neg h]; exact N_pos

section Sched
variable (c : Dev nD) (j : Fin 7)

theorem duties_bar : (a2aRd (F := F) m).duties (barCell c) 0 = Finset.univ := by
  dsimp only [a2aRd]; rw [if_pos ⟨rfl, rfl⟩, if_pos rfl]
theorem duties_send : (a2aRd (F := F) m).duties (sendCell c j) 0 = {0} := by
  dsimp only [a2aRd]; rw [if_pos ⟨rfl, rfl⟩, if_neg (send_ne_bar j), if_pos (Or.inl (by rw [sendIdx_send]; rfl))]
theorem duties_recv : (a2aRd (F := F) m).duties (recvCell c j) 0 = {0} := by
  dsimp only [a2aRd]; rw [if_pos ⟨rfl, rfl⟩, if_neg (recv_ne_bar j), if_pos (Or.inr (by rw [recvIdx_recv]; rfl))]
theorem duties_later (g : GSem nD τ sig) : ∀ r, 1 ≤ r → (a2aRd (F := F) m).duties g r = ∅ :=
  fun r hr => by dsimp only [a2aRd]; rw [if_neg fun h => by omega]

theorem amount_bar (d : Fin 7) : (a2aRd (F := F) m).amount (barCell c) 0 d = 1 := by dsimp only [a2aRd]; exact if_pos rfl
theorem amount_send (d : Fin 7) : (a2aRd (F := F) m).amount (sendCell c j) 0 d = N := by dsimp only [a2aRd]; exact if_neg (send_ne_bar j)
theorem amount_recv (d : Fin 7) : (a2aRd (F := F) m).amount (recvCell c j) 0 d = N := by dsimp only [a2aRd]; exact if_neg (recv_ne_bar j)

theorem expect_bar : (a2aRd (F := F) m).expect (barCell c) 0 = 7 := by
  unfold Schedule.expect Schedule.amountOf
  rw [duties_bar, Finset.sum_congr rfl fun d _ => amount_bar m c d, Finset.sum_const, Finset.card_univ, Fintype.card_fin, smul_eq_mul]
theorem expect_send : (a2aRd (F := F) m).expect (sendCell c j) 0 = N := by
  unfold Schedule.expect Schedule.amountOf; rw [duties_send, Finset.sum_singleton, amount_send]
theorem expect_recv : (a2aRd (F := F) m).expect (recvCell c j) 0 = N := by
  unfold Schedule.expect Schedule.amountOf; rw [duties_recv, Finset.sum_singleton, amount_recv]

theorem payload_bar (d : Fin 7) : (a2aRd (F := F) m).payload (barCell c) 0 d = barPay c d := by dsimp only [a2aRd]; rw [if_pos rfl]
theorem payload_send (d : Fin 7) : (a2aRd (F := F) m).payload (sendCell c j) 0 d = sendPay m c j := by
  dsimp only [a2aRd]; rw [if_neg (send_ne_bar j), recvIdx_send, sendIdx_send]
theorem payload_recv (d : Fin 7) : (a2aRd (F := F) m).payload (recvCell c j) 0 d = recvPay m c j := by
  dsimp only [a2aRd]; rw [if_neg (recv_ne_bar j), recvIdx_recv]

end Sched

/-! ## The payloads can be kept in invariants -/

omit [FloatOps F] in
instance slotPts_storable (c : Dev nD) (j : Fin 7) (f) : BI.Storable (upEmb : UEmb _ 𝕄) (slotPts (F := F) c j f) := by
  unfold slotPts; delta dstM; infer_instance
omit [FloatOps F] in
instance srcPts_storable (c : Dev nD) (j : Fin 7) (f) : BI.Storable (upEmb : UEmb _ 𝕄) (srcPts (F := F) c j f) := by
  unfold srcPts; delta srcM; infer_instance

/-- Every payload of the schedule can be kept in an invariant. -/
instance a2aRd_payload_storable (g : GSem nD τ sig) (r : ℕ) (d : Fin 7) :
    BI.Storable (upEmb : UEmb _ 𝕄) ((a2aRd (F := F) m).payload g r d) := by
  show BI.Storable upEmb (if g.2 = .reg barS then barPay g.1.1 d
    else match recvIdx g.2 with
      | some j => recvPay m g.1.1 j
      | none => match sendIdx g.2 with
        | some j => sendPay m g.1.1 j
        | none => iprop(emp))
  unfold barPay recvPay sendPay
  (repeat' split) <;> infer_instance

/-! ## What each device owes at launch; the levels -/

/-- The unit device `c` owes the barrier semaphore of the device `j + 1` places on, and the copy's credit it owes that
    device's receive semaphore `j`. -/
def barT (c : Dev nD) (j : Fin 7) : CellTallies nD τ sig Unit := tallyAt (barCell (peer c j)) () 1
def recvT (c : Dev nD) (j : Fin 7) : CellTallies nD τ sig Unit := tallyAt (recvCell (peer c j) j) () N

/-- What is still owed before copy `k` (copies `k … 6`), then before signal `k` (all copies and signals `k … 6`):
    summed so that each step peels the last summand. -/
def OR6 (c : Dev nD) : CellTallies nD τ sig Unit := recvT c 6
def OR5 (c : Dev nD) : CellTallies nD τ sig Unit := OR6 c + recvT c 5
def OR4 (c : Dev nD) : CellTallies nD τ sig Unit := OR5 c + recvT c 4
def OR3 (c : Dev nD) : CellTallies nD τ sig Unit := OR4 c + recvT c 3
def OR2 (c : Dev nD) : CellTallies nD τ sig Unit := OR3 c + recvT c 2
def OR1 (c : Dev nD) : CellTallies nD τ sig Unit := OR2 c + recvT c 1
def OR0 (c : Dev nD) : CellTallies nD τ sig Unit := OR1 c + recvT c 0
def OB6 (c : Dev nD) : CellTallies nD τ sig Unit := OR0 c + barT c 6
def OB5 (c : Dev nD) : CellTallies nD τ sig Unit := OB6 c + barT c 5
def OB4 (c : Dev nD) : CellTallies nD τ sig Unit := OB5 c + barT c 4
def OB3 (c : Dev nD) : CellTallies nD τ sig Unit := OB4 c + barT c 3
def OB2 (c : Dev nD) : CellTallies nD τ sig Unit := OB3 c + barT c 2
def OB1 (c : Dev nD) : CellTallies nD τ sig Unit := OB2 c + barT c 1
def O₀ (c : Dev nD) : CellTallies nD τ sig Unit := OB1 c + barT c 0

def L (g : GSem nD τ sig) : Finset Unit := if g.1.2 = .tc then {()} else ∅
/-- Barrier semaphores at 1, receive semaphores at 2, everything else (staging, send) at 0. -/
def lv (g : GSem nD τ sig) (_ : Unit) : ℕ := if g.2 = .reg barS then 1 else if (recvIdx g.2).isSome then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := if_pos rfl
theorem lv_recv (c : Dev nD) (j : Fin 7) : lv (recvCell c j) () = 2 := by
  unfold lv; rw [if_neg (recv_ne_bar j), if_pos (by rw [recvIdx_recv]; rfl)]

theorem recvT_pos {c : Dev nD} {j : Fin 7} {g : GSem nD τ sig} {u : Unit} (h : 0 < recvT c j g u) : g = recvCell (peer c j) j := by
  unfold recvT at h; rw [tallyAt_apply] at h
  by_contra hn; rw [if_neg (fun h' => hn h'.1)] at h; exact Nat.lt_irrefl 0 h
theorem barT_pos {c : Dev nD} {j : Fin 7} {g : GSem nD τ sig} {u : Unit} (h : 0 < barT c j g u) : g = barCell (peer c j) := by
  unfold barT at h; rw [tallyAt_apply] at h
  by_contra hn; rw [if_neg (fun h' => hn h'.1)] at h; exact Nat.lt_irrefl 0 h

/-- Whatever the copies' dues are positive on is a receive semaphore of another device; -/
theorem OR0_pos {c : Dev nD} {g : GSem nD τ sig} {u : Unit} (h : 0 < OR0 c g u) : ∃ j, g = recvCell (peer c j) j := by
  unfold OR0 OR1 OR2 OR3 OR4 OR5 OR6 at h
  rcases Pipeline.add_pos_cases h with h | h
  · rcases Pipeline.add_pos_cases h with h | h
    · rcases Pipeline.add_pos_cases h with h | h
      · rcases Pipeline.add_pos_cases h with h | h
        · rcases Pipeline.add_pos_cases h with h | h
          · rcases Pipeline.add_pos_cases h with h | h
            · exact ⟨6, recvT_pos h⟩
            · exact ⟨5, recvT_pos h⟩
          · exact ⟨4, recvT_pos h⟩
        · exact ⟨3, recvT_pos h⟩
      · exact ⟨2, recvT_pos h⟩
    · exact ⟨1, recvT_pos h⟩
  · exact ⟨0, recvT_pos h⟩

/-- and the launch dues besides on a barrier semaphore. -/
theorem O₀_pos {c : Dev nD} {g : GSem nD τ sig} {u : Unit} (h : 0 < O₀ c g u) :
    (∃ j, g = recvCell (peer c j) j) ∨ ∃ j, g = barCell (peer c j) := by
  unfold O₀ OB1 OB2 OB3 OB4 OB5 OB6 at h
  rcases Pipeline.add_pos_cases h with h | h
  · rcases Pipeline.add_pos_cases h with h | h
    · rcases Pipeline.add_pos_cases h with h | h
      · rcases Pipeline.add_pos_cases h with h | h
        · rcases Pipeline.add_pos_cases h with h | h
          · rcases Pipeline.add_pos_cases h with h | h
            · rcases Pipeline.add_pos_cases h with h | h
              · exact .inl (OR0_pos h)
              · exact .inr ⟨6, barT_pos h⟩
            · exact .inr ⟨5, barT_pos h⟩
          · exact .inr ⟨4, barT_pos h⟩
        · exact .inr ⟨3, barT_pos h⟩
      · exact .inr ⟨2, barT_pos h⟩
    · exact .inr ⟨1, barT_pos h⟩
  · exact .inr ⟨0, barT_pos h⟩

/-- A wait on a semaphore of level 0 is allowed under the launch dues, and under none. -/
theorem mayWait_low (c : Dev nD) (s : SemLoc sig) (hs : lv ((c : Thread nD τ), s) () = 0) (O : CellTallies nD τ sig Unit) (hO : O = O₀ c ∨ O = 0) :
    (levAts L lv : sProp 𝕄) ⊢ MayWait (c : Thread nD τ) s () O := by
  rcases hO with rfl | rfl
  · refine Pipeline.mayWait_of_levAts (by rw [L_tc]; exact Finset.mem_singleton_self _) fun g u hg => ?_
    rcases O₀_pos hg with ⟨j, rfl⟩ | ⟨j, rfl⟩
    · exact ⟨by rw [L_tc]; exact Finset.mem_singleton_self _, by rw [hs, lv_recv]; decide⟩
    · exact ⟨by rw [L_tc]; exact Finset.mem_singleton_self _, by rw [hs, lv_bar]; decide⟩
  · rw [MayWait_zero]; iintro -; iempintro

/-- At its barrier wait a device owes its seven copies only: receive semaphores, above its barrier semaphore. -/
theorem mayWait_bar (c : Dev nD) : (levAts L lv : sProp 𝕄) ⊢ MayWait (c : Thread nD τ) (.reg barS) () (OR0 c) := by
  refine Pipeline.mayWait_of_levAts (by rw [L_tc]; exact Finset.mem_singleton_self _) fun g u hg => ?_
  obtain ⟨j, rfl⟩ := OR0_pos hg
  exact ⟨by rw [L_tc]; exact Finset.mem_singleton_self _, by rw [lv_bar, lv_recv]; decide⟩

/-! ## The cells, the ghost state, the pipeline's proof data -/

/-- A device's fifteen semaphores of the protocol: the barrier's, then per exchange the send and the receive one. -/
abbrev CK : Type := Option (Bool × Fin 7)
def csem : CK → SemLoc sig
  | none => .reg barS
  | some (false, j) => .dma (sendSem j)
  | some (true, j) => .dma (recvSem j)
abbrev kcell (ck : Dev nD × CK) : GSem nD τ sig := ((ck.1 : Thread nD τ), csem ck.2)

/-- Every cell's invariant under the names `K` the launch allocated them at, and every cell's round 0 reached. -/
def records (K : Dev nD × CK → ℕ) : sProp 𝕄 :=
  iprop((bigSep Finset.univ fun ck : Dev nD × CK => cellInv ER (a2aRd m) (K ck) (kcell ck))
    ∗ bigSep Finset.univ fun ck : Dev nD × CK => reached ER (kcell ck) 0)

instance records_persistent (K : Dev nD × CK → ℕ) : BI.Persistent (records m K) := by unfold records; infer_instance

theorem inv_at (K : Dev nD × CK → ℕ) (ck : Dev nD × CK) : records m K ⊢ cellInv ER (a2aRd m) (K ck) (kcell ck) := by
  unfold records
  exact (sep_elim_left (PROP := sProp 𝕄)).trans
    (bigSep_elim (Φ := fun ck : Dev nD × CK => (cellInv ER (a2aRd m) (K ck) (kcell ck) : sProp 𝕄)) (Finset.mem_univ ck))
theorem reached_at (K : Dev nD × CK → ℕ) (ck : Dev nD × CK) : records m K ⊢ reached ER (kcell ck) 0 := by
  unfold records
  exact (sep_elim_right (PROP := sProp 𝕄)).trans
    (bigSep_elim (Φ := fun ck : Dev nD × CK => (reached ER (kcell ck) 0 : sProp 𝕄)) (Finset.mem_univ ck))

/-- The tokens of the duties device `c` pays, per exchange: its unit on the barrier semaphore of the device `j + 1` places
    on (that semaphore's duty `j`), the copy's credit on that device's receive semaphore `j`, and on its own send semaphore `j`. -/
def payToks (c : Dev nD) : sProp 𝕄 :=
  bigSep Finset.univ fun j : Fin 7 => iprop(dutyTok ER (barCell (peer c j)) 0 j ∗ dutyTok ER (recvCell (peer c j) j) 0 0 ∗ dutyTok ER (sendCell c j) 0 0)

/-- Device `c`'s positions: at round 0 of its fifteen cells, nothing taken. -/
def positions (c : Dev nD) : sProp 𝕄 := bigSep Finset.univ fun k : CK => atPos ER (kcell (c, k)) 0 ∅ 0

def ghost (K : Dev nD × CK → ℕ) (c : Dev nD) : sProp 𝕄 := iprop(records m K ∗ positions c ∗ payToks c)

/-- The credit the launch deals device `c`: its barrier's seven units and each receive semaphore's copy credit. -/
def launchCreds (c : Dev nD) : sProp 𝕄 :=
  iprop(cred (tallyAt (barCell c) () 7) ∗ bigSep Finset.univ fun j : Fin 7 => cred (tallyAt (recvCell c j) () N))

/-- What device `c`'s body starts from, besides its buffers. -/
def start (c : Dev nD) : sProp 𝕄 := iprop((∃ K, ghost m K c) ∗ launchCreds c ∗ levAts L lv)

/-- The three scratch buffers of a device, each whole at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- The fourteen semaphores of the exchanges at zero, closed. -/
def closedSems (c : Dev nD) : sProp 𝕄 :=
  iprop((bigSep Finset.univ fun j : Fin 7 => semVal (sendCell c j) 0) ∗ bigSep Finset.univ fun j : Fin 7 => semVal (recvCell c j) 0)

def Φ₀ (c : Dev nD) : sProp 𝕄 := iprop(start m c ∗ scratch c)
def Φ₁ (c : Dev nD) : sProp 𝕄 := iprop(scratch c ∗ closedSems c)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => wstg m c
    | ⟨2, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

end Cert.Kernel.A2a

end
-- ==== Proof.KBodyStmt.lean ====
/-
  The body's proof obligation on one device, spelt out: from the invariants of the cells the device touches, its
  positions, duty tokens and launch credit, what it owes, and its six buffers, the body runs to a state where the
  scratch buffers are whole again, the fourteen exchange semaphores are closed at zero, nothing is owed, the two
  inputs' staging buffers are unchanged and the result's staging buffer holds the device's result block.
-/
import proofs.«900403_g7700000000000404_dist_a2a_gemm_m1024_k1024_n1024_f32_gelu_v7x_i8_1_alg».proof.Proof.KProtocol

noncomputable section

namespace Cert.Kernel.A2a

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A slot of the receive buffer under an opaque name: the same assertion as `slotPts`. -/
@[irreducible] def parkSlot (c : Dev nD) (j : Fin 7) (f : Buf (Elt F) ((c : Thread nD τ).loc cc0_scratch1)) : sProp 𝕄 := slotPts c j f
theorem parkSlot_def (c : Dev nD) (j : Fin 7) (f : Buf (Elt F) ((c : Thread nD τ).loc cc0_scratch1)) : parkSlot c j f = slotPts c j f := by unfold parkSlot; rfl
theorem parkSlot_eq (c : Dev nD) (j : Fin 7) (f : Buf (Elt F) ((c : Thread nD τ).loc cc0_scratch1)) :
    parkSlot c j f = ((dstM j).view.loc (c : Thread nD τ) ↦[(dstM j).view.set]{fullShare} f : sProp 𝕄) := by unfold parkSlot slotPts; rfl

/-- The launch dues, summand by summand. -/
theorem O₀_sum (c : Dev nD) : O₀ c = (tallyAt (recvCell (peer c 6) 6) () N + tallyAt (recvCell (peer c 5) 5) () N + tallyAt (recvCell (peer c 4) 4) () N + tallyAt (recvCell (peer c 3) 3) () N + tallyAt (recvCell (peer c 2) 2) () N + tallyAt (recvCell (peer c 1) 1) () N + tallyAt (recvCell (peer c 0) 0) () N + tallyAt (barCell (peer c 6)) () 1 + tallyAt (barCell (peer c 5)) () 1 + tallyAt (barCell (peer c 4)) () 1 + tallyAt (barCell (peer c 3)) () 1 + tallyAt (barCell (peer c 2)) () 1 + tallyAt (barCell (peer c 1)) () 1 + tallyAt (barCell (peer c 0)) () 1 : CellTallies nD τ sig Unit) := rfl

/-- What the body leaves. -/
def postFlat (c : Dev nD) : sProp 𝕄 :=
  iprop(scratch c ∗ closedSems c ∗ (∃ W', owes (c : Thread nD τ) 0 W')
    ∗ ((xM : Memref sig .tc .vmem S1024x128 .f32).view.loc (c : Thread nD τ) ↦[(xM : Memref sig .tc .vmem S1024x128 .f32).view.set]{fullShare} xstg m c)
    ∗ ((wM : Memref sig .tc .vmem S1024x1024 .f32).view.loc (c : Thread nD τ) ↦[(wM : Memref sig .tc .vmem S1024x1024 .f32).view.set]{fullShare} wstg m c)
    ∗ ((oM : Memref sig .tc .vmem S128x1024 .f32).view.loc (c : Thread nD τ) ↦[(oM : Memref sig .tc .vmem S128x1024 .f32).view.set]{fullShare} outAt m c))

/-- The body's obligation, flat. -/
def SoundFlat : Prop :=
  ∀ (K : Dev nD × CK → ℕ) (c : Dev nD) (W : Waits sig Unit) (g2 : Buf (Elt F) ((c : Thread nD τ).loc cc0_stg2_0))
    (f0 : Buf (Elt F) ((c : Thread nD τ).loc cc0_scratch0)) (f1 : Buf (Elt F) ((c : Thread nD τ).loc cc0_scratch1)) (f2 : Buf (Elt F) ((c : Thread nD τ).loc cc0_scratch2)),
    iprop(cellInv ER (a2aRd m) (K (c, none)) (barCell c)
      ∗ cellInv ER (a2aRd m) (K (c, some (false, 0))) (sendCell c 0)
      ∗ cellInv ER (a2aRd m) (K (c, some (false, 1))) (sendCell c 1)
      ∗ cellInv ER (a2aRd m) (K (c, some (false, 2))) (sendCell c 2)
      ∗ cellInv ER (a2aRd m) (K (c, some (false, 3))) (sendCell c 3)
      ∗ cellInv ER (a2aRd m) (K (c, some (false, 4))) (sendCell c 4)
      ∗ cellInv ER (a2aRd m) (K (c, some (false, 5))) (sendCell c 5)
      ∗ cellInv ER (a2aRd m) (K (c, some (false, 6))) (sendCell c 6)
      ∗ cellInv ER (a2aRd m) (K (c, some (true, 0))) (recvCell c 0)
      ∗ cellInv ER (a2aRd m) (K (c, some (true, 1))) (recvCell c 1)
      ∗ cellInv ER (a2aRd m) (K (c, some (true, 2))) (recvCell c 2)
      ∗ cellInv ER (a2aRd m) (K (c, some (true, 3))) (recvCell c 3)
      ∗ cellInv ER (a2aRd m) (K (c, some (true, 4))) (recvCell c 4)
      ∗ cellInv ER (a2aRd m) (K (c, some (true, 5))) (recvCell c 5)
      ∗ cellInv ER (a2aRd m) (K (c, some (true, 6))) (recvCell c 6)
      ∗ cellInv ER (a2aRd m) (K (peer c 0, none)) (barCell (peer c 0))
      ∗ cellInv ER (a2aRd m) (K (peer c 1, none)) (barCell (peer c 1))
      ∗ cellInv ER (a2aRd m) (K (peer c 2, none)) (barCell (peer c 2))
      ∗ cellInv ER (a2aRd m) (K (peer c 3, none)) (barCell (peer c 3))
      ∗ cellInv ER (a2aRd m) (K (peer c 4, none)) (barCell (peer c 4))
      ∗ cellInv ER (a2aRd m) (K (peer c 5, none)) (barCell (peer c 5))
      ∗ cellInv ER (a2aRd m) (K (peer c 6, none)) (barCell (peer c 6))
      ∗ cellInv ER (a2aRd m) (K (peer c 0, some (true, 0))) (recvCell (peer c 0) 0)
      ∗ cellInv ER (a2aRd m) (K (peer c 1, some (true, 1))) (recvCell (peer c 1) 1)
      ∗ cellInv ER (a2aRd m) (K (peer c 2, some (true, 2))) (recvCell (peer c 2) 2)
      ∗ cellInv ER (a2aRd m) (K (peer c 3, some (true, 3))) (recvCell (peer c 3) 3)
      ∗ cellInv ER (a2aRd m) (K (peer c 4, some (true, 4))) (recvCell (peer c 4) 4)
      ∗ cellInv ER (a2aRd m) (K (peer c 5, some (true, 5))) (recvCell (peer c 5) 5)
      ∗ cellInv ER (a2aRd m) (K (peer c 6, some (true, 6))) (recvCell (peer c 6) 6)
      ∗ reached ER (barCell (peer c 0)) 0
      ∗ reached ER (barCell (peer c 1)) 0
      ∗ reached ER (barCell (peer c 2)) 0
      ∗ reached ER (barCell (peer c 3)) 0
      ∗ reached ER (barCell (peer c 4)) 0
      ∗ reached ER (barCell (peer c 5)) 0
      ∗ reached ER (barCell (peer c 6)) 0
      ∗ reached ER (recvCell (peer c 0) 0) 0
      ∗ reached ER (recvCell (peer c 1) 1) 0
      ∗ reached ER (recvCell (peer c 2) 2) 0
      ∗ reached ER (recvCell (peer c 3) 3) 0
      ∗ reached ER (recvCell (peer c 4) 4) 0
      ∗ reached ER (recvCell (peer c 5) 5) 0
      ∗ reached ER (recvCell (peer c 6) 6) 0
      ∗ reached ER (sendCell c 0) 0
      ∗ reached ER (sendCell c 1) 0
      ∗ reached ER (sendCell c 2) 0
      ∗ reached ER (sendCell c 3) 0
      ∗ reached ER (sendCell c 4) 0
      ∗ reached ER (sendCell c 5) 0
      ∗ reached ER (sendCell c 6) 0
      ∗ levAts L lv
      ∗ atPos ER (barCell c) 0 ∅ 0
      ∗ atPos ER (sendCell c 0) 0 ∅ 0
      ∗ atPos ER (sendCell c 1) 0 ∅ 0
      ∗ atPos ER (sendCell c 2) 0 ∅ 0
      ∗ atPos ER (sendCell c 3) 0 ∅ 0
      ∗ atPos ER (sendCell c 4) 0 ∅ 0
      ∗ atPos ER (sendCell c 5) 0 ∅ 0
      ∗ atPos ER (sendCell c 6) 0 ∅ 0
      ∗ atPos ER (recvCell c 0) 0 ∅ 0
      ∗ atPos ER (recvCell c 1) 0 ∅ 0
      ∗ atPos ER (recvCell c 2) 0 ∅ 0
      ∗ atPos ER (recvCell c 3) 0 ∅ 0
      ∗ atPos ER (recvCell c 4) 0 ∅ 0
      ∗ atPos ER (recvCell c 5) 0 ∅ 0
      ∗ atPos ER (recvCell c 6) 0 ∅ 0
      ∗ dutyTok ER (barCell (peer c 0)) 0 0
      ∗ dutyTok ER (barCell (peer c 1)) 0 1
      ∗ dutyTok ER (barCell (peer c 2)) 0 2
      ∗ dutyTok ER (barCell (peer c 3)) 0 3
      ∗ dutyTok ER (barCell (peer c 4)) 0 4
      ∗ dutyTok ER (barCell (peer c 5)) 0 5
      ∗ dutyTok ER (barCell (peer c 6)) 0 6
      ∗ dutyTok ER (recvCell (peer c 0) 0) 0 0
      ∗ dutyTok ER (recvCell (peer c 1) 1) 0 0
      ∗ dutyTok ER (recvCell (peer c 2) 2) 0 0
      ∗ dutyTok ER (recvCell (peer c 3) 3) 0 0
      ∗ dutyTok ER (recvCell (peer c 4) 4) 0 0
      ∗ dutyTok ER (recvCell (peer c 5) 5) 0 0
      ∗ dutyTok ER (recvCell (peer c 6) 6) 0 0
      ∗ dutyTok ER (sendCell c 0) 0 0
      ∗ dutyTok ER (sendCell c 1) 0 0
      ∗ dutyTok ER (sendCell c 2) 0 0
      ∗ dutyTok ER (sendCell c 3) 0 0
      ∗ dutyTok ER (sendCell c 4) 0 0
      ∗ dutyTok ER (sendCell c 5) 0 0
      ∗ dutyTok ER (sendCell c 6) 0 0
      ∗ cred (tallyAt (barCell c) () 7)
      ∗ cred (tallyAt (recvCell c 0) () N)
      ∗ cred (tallyAt (recvCell c 1) () N)
      ∗ cred (tallyAt (recvCell c 2) () N)
      ∗ cred (tallyAt (recvCell c 3) () N)
      ∗ cred (tallyAt (recvCell c 4) () N)
      ∗ cred (tallyAt (recvCell c 5) () N)
      ∗ cred (tallyAt (recvCell c 6) () N)
      ∗ owes (c : Thread nD τ) (O₀ c) W
      ∗ ((xM : Memref sig .tc .vmem S1024x128 .f32).view.loc (c : Thread nD τ) ↦[(xM : Memref sig .tc .vmem S1024x128 .f32).view.set]{fullShare} xstg m c)
      ∗ ((wM : Memref sig .tc .vmem S1024x1024 .f32).view.loc (c : Thread nD τ) ↦[(wM : Memref sig .tc .vmem S1024x1024 .f32).view.set]{fullShare} wstg m c)
      ∗ ((oM : Memref sig .tc .vmem S128x1024 .f32).view.loc (c : Thread nD τ) ↦[(oM : Memref sig .tc .vmem S128x1024 .f32).view.set]{fullShare} g2)
      ∗ ((stM : Memref sig .tc .vmem S1024x128 .bf16).view.loc (c : Thread nD τ) ↦[(stM : Memref sig .tc .vmem S1024x128 .bf16).view.set]{fullShare} f0)
      ∗ parkSlot c 0 f1
      ∗ parkSlot c 1 f1
      ∗ parkSlot c 2 f1
      ∗ parkSlot c 3 f1
      ∗ parkSlot c 4 f1
      ∗ parkSlot c 5 f1
      ∗ parkSlot c 6 f1
      ∗ ((wbM : Memref sig .tc .vmem S1024x1024 .bf16).view.loc (c : Thread nD τ) ↦[(wbM : Memref sig .tc .vmem S1024x1024 .bf16).view.set]{fullShare} f2))
      ⊢ wp frame (wpE (defs₀ (F := F)) 𝒱₀ c none) Set.univ
          (cc0_body (Memref.whole cc0_stg0_0) (Memref.isWhole_whole _) (Memref.whole cc0_stg1_0) (Memref.isWhole_whole _) (Memref.whole cc0_stg2_0) (Memref.isWhole_whole _)
            (Memref.whole cc0_scratch0) (Memref.isWhole_whole _) (Memref.whole cc0_scratch1) (Memref.isWhole_whole _) (Memref.whole cc0_scratch2) (Memref.isWhole_whole _) cc0_scratch3 cc0_scratch4) (fun _ => postFlat m c)

end Cert.Kernel.A2a

end
-- ==== Proof.KRegions.lean ====
/-
  The two scratch buffers of the exchange cut into the pieces each copy owns: the stage buffer into the seven row blocks
  that are sent and the one that is kept, the receive buffer into its seven slots.
-/
import proofs.«900403_g7700000000000404_dist_a2a_gemm_m1024_k1024_n1024_f32_gelu_v7x_i8_1_alg».proof.Proof.KViews

noncomputable section

namespace Cert.Kernel.A2a

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The receive buffer -/

abbrev slotR (j : Fin 7) : Rect S7x128x128 := Rect.unit (s := S7x128x128) ![j.val, 0, 0] S1x128x128.size (inb_slot j)

/-- Slot `j` is the part of the receive buffer whose first coordinate is `j`. -/
theorem dst_set (j : Fin 7) : (dstM j).view.set = (slotR j).set :=
  (View.set_reshape _ _).trans (View.set_slice_whole _ _)

theorem mem_slotR (j : Fin 7) (i : S7x128x128.Idx) : i ∈ (slotR j).set ↔ (i 0).val = j.val := by
  rw [Rect.mem_set_unit]
  constructor
  · intro h; have := h 0; simp at this; omega
  · intro h a
    have := (i a).isLt
    fin_cases a <;> simp_all

theorem mem_dst (j : Fin 7) (i : S7x128x128.Idx) : i ∈ (dstM j).view.set ↔ (i 0).val = j.val := by
  rw [dst_set]; exact mem_slotR j i

theorem slotR_disjoint {j j' : Fin 7} (h : j ≠ j') : Disjoint (slotR j).set (slotR j').set := by
  rw [Finset.disjoint_left]
  intro i hi hi'
  rw [mem_slotR] at hi hi'
  exact h (Fin.ext (hi.symm.trans hi'))

theorem slotR_cover : (Finset.univ : Finset S7x128x128.Idx) =
    (slotR 0).set ∪ ((slotR 1).set ∪ ((slotR 2).set ∪ ((slotR 3).set ∪ ((slotR 4).set ∪ ((slotR 5).set ∪ (slotR 6).set))))) := by
  ext i
  have hi : (i 0).val < 7 := (i 0).isLt
  simp only [Finset.mem_univ, Finset.mem_union, mem_slotR, true_iff]
  show (i 0).val = 0 ∨ (i 0).val = 1 ∨ (i 0).val = 2 ∨ (i 0).val = 3 ∨ (i 0).val = 4 ∨ (i 0).val = 5 ∨ (i 0).val = 6
  omega

omit [FloatOps F] in
theorem slotPts_eq (c : Dev nD) (j : Fin 7) (f : Buf (Elt F) ((c : Thread nD τ).loc cc0_scratch1)) :
    slotPts c j f = ((((c : Thread nD τ).loc cc0_scratch1) ↦[(slotR j).set]{fullShare} f : sProp 𝕄)) :=
  congrArg (fun S => ((((c : Thread nD τ).loc cc0_scratch1) ↦[S]{fullShare} f : sProp 𝕄))) (dst_set j)

omit [FloatOps F] in
/-- The receive buffer is its seven slots. -/
theorem comm_split (c : Dev nD) (f : Buf (Elt F) ((c : Thread nD τ).loc cc0_scratch1)) :
    ((((c : Thread nD τ).loc cc0_scratch1) ↦{fullShare} f : sProp 𝕄)) ⊣⊢
      iprop(slotPts c 0 f ∗ slotPts c 1 f ∗ slotPts c 2 f ∗ slotPts c 3 f ∗ slotPts c 4 f ∗ slotPts c 5 f ∗ slotPts c 6 f) := by
  simp only [slotPts_eq]
  have e0 : ((((c : Thread nD τ).loc cc0_scratch1) ↦{fullShare} f : sProp 𝕄)) = _ :=
    congrArg (fun S => ((((c : Thread nD τ).loc cc0_scratch1) ↦[S]{fullShare} f : sProp 𝕄))) slotR_cover
  rw [e0]
  have d : ∀ {j j' : Fin 7}, j ≠ j' → Disjoint (slotR j).set (slotR j').set := fun h => slotR_disjoint h
  refine (Region.is_union ?_).trans (sep_congr_right ((Region.is_union ?_).trans (sep_congr_right
    ((Region.is_union ?_).trans (sep_congr_right ((Region.is_union ?_).trans (sep_congr_right
    ((Region.is_union ?_).trans (sep_congr_right (Region.is_union ?_))))))))))
  all_goals first
    | (simp only [Finset.disjoint_union_right]; (repeat' constructor) <;> exact d (by decide))
    | exact d (by decide)

/-! ## The stage buffer -/

/-- The rows exchange `j` sends, and the rows that stay. -/
abbrev srcR (c : Dev nD) (j : Fin 7) : Rect S1024x128 :=
  Rect.unit (s := S1024x128) (k0_off3 c (BitVec.ofNat 32 (1 + j.val))) S128x128.size (k0_off3_inb c j)
abbrev ownR (c : Dev nD) : Rect S1024x128 := Rect.unit (s := S1024x128) (k0_off1 c) S128x128.size (k0_off1_inb c)

/-- Device `c`'s own row block of its stage buffer, as a memref. -/
def ownM (c : Dev nD) : Memref sig .tc .vmem S128x128 .bf16 := stM.slice (ownR c) (fun _ => rfl)

theorem src_set (c : Dev nD) (j : Fin 7) : (srcM c j).view.set = (srcR c j).set := View.set_slice_whole _ _
theorem own_set (c : Dev nD) : (ownM c).view.set = (ownR c).set := View.set_slice_whole _ _

/-- The rows exchange `j` sends are the row block of the addressee. -/
theorem mem_srcR (c : Dev nD) (j : Fin 7) (i : S1024x128.Idx) : i ∈ (srcR c j).set ↔ (i 0).val / 128 = (peer c j).val := by
  rw [Rect.mem_set_unit, k0_off3_eq]
  show _ ↔ (i 0).val / 128 = (c.val + j.val + 1) % 8
  constructor
  · intro h; have := h 0; simp at this; omega
  · intro h a
    have := (i a).isLt
    fin_cases a <;> simp_all <;> omega

theorem mem_ownR (c : Dev nD) (i : S1024x128.Idx) : i ∈ (ownR c).set ↔ (i 0).val / 128 = c.val := by
  rw [Rect.mem_set_unit, k0_off1_eq]
  constructor
  · intro h; have := h 0; simp at this; omega
  · intro h a
    have := (i a).isLt
    fin_cases a <;> simp_all <;> omega

theorem srcR_disjoint (c : Dev nD) {j j' : Fin 7} (h : j ≠ j') : Disjoint (srcR c j).set (srcR c j').set := by
  rw [Finset.disjoint_left]
  intro i hi hi'
  rw [mem_srcR] at hi hi'
  exact h (peer_inj c j j' (Fin.ext (hi.symm.trans hi')))

theorem srcR_ownR_disjoint (c : Dev nD) (j : Fin 7) : Disjoint (srcR c j).set (ownR c).set := by
  rw [Finset.disjoint_left]
  intro i hi hi'
  rw [mem_srcR] at hi; rw [mem_ownR] at hi'
  exact peer_ne c j (Fin.ext (hi.symm.trans hi'))

theorem peer_cover (c b : Dev nD) : b = peer c 0 ∨ b = peer c 1 ∨ b = peer c 2 ∨ b = peer c 3 ∨ b = peer c 4 ∨ b = peer c 5 ∨
    b = peer c 6 ∨ b = c := by revert c b; decide

theorem stage_cover (c : Dev nD) : (Finset.univ : Finset S1024x128.Idx) =
    (srcR c 0).set ∪ ((srcR c 1).set ∪ ((srcR c 2).set ∪ ((srcR c 3).set ∪ ((srcR c 4).set ∪ ((srcR c 5).set ∪
      ((srcR c 6).set ∪ (ownR c).set)))))) := by
  ext i
  have hi : (i 0).val / 128 < 8 := by have : (i 0).val < 1024 := (i 0).isLt; omega
  simp only [Finset.mem_univ, Finset.mem_union, mem_srcR, mem_ownR, true_iff]
  have := peer_cover c ⟨(i 0).val / 128, hi⟩
  simpa only [Fin.ext_iff] using this

/-- The rows of the stage buffer that no exchange sends, held whole. -/
def stageRest (c : Dev nD) (f : Buf (Elt F) ((c : Thread nD τ).loc cc0_scratch0)) : sProp 𝕄 :=
  (ownM c).view.loc (c : Thread nD τ) ↦[(ownM c).view.set]{fullShare} f

omit [FloatOps F] in
theorem srcPts_eq (c : Dev nD) (j : Fin 7) (f : Buf (Elt F) ((c : Thread nD τ).loc cc0_scratch0)) :
    srcPts c j f = ((((c : Thread nD τ).loc cc0_scratch0) ↦[(srcR c j).set]{fullShare} f : sProp 𝕄)) :=
  congrArg (fun S => ((((c : Thread nD τ).loc cc0_scratch0) ↦[S]{fullShare} f : sProp 𝕄))) (src_set c j)

omit [FloatOps F] in
theorem stageRest_eq (c : Dev nD) (f : Buf (Elt F) ((c : Thread nD τ).loc cc0_scratch0)) :
    stageRest c f = ((((c : Thread nD τ).loc cc0_scratch0) ↦[(ownR c).set]{fullShare} f : sProp 𝕄)) :=
  congrArg (fun S => ((((c : Thread nD τ).loc cc0_scratch0) ↦[S]{fullShare} f : sProp 𝕄))) (own_set c)

omit [FloatOps F] in
/-- The stage buffer is the seven row blocks that are sent and the one that stays. -/
theorem stage_split (c : Dev nD) (f : Buf (Elt F) ((c : Thread nD τ).loc cc0_scratch0)) :
    ((((c : Thread nD τ).loc cc0_scratch0) ↦{fullShare} f : sProp 𝕄)) ⊣⊢
      iprop(srcPts c 0 f ∗ srcPts c 1 f ∗ srcPts c 2 f ∗ srcPts c 3 f ∗ srcPts c 4 f ∗ srcPts c 5 f ∗ srcPts c 6 f ∗
        stageRest c f) := by
  simp only [srcPts_eq, stageRest_eq]
  have e0 : ((((c : Thread nD τ).loc cc0_scratch0) ↦{fullShare} f : sProp 𝕄)) = _ :=
    congrArg (fun S => ((((c : Thread nD τ).loc cc0_scratch0) ↦[S]{fullShare} f : sProp 𝕄))) (stage_cover c)
  rw [e0]
  have d : ∀ j j' : Fin 7, j ≠ j' → Disjoint (srcR c j).set (srcR c j').set := fun _ _ h => srcR_disjoint c h
  have d' : ∀ j : Fin 7, Disjoint (srcR c j).set (ownR c).set := srcR_ownR_disjoint c
  have dU : ∀ {I J K : Finset S1024x128.Idx}, Disjoint I J → Disjoint I K → Disjoint I (J ∪ K) :=
    fun h1 h2 => Finset.disjoint_union_right.mpr ⟨h1, h2⟩
  refine (Region.is_union ?_).trans (sep_congr_right ((Region.is_union ?_).trans (sep_congr_right
    ((Region.is_union ?_).trans (sep_congr_right ((Region.is_union ?_).trans (sep_congr_right
    ((Region.is_union ?_).trans (sep_congr_right ((Region.is_union ?_).trans (sep_congr_right
    (Region.is_union ?_))))))))))))
  · exact (dU (d 0 1 (by decide)) (dU (d 0 2 (by decide)) (dU (d 0 3 (by decide)) (dU (d 0 4 (by decide)) (dU (d 0 5 (by decide)) (dU (d 0 6 (by decide)) (d' 0)))))))
  · exact (dU (d 1 2 (by decide)) (dU (d 1 3 (by decide)) (dU (d 1 4 (by decide)) (dU (d 1 5 (by decide)) (dU (d 1 6 (by decide)) (d' 1))))))
  · exact (dU (d 2 3 (by decide)) (dU (d 2 4 (by decide)) (dU (d 2 5 (by decide)) (dU (d 2 6 (by decide)) (d' 2)))))
  · exact (dU (d 3 4 (by decide)) (dU (d 3 5 (by decide)) (dU (d 3 6 (by decide)) (d' 3))))
  · exact (dU (d 4 5 (by decide)) (dU (d 4 6 (by decide)) (d' 4)))
  · exact (dU (d 5 6 (by decide)) (d' 5))
  · exact (d' 6)

end Cert.Kernel.A2a

end
-- ==== Proof.KLaunch.lean ====
/-
  The launch of the exchange: every device's semaphores, the ghost state of the protocol's cells and the duty tokens
  are dealt at once, each device gets the tokens of the duties it pays and the credit of what the others owe it, and
  the launch theorem turns the proof of one device's body into a run of the whole mesh.
-/
import proofs.«900403_g7700000000000404_dist_a2a_gemm_m1024_k1024_n1024_f32_gelu_v7x_i8_1_alg».proof.Proof.KProtocol
import proofs.«900403_g7700000000000404_dist_a2a_gemm_m1024_k1024_n1024_f32_gelu_v7x_i8_1_alg».proof.Proof.Gen.Kernel.Frame

noncomputable section

namespace Cert.Kernel.A2a

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens the launch mints -/

/-- The kernel's own fourteen semaphores: per exchange the send and the receive one. -/
abbrev osem : Bool × Fin 7 → SemLoc sig := fun k => csem (some k)

theorem ownSemFacts : Pipeline.OwnSemFacts cfg0.spec osem := by decide

theorem share_eq (c : Dev nD) (w : Fin cfg0.W) : (dats m 0 c).share w = fullShare := by unfold Dat.share; split <;> rfl

theorem csem_injective : Function.Injective csem := by intro a b; revert a b; decide

theorem kcell_injective : Function.Injective (kcell : Dev nD × CK → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]
def ringCells : Finset (GSem nD τ sig) := Finset.univ.map ⟨kcell, kcell_injective⟩

/-- A device's own cells' duty tokens as minted: the barrier's seven, and one per send and per receive semaphore. -/
abbrev tokOf (cj : Dev nD × (Fin 7 ⊕ (Bool × Fin 7))) : GSem nD τ sig × ℕ × Fin 7 := match cj.2 with
  | .inl d => (barCell cj.1, 0, d)
  | .inr k => (kcell (cj.1, some k), 0, 0)
theorem tokOf_injective : Function.Injective (tokOf : Dev nD × (Fin 7 ⊕ (Bool × Fin 7)) → GSem nD τ sig × ℕ × Fin 7) := by
  rintro ⟨c, j⟩ ⟨c', j'⟩ h
  have h1 : c = c' := by
    have := congrArg (fun x : GSem nD τ sig × ℕ × Fin 7 => x.1.1.1) h
    rcases j with d | k <;> rcases j' with d' | k' <;> exact this
  subst h1
  have : j = j' := by
    rcases j with d | k <;> rcases j' with d' | k'
    · exact congrArg Sum.inl (congrArg (fun x : GSem nD τ sig × ℕ × Fin 7 => x.2.2) h)
    · exact absurd (csem_injective (a₁ := none) (a₂ := some k') (congrArg (fun x : GSem nD τ sig × ℕ × Fin 7 => x.1.2) h)) (fun h' => by cases h')
    · exact absurd (csem_injective (a₁ := some k) (a₂ := none) (congrArg (fun x : GSem nD τ sig × ℕ × Fin 7 => x.1.2) h)) (fun h' => by cases h')
    · exact congrArg Sum.inr (Option.some.inj (csem_injective (congrArg (fun x : GSem nD τ sig × ℕ × Fin 7 => x.1.2) h)))
  subst this; rfl
def ringToks : Finset (GSem nD τ sig × ℕ × Fin 7) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep Finset.univ fun d : Fin 7 => dutyTok ER (barCell c) 0 d)
    ∗ bigSep Finset.univ fun k : Bool × Fin 7 => dutyTok ER (kcell (c, some k)) 0 0)

/-- What the launch element deals device `c`. -/
def G (c : Dev nD) : sProp 𝕄 :=
  iprop((bigSep Finset.univ fun k : CK => roundState ER (a2aRd m) (kcell (c, k)) 0)
    ∗ (bigSep Finset.univ fun k : CK => iprop(atPos ER (kcell (c, k)) 0 ∅ 0 ∗ reached ER (kcell (c, k)) 0)) ∗ toks c)

/-- What the global step makes of it. -/
def G' (c : Dev nD) : sProp 𝕄 := iprop(∃ K, ghost m K c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum]; rfl
  iintro HX
  imod (Rounds.fund ER (a2aRd m) ringCells ringToks) $$ HX with ⟨Hst, Hr, Hat, Htok⟩
  imodintro
  ihave Hst' := (Entails.of_eq (hX fun g => roundState ER (a2aRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Every cell's invariant allocated, the tokens dealt to the payers -/

omit [FloatOps F] in
/-- The fifteen cells of a device: the barrier's, then the fourteen of the exchanges. -/
theorem bigSep_CK (Φ : CK → sProp 𝕄) : bigSep Finset.univ Φ = iprop(Φ none ∗ bigSep Finset.univ fun k : Bool × Fin 7 => Φ (some k)) := by
  rw [bigSep_univ_at Φ none, show (Finset.univ.erase (none : CK)) = Finset.univ.map ⟨some, Option.some_injective _⟩ from by decide, bigSep_map]; rfl

omit [FloatOps F] in
/-- The fourteen, by kind. -/
theorem bigSep_BJ (Φ : Bool × Fin 7 → sProp 𝕄) :
    bigSep Finset.univ Φ = iprop((bigSep Finset.univ fun j : Fin 7 => Φ (false, j)) ∗ bigSep Finset.univ fun j : Fin 7 => Φ (true, j)) := by
  rw [bigSep_univ_prod, bigSep_univ_eq_bigSepL [false, true] (by decide) (by decide)]; rfl

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

omit [FloatOps F] in
/-- The send and receive semaphores are the kernel's own fourteen; -/
theorem ownSems0_eq (c : Dev nD) : (Pipeline.ownSems0 (Ix := Unit) (Name := ℕ) (U := UU) (Lvl := ℕ) (Val := Elt F) (τ := τ) osem c : sProp 𝕄)
    = closedSems c := by
  unfold Pipeline.ownSems0 closedSems; rw [bigSep_BJ]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [unscopedSems0_eq, bigSep_CK]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (a2aRd m) κ (kcell (c, k))))
          ∗ (bigSep Finset.univ fun k : CK => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (a2aRd m) (kcell (c, k)) 0)
      ⊢ (|={Set.univ}=> bigSep Finset.univ fun k : CK => iprop(∃ κ : ℕ, cellInv ER (a2aRd m) κ (kcell (c, k))) : sProp 𝕄) from by
        rw [← bigSep_sep']
        exact (bigSep_mono fun k _ => (Rounds.body_intro ER (a2aRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × CK → ℕ) (c : Dev nD) : iprop(records m K ∗ positions c ∗ payToks c) ⊢ G' m c := by
  unfold G' ghost
  iintro H
  iexists K
  iexact H

omit [FloatOps F] in
/-- A device's own tokens by kind. -/
theorem toks_eq (c : Dev nD) : (toks c : sProp 𝕄) = iprop((bigSep Finset.univ fun d : Fin 7 => dutyTok ER (barCell c) 0 d)
    ∗ (bigSep Finset.univ fun j : Fin 7 => dutyTok ER (sendCell c j) 0 0) ∗ bigSep Finset.univ fun j : Fin 7 => dutyTok ER (recvCell c j) 0 0) := by
  unfold toks; rw [bigSep_BJ]; rfl

omit [FloatOps F] in
/-- What each device holds for exchange `j` of itself, all devices holding it for exchange `j` of the device `j + 1` places on instead. -/
theorem swap_peer (Φ : Dev nD → Fin 7 → sProp 𝕄) :
    (bigSep Finset.univ fun c : Dev nD => bigSep Finset.univ fun j : Fin 7 => Φ c j)
      = bigSep Finset.univ fun c : Dev nD => bigSep Finset.univ fun j : Fin 7 => Φ (peer c j) j :=
  (bigSep_univ_comm Φ).trans ((bigSep_congr fun j _ => bigSep_univ_equiv (ringJ j) (fun c => Φ c j)).trans
    (bigSep_univ_comm (fun (j : Fin 7) (c : Dev nD) => Φ (peer c j) j)))

omit [FloatOps F] in
theorem payToks_eq : (bigSep Finset.univ fun c : Dev nD => (payToks c : sProp 𝕄))
    = iprop((bigSep Finset.univ fun c : Dev nD => bigSep Finset.univ fun j : Fin 7 => dutyTok ER (barCell (peer c j)) 0 j)
      ∗ (bigSep Finset.univ fun c : Dev nD => bigSep Finset.univ fun j : Fin 7 => dutyTok ER (recvCell (peer c j) j) 0 0)
      ∗ bigSep Finset.univ fun c : Dev nD => bigSep Finset.univ fun j : Fin 7 => dutyTok ER (sendCell c j) 0 0) := by
  unfold payToks; simp only [bigSep_sep']

omit [FloatOps F] in
/-- The tokens dealt to the payers: barrier duty `j` and the receive duty of exchange `j` go `j + 1` places back. -/
theorem toks_around : (bigSep Finset.univ fun c : Dev nD => (toks c : sProp 𝕄)) ⊢ bigSep Finset.univ fun c : Dev nD => payToks c := by
  rw [payToks_eq, bigSep_congr (fun c _ => toks_eq c), bigSep_sep', bigSep_sep',
    swap_peer (fun c d => (dutyTok ER (barCell c) 0 d : sProp 𝕄)), swap_peer (fun c j => (dutyTok ER (recvCell c j) 0 0 : sProp 𝕄))]
  iintro ⟨H1, H2, H3⟩
  isplitl [H1]; · iexact H1
  isplitl [H3]; · iexact H3
  iexact H2

theorem regroup :
    (bigSep Finset.univ fun c : Dev nD => iprop((bigSep Finset.univ fun k : CK => iprop(∃ κ : ℕ, cellInv ER (a2aRd m) κ (kcell (c, k))))
          ∗ (bigSep Finset.univ fun k : CK => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CK => iprop(∃ κ : ℕ, cellInv ER (a2aRd m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (a2aRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (Entails.of_eq (bigSep_sep' Finset.univ (fun c : Dev nD => (positions c : sProp 𝕄)) payToks).symm)
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

omit [FloatOps F] in
/-- Every device owing the barrier semaphore `j + 1` places on one unit, each device is dealt one unit of credit on its own; -/
theorem cred_bar (c : Dev nD) (j : Fin 7) :
    (Pipeline.launchCred (fun d => barT d j) c : sProp 𝕄) ⊢ cred (tallyAt (barCell c) () 1) :=
  Pipeline.launchCred_tallyAt (.reg barS) (fun d => peer d j) (fun d => orig d j) (fun c => peer_orig c j) (fun d => orig_peer d j) () 1 c
omit [FloatOps F] in
/-- likewise a copy's credit on its receive semaphore `j`. -/
theorem cred_recv (c : Dev nD) (j : Fin 7) :
    (Pipeline.launchCred (fun d => recvT d j) c : sProp 𝕄) ⊢ cred (tallyAt (recvCell c j) () N) :=
  Pipeline.launchCred_tallyAt (.dma (recvSem j)) (fun d => peer d j) (fun d => orig d j) (fun c => peer_orig c j) (fun d => orig_peer d j) () N c

omit [FloatOps F] in
theorem cred_join (g : GSem nD τ sig) (a b : ℕ) : iprop(cred (tallyAt g () a) ∗ cred (tallyAt g () b)) ⊢ (cred (tallyAt g () (a + b)) : sProp 𝕄) := by
  rw [← tallyAt_add]; exact (cred_add _ _).2

omit [FloatOps F] in
/-- The launch dues, summand by summand. -/
theorem launchCred_split (c : Dev nD) : (Pipeline.launchCred O₀ c : sProp 𝕄)
    = iprop((((((((((((((Pipeline.launchCred (fun d => recvT d 6) c ∗ Pipeline.launchCred (fun d => recvT d 5) c) ∗ Pipeline.launchCred (fun d => recvT d 4) c)
        ∗ Pipeline.launchCred (fun d => recvT d 3) c) ∗ Pipeline.launchCred (fun d => recvT d 2) c) ∗ Pipeline.launchCred (fun d => recvT d 1) c)
        ∗ Pipeline.launchCred (fun d => recvT d 0) c) ∗ Pipeline.launchCred (fun d => barT d 6) c) ∗ Pipeline.launchCred (fun d => barT d 5) c)
        ∗ Pipeline.launchCred (fun d => barT d 4) c) ∗ Pipeline.launchCred (fun d => barT d 3) c) ∗ Pipeline.launchCred (fun d => barT d 2) c)
        ∗ Pipeline.launchCred (fun d => barT d 1) c) ∗ Pipeline.launchCred (fun d => barT d 0) c)) := by
  rw [← Pipeline.launchCred_add, ← Pipeline.launchCred_add, ← Pipeline.launchCred_add, ← Pipeline.launchCred_add, ← Pipeline.launchCred_add,
    ← Pipeline.launchCred_add, ← Pipeline.launchCred_add, ← Pipeline.launchCred_add, ← Pipeline.launchCred_add, ← Pipeline.launchCred_add,
    ← Pipeline.launchCred_add, ← Pipeline.launchCred_add, ← Pipeline.launchCred_add]
  rfl

omit [FloatOps F] in
theorem creds (c : Dev nD) : (Pipeline.launchCred O₀ c : sProp 𝕄) ⊢ launchCreds c := by
  rw [launchCred_split]
  unfold launchCreds
  rw [bigSep_fin7]
  iintro ⟨⟨⟨⟨⟨⟨⟨⟨⟨⟨⟨⟨⟨R6, R5⟩, R4⟩, R3⟩, R2⟩, R1⟩, R0⟩, B6⟩, B5⟩, B4⟩, B3⟩, B2⟩, B1⟩, B0⟩
  ihave C0 := (cred_bar (F := F) c 0) $$ B0
  ihave C1 := (cred_bar (F := F) c 1) $$ B1
  ihave C2 := (cred_bar (F := F) c 2) $$ B2
  ihave C3 := (cred_bar (F := F) c 3) $$ B3
  ihave C4 := (cred_bar (F := F) c 4) $$ B4
  ihave C5 := (cred_bar (F := F) c 5) $$ B5
  ihave C6 := (cred_bar (F := F) c 6) $$ B6
  ihave D1 := (cred_join (F := F) (barCell c) 1 1) $$ [C0 C1]
  · isplitl [C0] <;> iassumption
  ihave D2 := (cred_join (F := F) (barCell c) 2 1) $$ [D1 C2]
  · isplitl [D1] <;> iassumption
  ihave D3 := (cred_join (F := F) (barCell c) 3 1) $$ [D2 C3]
  · isplitl [D2] <;> iassumption
  ihave D4 := (cred_join (F := F) (barCell c) 4 1) $$ [D3 C4]
  · isplitl [D3] <;> iassumption
  ihave D5 := (cred_join (F := F) (barCell c) 5 1) $$ [D4 C5]
  · isplitl [D4] <;> iassumption
  ihave D6 := (cred_join (F := F) (barCell c) 6 1) $$ [D5 C6]
  · isplitl [D5] <;> iassumption
  isplitl [D6]; · iexact D6
  isplitl [R0]; · iapply (cred_recv (F := F) c 0); iexact R0
  isplitl [R1]; · iapply (cred_recv (F := F) c 1); iexact R1
  isplitl [R2]; · iapply (cred_recv (F := F) c 2); iexact R2
  isplitl [R3]; · iapply (cred_recv (F := F) c 3); iexact R3
  isplitl [R4]; · iapply (cred_recv (F := F) c 4); iexact R4
  isplitl [R5]; · iapply (cred_recv (F := F) c 5); iexact R5
  iapply (cred_recv (F := F) c 6); iexact R6

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁ scratch
  iintro ⟨Hr, Hz⟩
  isplitr; · iempintro
  isplitl [Hz]; · iexact Hz
  iexact Hr

/-- The pipeline's own waits, on its three staging semaphores, rank below everything a device owes. -/
theorem waits (c : Dev nD) : (levAts L lv : sProp 𝕄) ⊢ Pipeline.cellsWaits cfgs (dats m) () 0 c :=
  Pipeline.cellsWaits_intro cfgs (dats m) () 0 c fun w s t =>
    mayWait_low c _ (by fin_cases w <;> fin_cases s <;> revert c <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- At the compiled mesh of eight devices, for any float values, from any memory with zero counters: given the proof of
    one device's body, every weakly fair execution of the eight kernels — meeting on the barrier semaphore, then
    exchanging rows — terminates, and every final state has each device's arrays at the computed contents. -/
theorem run_main (hbody : ∀ c, BodyObligation (dats (F := F) m 0 c) (defs₀ (F := F)) 𝒱₀ () Set.univ) :
    θ_run defs (onTc (τ := τ) (main (F := F))) (s₀ m ρ) (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- info: 'Cert.Kernel.A2a.run_main' depends on axioms: [propext, Classical.choice, Quot.sound] -/
#guard_msgs in #print axioms run_main

/-! ## The arrays after the run -/

/-- The two argument arrays hold what they held. -/
theorem finalA_x (c : Dev nD) : finalA m c (0 : Fin 3) = m ((c : Thread nD τ).loc main_arg0) :=
  (dats (F := F) m 0 c).arrAt_in (0 : Fin 3) rfl _
theorem finalA_w (c : Dev nD) : finalA m c (1 : Fin 3) = m ((c : Thread nD τ).loc main_arg1) :=
  (dats (F := F) m 0 c).arrAt_in (1 : Fin 3) rfl _

/-- The result array, read through its one block, holds what the body left at the one point. -/
theorem final_read (c : Dev nD) :
    ((cfg0.win (2 : Fin 3)).blk t0_0).view.read (Elt F) ((dats (F := F) m 0 c).arrAt (2 : Fin 3) cfg0.N)
      = (dats (F := F) m 0 c).flushed (2 : Fin 3) t0_0 := by
  rw [show cfg0.N = (t0_0 : Fin cfg0.N).val + 1 from rfl, (dats (F := F) m 0 c).arrAt_succ (2 : Fin 3) t0_0, flush0_2 t0_0, if_pos rfl]
  exact View.read_write_univ _ _

/-- The result array's block is the whole array: it ends as device `c`'s result block. -/
theorem finalA_out (c : Dev nD) : finalA m c (2 : Fin 3) = outAt m c := by
  have ho := final_read (F := F) m c
  have hz2 : (fun a => (win0_2.index t0_0) a * main_v1.ty.shape.size a) = fun _ => 0 := funext fun a => by fin_cases a <;> decide
  have hr2 := fun f => Memref.read_access_unit_zero (Elt F) main_v1 hz2 (fun a => by fin_cases a <;> decide) f
  rw [hr2] at ho
  unfold finalA
  rw [ho]
  rfl

/-- info: 'Cert.Kernel.A2a.finalA_out' depends on axioms: [propext, Classical.choice, Quot.sound] -/
#guard_msgs in #print axioms finalA_out

end Cert.Kernel.A2a

end
-- ==== Proof.KBodyGlue.lean ====
/-
  The body's proof obligation in the form the launch theorem asks for, from the flat statement of it: the ghost state
  a device starts from is opened into the invariants, positions, tokens and credit the flat statement lists, the
  receive buffer is cut into its slots, and what the body leaves is folded back into the pipeline's postcondition.
-/
import proofs.«900403_g7700000000000404_dist_a2a_gemm_m1024_k1024_n1024_f32_gelu_v7x_i8_1_alg».proof.Proof.KBodyStmt
import proofs.«900403_g7700000000000404_dist_a2a_gemm_m1024_k1024_n1024_f32_gelu_v7x_i8_1_alg».proof.Proof.KRegions
import proofs.«900403_g7700000000000404_dist_a2a_gemm_m1024_k1024_n1024_f32_gelu_v7x_i8_1_alg».proof.Proof.KLaunch
import proofs.«900403_g7700000000000404_dist_a2a_gemm_m1024_k1024_n1024_f32_gelu_v7x_i8_1_alg».proof.Proof.Gen.Kernel.Points

noncomputable section

namespace Cert.Kernel.A2a

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Small restatements -/

omit [FloatOps F] in
/-- A whole buffer held through its whole memref is the buffer held. -/
theorem whole_pts (c : Dev nD) (b : Ref sig .tc) (f : Buf (Elt F) ((c : Thread nD τ).loc b)) :
    (((Memref.whole b).view.loc (c : Thread nD τ)) ↦[(Memref.whole b).view.set]{fullShare} f : sProp 𝕄)
      = (((c : Thread nD τ).loc b) ↦{fullShare} f : sProp 𝕄) := by
  rw [View.set_whole]

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

omit [FloatOps F] in
/-- A staging buffer whole at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem positions_eq (c : Dev nD) : (positions c : sProp 𝕄) = iprop(atPos ER (barCell c) 0 ∅ 0
    ∗ (atPos ER (sendCell c 0) 0 ∅ 0 ∗ atPos ER (sendCell c 1) 0 ∅ 0 ∗ atPos ER (sendCell c 2) 0 ∅ 0 ∗ atPos ER (sendCell c 3) 0 ∅ 0 ∗ atPos ER (sendCell c 4) 0 ∅ 0 ∗ atPos ER (sendCell c 5) 0 ∅ 0 ∗ atPos ER (sendCell c 6) 0 ∅ 0)
    ∗ atPos ER (recvCell c 0) 0 ∅ 0 ∗ atPos ER (recvCell c 1) 0 ∅ 0 ∗ atPos ER (recvCell c 2) 0 ∅ 0 ∗ atPos ER (recvCell c 3) 0 ∅ 0 ∗ atPos ER (recvCell c 4) 0 ∅ 0 ∗ atPos ER (recvCell c 5) 0 ∅ 0 ∗ atPos ER (recvCell c 6) 0 ∅ 0) := by
  unfold positions; rw [bigSep_CK, bigSep_BJ, bigSep_fin7, bigSep_fin7]; rfl

omit [FloatOps F] in
theorem payToks_flat (c : Dev nD) : (payToks c : sProp 𝕄) = iprop((dutyTok ER (barCell (peer c 0)) 0 0 ∗ dutyTok ER (recvCell (peer c 0) 0) 0 0 ∗ dutyTok ER (sendCell c 0) 0 0)
    ∗ (dutyTok ER (barCell (peer c 1)) 0 1 ∗ dutyTok ER (recvCell (peer c 1) 1) 0 0 ∗ dutyTok ER (sendCell c 1) 0 0)
    ∗ (dutyTok ER (barCell (peer c 2)) 0 2 ∗ dutyTok ER (recvCell (peer c 2) 2) 0 0 ∗ dutyTok ER (sendCell c 2) 0 0)
    ∗ (dutyTok ER (barCell (peer c 3)) 0 3 ∗ dutyTok ER (recvCell (peer c 3) 3) 0 0 ∗ dutyTok ER (sendCell c 3) 0 0)
    ∗ (dutyTok ER (barCell (peer c 4)) 0 4 ∗ dutyTok ER (recvCell (peer c 4) 4) 0 0 ∗ dutyTok ER (sendCell c 4) 0 0)
    ∗ (dutyTok ER (barCell (peer c 5)) 0 5 ∗ dutyTok ER (recvCell (peer c 5) 5) 0 0 ∗ dutyTok ER (sendCell c 5) 0 0)
    ∗ (dutyTok ER (barCell (peer c 6)) 0 6 ∗ dutyTok ER (recvCell (peer c 6) 6) 0 0 ∗ dutyTok ER (sendCell c 6) 0 0)) := by
  unfold payToks; rw [bigSep_fin7]

omit [FloatOps F] in
theorem launchCreds_eq (c : Dev nD) : (launchCreds c : sProp 𝕄) = iprop(cred (tallyAt (barCell c) () 7)
    ∗ cred (tallyAt (recvCell c 0) () N) ∗ cred (tallyAt (recvCell c 1) () N) ∗ cred (tallyAt (recvCell c 2) () N) ∗ cred (tallyAt (recvCell c 3) () N) ∗ cred (tallyAt (recvCell c 4) () N) ∗ cred (tallyAt (recvCell c 5) () N) ∗ cred (tallyAt (recvCell c 6) () N)) := by
  unfold launchCreds; rw [bigSep_fin7]

/-! ## The obligation's two ends -/

/-- What the pipeline hands the body at the one point, -/
def bodyPre' (c : Dev nD) : sProp 𝕄 :=
  iprop(Φ₀ m c ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))

/-- and what it takes back. -/
def bodyPost' (c : Dev nD) : sProp 𝕄 :=
  iprop(Φ₁ c ∗ (dats m 0 c).owesAt () t0_0.succ ∗ stg c cc0_stg0_0 (xstg m c) ∗ stg c cc0_stg1_0 (wstg m c) ∗ stg c cc0_stg2_0 (outAt m c))

theorem post_of_flat (c : Dev nD) : postFlat m c ⊢ bodyPost' m c := by
  unfold postFlat bodyPost' Φ₁ Dat.owesAt Pipeline.owesWithin
  rw [show (dats m 0 c).owed t0_0.succ = 0 from rfl]
  iintro ⟨Hs, Hz, ⟨%W', HO⟩, Hx, Hw, Ho⟩
  isplitl [Hs Hz]
  · isplitl [Hs] <;> iassumption
  isplitl [HO]
  · iexists W'; isplitr; · ipureintro; exact fun _ _ => Or.inl trivial
    iexact HO
  isplitl [Hx]
  · iexists _; isplitr; · (ipureintro; rfl)
    iapply (Entails.of_eq (whole_pts c cc0_stg0_0 _)); iexact Hx
  isplitl [Hw]
  · iexists _; isplitr; · (ipureintro; rfl)
    iapply (Entails.of_eq (whole_pts c cc0_stg1_0 _)); iexact Hw
  iexists _; isplitr; · (ipureintro; rfl)
  iapply (Entails.of_eq (whole_pts c cc0_stg2_0 _)); iexact Ho

set_option maxRecDepth 8000 in
/-- From the pipeline's precondition, the flat statement's. -/
theorem pre_to_wp (h : SoundFlat (F := F) m) (c : Dev nD) :
    bodyPre' m c ⊢ wp frame (wpE (defs₀ (F := F)) 𝒱₀ c none) Set.univ
      (cc0_body (Memref.whole cc0_stg0_0) (Memref.isWhole_whole _) (Memref.whole cc0_stg1_0) (Memref.isWhole_whole _) (Memref.whole cc0_stg2_0) (Memref.isWhole_whole _)
        (Memref.whole cc0_scratch0) (Memref.isWhole_whole _) (Memref.whole cc0_scratch1) (Memref.isWhole_whole _) (Memref.whole cc0_scratch2) (Memref.isWhole_whole _) cc0_scratch3 cc0_scratch4)
      (fun _ => bodyPost' m c) := by
  unfold bodyPre' Φ₀ start ghost scratch
  rw [positions_eq, payToks_flat, launchCreds_eq]
  iintro ⟨⟨⟨⟨%K, #Hrec, ⟨HaB, ⟨HaS0, HaS1, HaS2, HaS3, HaS4, HaS5, HaS6⟩, HaR0, HaR1, HaR2, HaR3, HaR4, HaR5, HaR6⟩, ⟨Tb0, Tr0, Ts0⟩, ⟨Tb1, Tr1, Ts1⟩, ⟨Tb2, Tr2, Ts2⟩, ⟨Tb3, Tr3, Ts3⟩, ⟨Tb4, Tr4, Ts4⟩, ⟨Tb5, Tr5, Ts5⟩, ⟨Tb6, Tr6, Ts6⟩⟩, ⟨HcB, Hc0, Hc1, Hc2, Hc3, Hc4, Hc5, Hc6⟩, #Hlev⟩, ⟨%f0, Hs0⟩, ⟨%f1, Hs1⟩, ⟨%f2, Hs2⟩⟩,
    Ho, ⟨%d0, %g0, %hg0, Hx⟩, ⟨%d1, %g1, %hg1, Hw⟩, ⟨%d2, %g2, %hg2, Hout⟩⟩
  have hx : g0 = xstg m c := by rw [hg0]; unfold Dat.before; rw [if_pos (fetch0_0 t0_0)]; rfl
  have hw : g1 = wstg m c := by rw [hg1]; unfold Dat.before; rw [if_pos (fetch0_1 t0_0)]; rfl
  subst hx hw
  unfold Dat.owesAt Pipeline.owesWithin
  icases Ho with ⟨%W, %hW, HO⟩
  rw [show (dats m 0 c).owed t0_0.castSucc = O₀ c from rfl]
  ihave Hsl := (comm_split (F := F) c f1).1 $$ Hs1
  icases Hsl with ⟨P0, P1, P2, P3, P4, P5, P6⟩
  iapply (wp_mono _ _ _ (fun _ => post_of_flat m c))
  iapply (h K c W g2 f0 f1 f2)
  simp only [parkSlot_def]
  isplitr; · iapply (inv_at m K (c, none)); iexact Hrec
  isplitr; · iapply (inv_at m K (c, some (false, 0))); iexact Hrec
  isplitr; · iapply (inv_at m K (c, some (false, 1))); iexact Hrec
  isplitr; · iapply (inv_at m K (c, some (false, 2))); iexact Hrec
  isplitr; · iapply (inv_at m K (c, some (false, 3))); iexact Hrec
  isplitr; · iapply (inv_at m K (c, some (false, 4))); iexact Hrec
  isplitr; · iapply (inv_at m K (c, some (false, 5))); iexact Hrec
  isplitr; · iapply (inv_at m K (c, some (false, 6))); iexact Hrec
  isplitr; · iapply (inv_at m K (c, some (true, 0))); iexact Hrec
  isplitr; · iapply (inv_at m K (c, some (true, 1))); iexact Hrec
  isplitr; · iapply (inv_at m K (c, some (true, 2))); iexact Hrec
  isplitr; · iapply (inv_at m K (c, some (true, 3))); iexact Hrec
  isplitr; · iapply (inv_at m K (c, some (true, 4))); iexact Hrec
  isplitr; · iapply (inv_at m K (c, some (true, 5))); iexact Hrec
  isplitr; · iapply (inv_at m K (c, some (true, 6))); iexact Hrec
  isplitr; · iapply (inv_at m K (peer c 0, none)); iexact Hrec
  isplitr; · iapply (inv_at m K (peer c 1, none)); iexact Hrec
  isplitr; · iapply (inv_at m K (peer c 2, none)); iexact Hrec
  isplitr; · iapply (inv_at m K (peer c 3, none)); iexact Hrec
  isplitr; · iapply (inv_at m K (peer c 4, none)); iexact Hrec
  isplitr; · iapply (inv_at m K (peer c 5, none)); iexact Hrec
  isplitr; · iapply (inv_at m K (peer c 6, none)); iexact Hrec
  isplitr; · iapply (inv_at m K (peer c 0, some (true, 0))); iexact Hrec
  isplitr; · iapply (inv_at m K (peer c 1, some (true, 1))); iexact Hrec
  isplitr; · iapply (inv_at m K (peer c 2, some (true, 2))); iexact Hrec
  isplitr; · iapply (inv_at m K (peer c 3, some (true, 3))); iexact Hrec
  isplitr; · iapply (inv_at m K (peer c 4, some (true, 4))); iexact Hrec
  isplitr; · iapply (inv_at m K (peer c 5, some (true, 5))); iexact Hrec
  isplitr; · iapply (inv_at m K (peer c 6, some (true, 6))); iexact Hrec
  isplitr; · iapply (reached_at m K (peer c 0, none)); iexact Hrec
  isplitr; · iapply (reached_at m K (peer c 1, none)); iexact Hrec
  isplitr; · iapply (reached_at m K (peer c 2, none)); iexact Hrec
  isplitr; · iapply (reached_at m K (peer c 3, none)); iexact Hrec
  isplitr; · iapply (reached_at m K (peer c 4, none)); iexact Hrec
  isplitr; · iapply (reached_at m K (peer c 5, none)); iexact Hrec
  isplitr; · iapply (reached_at m K (peer c 6, none)); iexact Hrec
  isplitr; · iapply (reached_at m K (peer c 0, some (true, 0))); iexact Hrec
  isplitr; · iapply (reached_at m K (peer c 1, some (true, 1))); iexact Hrec
  isplitr; · iapply (reached_at m K (peer c 2, some (true, 2))); iexact Hrec
  isplitr; · iapply (reached_at m K (peer c 3, some (true, 3))); iexact Hrec
  isplitr; · iapply (reached_at m K (peer c 4, some (true, 4))); iexact Hrec
  isplitr; · iapply (reached_at m K (peer c 5, some (true, 5))); iexact Hrec
  isplitr; · iapply (reached_at m K (peer c 6, some (true, 6))); iexact Hrec
  isplitr; · iapply (reached_at m K (c, some (false, 0))); iexact Hrec
  isplitr; · iapply (reached_at m K (c, some (false, 1))); iexact Hrec
  isplitr; · iapply (reached_at m K (c, some (false, 2))); iexact Hrec
  isplitr; · iapply (reached_at m K (c, some (false, 3))); iexact Hrec
  isplitr; · iapply (reached_at m K (c, some (false, 4))); iexact Hrec
  isplitr; · iapply (reached_at m K (c, some (false, 5))); iexact Hrec
  isplitr; · iapply (reached_at m K (c, some (false, 6))); iexact Hrec
  isplitr; · iexact Hlev
  isplitl [HaB]; · iexact HaB
  isplitl [HaS0]; · iexact HaS0
  isplitl [HaS1]; · iexact HaS1
  isplitl [HaS2]; · iexact HaS2
  isplitl [HaS3]; · iexact HaS3
  isplitl [HaS4]; · iexact HaS4
  isplitl [HaS5]; · iexact HaS5
  isplitl [HaS6]; · iexact HaS6
  isplitl [HaR0]; · iexact HaR0
  isplitl [HaR1]; · iexact HaR1
  isplitl [HaR2]; · iexact HaR2
  isplitl [HaR3]; · iexact HaR3
  isplitl [HaR4]; · iexact HaR4
  isplitl [HaR5]; · iexact HaR5
  isplitl [HaR6]; · iexact HaR6
  isplitl [Tb0]; · iexact Tb0
  isplitl [Tb1]; · iexact Tb1
  isplitl [Tb2]; · iexact Tb2
  isplitl [Tb3]; · iexact Tb3
  isplitl [Tb4]; · iexact Tb4
  isplitl [Tb5]; · iexact Tb5
  isplitl [Tb6]; · iexact Tb6
  isplitl [Tr0]; · iexact Tr0
  isplitl [Tr1]; · iexact Tr1
  isplitl [Tr2]; · iexact Tr2
  isplitl [Tr3]; · iexact Tr3
  isplitl [Tr4]; · iexact Tr4
  isplitl [Tr5]; · iexact Tr5
  isplitl [Tr6]; · iexact Tr6
  isplitl [Ts0]; · iexact Ts0
  isplitl [Ts1]; · iexact Ts1
  isplitl [Ts2]; · iexact Ts2
  isplitl [Ts3]; · iexact Ts3
  isplitl [Ts4]; · iexact Ts4
  isplitl [Ts5]; · iexact Ts5
  isplitl [Ts6]; · iexact Ts6
  isplitl [HcB]; · iexact HcB
  isplitl [Hc0]; · iexact Hc0
  isplitl [Hc1]; · iexact Hc1
  isplitl [Hc2]; · iexact Hc2
  isplitl [Hc3]; · iexact Hc3
  isplitl [Hc4]; · iexact Hc4
  isplitl [Hc5]; · iexact Hc5
  isplitl [Hc6]; · iexact Hc6
  isplitl [HO]; · iexact HO
  isplitl [Hx]; · iapply (Entails.of_eq (whole_pts c cc0_stg0_0 _).symm); iexact Hx
  isplitl [Hw]; · iapply (Entails.of_eq (whole_pts c cc0_stg1_0 _).symm); iexact Hw
  isplitl [Hout]; · iapply (Entails.of_eq (whole_pts c cc0_stg2_0 _).symm); iexact Hout
  isplitl [Hs0]; · iapply (Entails.of_eq (whole_pts c cc0_scratch0 _).symm); iexact Hs0
  isplitl [P0]; · iexact P0
  isplitl [P1]; · iexact P1
  isplitl [P2]; · iexact P2
  isplitl [P3]; · iexact P3
  isplitl [P4]; · iexact P4
  isplitl [P5]; · iexact P5
  isplitl [P6]; · iexact P6
  iapply (Entails.of_eq (whole_pts c cc0_scratch2 _).symm); iexact Hs2

set_option maxRecDepth 8000 in
/-- The library's body obligation on device `c`, from the flat statement. -/
theorem body_obligation_of (h : SoundFlat (F := F) m) (c : Dev nD) : BodyObligation (dats (F := F) m 0 c) (defs₀ (F := F)) 𝒱₀ () Set.univ := fun t => by
  rw [fin_N0 t]
  rw [bigSep_W0, bigSep_W0]
  simp only [owns_whole_eq]
  exact pre_to_wp m h c

/-- info: 'Cert.Kernel.A2a.body_obligation_of' depends on axioms: [propext, Classical.choice, Quot.sound] -/
#guard_msgs in #print axioms body_obligation_of

end Cert.Kernel.A2a

end
-- ==== Proof.Moves.lean ====
/-
  Where the data sits: each block the body loads, read at an index, and what an exchange leaves in the
  addressee's receive buffer.

  A load through a unit-stride rectangle reads the buffer at the rectangle's offsets plus the load's own index; the
  offsets are the multiples of 128 that the ring position fixes. An exchange copies 128 rows of the sender's converted
  block into one slot of the addressee's receive buffer; element by element that slot then holds what the receive
  buffer's final contents name.
-/
import proofs.«900403_g7700000000000404_dist_a2a_gemm_m1024_k1024_n1024_f32_gelu_v7x_i8_1_alg».proof.Proof.Views
import Idealize.ShloMosaic.Lib.Pipeline.Value

noncomputable section

namespace Cert.KernelIdeal.A2a

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## A load through a unit-stride rectangle of a rank-two or rank-three view, at an index -/

section ReadAtUnit

variable {sig' : RefSig} {κ : Kind} {sp : Space} {e : EltTy} {Val : EltTy → Type}

/-- Rank two: entry `(x₀, x₁)` of the load is the view's entry `(off₀ + x₀, off₁ + x₁)`. -/
theorem readAt_unit2 {n0 n1 : Nat} (v : View sig' κ sp ⟨2, ![n0, n1]⟩ e) (f : v.ty.Contents Val) (off size : Fin 2 → Nat)
    (inb : ∀ a, off a + size a ≤ (⟨2, ![n0, n1]⟩ : Shape).size a) (x : (⟨2, size⟩ : Shape).Idx) :
    v.readAt Val (Rect.unit (s := ⟨2, ![n0, n1]⟩) off size inb).toLoadRect f x
      = v.read Val f (ix2 ⟨off 0 + (x 0).val, by have h : off 0 + size 0 ≤ n0 := inb 0; have h2 : (x 0).val < size 0 := (x 0).isLt; omega⟩
          ⟨off 1 + (x 1).val, by have h : off 1 + size 1 ≤ n1 := inb 1; have h2 : (x 1).val < size 1 := (x 1).isLt; omega⟩) := by
  rw [View.readAt_apply]
  congr 1
  funext a
  apply Fin.ext
  match a with
  | ⟨0, _⟩ => show off 0 + 1 * (x 0).val = off 0 + (x 0).val; rw [Nat.one_mul]
  | ⟨1, _⟩ => show off 1 + 1 * (x 1).val = off 1 + (x 1).val; rw [Nat.one_mul]

/-- Rank three. -/
theorem readAt_unit3 {n0 n1 n2 : Nat} (v : View sig' κ sp ⟨3, ![n0, n1, n2]⟩ e) (f : v.ty.Contents Val) (off size : Fin 3 → Nat)
    (inb : ∀ a, off a + size a ≤ (⟨3, ![n0, n1, n2]⟩ : Shape).size a) (x : (⟨3, size⟩ : Shape).Idx) :
    v.readAt Val (Rect.unit (s := ⟨3, ![n0, n1, n2]⟩) off size inb).toLoadRect f x
      = v.read Val f (ix3 ⟨off 0 + (x 0).val, by have h : off 0 + size 0 ≤ n0 := inb 0; have h2 : (x 0).val < size 0 := (x 0).isLt; omega⟩
          ⟨off 1 + (x 1).val, by have h : off 1 + size 1 ≤ n1 := inb 1; have h2 : (x 1).val < size 1 := (x 1).isLt; omega⟩
          ⟨off 2 + (x 2).val, by have h : off 2 + size 2 ≤ n2 := inb 2; have h2 : (x 2).val < size 2 := (x 2).isLt; omega⟩) := by
  rw [View.readAt_apply]
  congr 1
  funext a
  apply Fin.ext
  match a with
  | ⟨0, _⟩ => show off 0 + 1 * (x 0).val = off 0 + (x 0).val; rw [Nat.one_mul]
  | ⟨1, _⟩ => show off 1 + 1 * (x 1).val = off 1 + (x 1).val; rw [Nat.one_mul]
  | ⟨2, _⟩ => show off 2 + 1 * (x 2).val = off 2 + (x 2).val; rw [Nat.one_mul]

end ReadAtUnit

variable {F : FTy → Type} [FloatOps F]
variable (m : (ℓ : Loc nD τ sig) → Buf (Elt F) ℓ)

/-! ## The loads read at an index -/

/-- Device `c`'s own rows of its converted block: entry `(r, k)` is the block's entry `(128 c + r, k)`. -/
theorem ldOwn_apply (c : Dev nD) (r k : Fin 128) :
    ldOwn m c (ix2 r k) = stageV m c (ix2 ⟨128 * c.val + r.val, by have h1 : c.val < 8 := c.isLt; have := r.isLt; omega⟩ k) := by
  unfold ldOwn
  generalize stageV m c = f
  refine (readAt_unit2 (Val := Elt F) (stM : Memref sig .tc .vmem S1024x128 .bf16).view f _ _ _ _).trans ?_
  show f _ = f _
  congr 1
  funext a
  apply Fin.ext
  match a with
  | ⟨0, _⟩ => show k0_off1 c 0 + r.val = 128 * c.val + r.val; rw [k0_off1_eq]; rfl
  | ⟨1, _⟩ => show k0_off1 c 1 + k.val = k.val; rw [k0_off1_eq]; exact Nat.zero_add _

/-- The rows of the converted `w` that go with device `c`'s own block. -/
theorem ldWb0_apply (c : Dev nD) (k : Fin 128) (j : Fin 1024) :
    ldWb0 m c (ix2 k j) = wbV m c (ix2 ⟨128 * c.val + k.val, by have h1 : c.val < 8 := c.isLt; have := k.isLt; omega⟩ j) := by
  unfold ldWb0
  generalize wbV m c = f
  refine (readAt_unit2 (Val := Elt F) (wbM : Memref sig .tc .vmem S1024x1024 .bf16).view f _ _ _ _).trans ?_
  show f _ = f _
  congr 1
  funext a
  apply Fin.ext
  match a with
  | ⟨0, _⟩ => show k0_off2 c 0 + k.val = 128 * c.val + k.val; rw [k0_off2_eq]; rfl
  | ⟨1, _⟩ => show k0_off2 c 1 + j.val = j.val; rw [k0_off2_eq]; exact Nat.zero_add _

/-- Slot `j` of the receive buffer, loaded as a [1, 128, 128] block, at `(0, r, k)`. -/
theorem ldSlot_apply (c : Dev nD) (j : Fin 7) (r k : Fin 128) :
    ldSlot m c j (ix3 0 r k) = commV m c (ix3 j r k) := by
  unfold ldSlot
  generalize commV m c = f
  refine (readAt_unit3 (Val := Elt F) (cmM : Memref sig .tc .vmem S7x128x128 .bf16).view f _ _ _ _).trans ?_
  show f _ = f _
  congr 1
  funext a
  apply Fin.ext
  match a with
  | ⟨0, _⟩ => exact Nat.add_zero _
  | ⟨1, _⟩ => exact Nat.zero_add _
  | ⟨2, _⟩ => exact Nat.zero_add _

/-- What slot `j` holds once the exchange has landed: the rows of device `c`'s row block in the converted block of
    the device `j + 1` places before `c`. -/
theorem commV_apply (c : Dev nD) (j : Fin 7) (r k : Fin 128) :
    commV m c (ix3 j r k) = stageV m (orig c j) (ix2 ⟨128 * c.val + r.val, by have h1 : c.val < 8 := c.isLt; have := r.isLt; omega⟩ k) := rfl

/-- The rows of the converted `w` that go with slot `j`: those of the device the slot's contents came from. -/
theorem ldWb_apply (c : Dev nD) (j : Fin 7) (k : Fin 128) (j' : Fin 1024) :
    ldWb m c j (ix2 k j') = wbV m c (ix2 ⟨128 * ((c.val + 7 - j.val) % 8) + k.val, by have := Nat.mod_lt (c.val + 7 - j.val) (show 0 < 8 by decide); have := k.isLt; omega⟩ j') := by
  unfold ldWb
  generalize wbV m c = f
  refine (readAt_unit2 (Val := Elt F) (wbM : Memref sig .tc .vmem S1024x1024 .bf16).view f _ _ _ _).trans ?_
  show f _ = f _
  congr 1
  funext a
  apply Fin.ext
  match a with
  | ⟨0, _⟩ => show k0_off4 c (BitVec.ofNat 32 (1 + j.val)) 0 + k.val = 128 * ((c.val + 7 - j.val) % 8) + k.val; rw [k0_off4_eq]; rfl
  | ⟨1, _⟩ => show k0_off4 c (BitVec.ofNat 32 (1 + j.val)) 1 + j'.val = j'.val; rw [k0_off4_eq]; exact Nat.zero_add _

/-! ## What an exchange leaves in the addressee's slot -/

/-- Dropping the leading unit axis: entry `(y₀, y₁)` of a [128, 128] array is entry `(0, y₀, y₁)` of the [1, 128, 128] one. -/
theorem reshape_slot (h : S128x128.numel = S1x128x128.numel) (y : S128x128.Idx) :
    Shape.reshapeEquiv h y = (Fin.cons ⟨0, Nat.one_pos⟩ y : S1x128x128.Idx) :=
  shapeCast_dropUnit_apply (α := S1x128x128.Idx) ![128, 128] (fun x => x) h y

/-- Exchange `j`'s source rows, read at `(y₀, y₁)`: row `128 (peer s j) + y₀` of the sender's stage buffer. -/
theorem srcM_read_apply (s : Dev nD) (j : Fin 7) (f : (cc0_scratch0 : Ref sig .tc).ty.Contents (Elt F)) (y : S128x128.Idx) :
    (srcM s j).view.read (Elt F) f y
      = f (ix2 ⟨128 * (peer s j).val + (y 0).val, by have h1 : (peer s j).val < 8 := (peer s j).isLt; have h2 : (y 0).val < 128 := (y 0).isLt; omega⟩ (y 1)) := by
  show f ((Rect.unit (s := S1024x128) (k0_off3 s (BitVec.ofNat 32 (1 + j.val))) S128x128.size (k0_off3_inb s j)).emb y) = f _
  congr 1
  funext a
  apply Fin.ext
  match a with
  | ⟨0, _⟩ =>
    show k0_off3 s (BitVec.ofNat 32 (1 + j.val)) 0 + 1 * (y 0).val = 128 * ((s.val + j.val + 1) % 8) + (y 0).val
    rw [k0_off3_eq, Nat.one_mul]; rfl
  | ⟨1, _⟩ =>
    show k0_off3 s (BitVec.ofNat 32 (1 + j.val)) 1 + 1 * (y 1).val = (y 1).val
    rw [k0_off3_eq, Nat.one_mul]; exact Nat.zero_add _

/-- Where entry `(y₀, y₁)` of slot `j` sits in the receive buffer. -/
theorem dstM_emb (j : Fin 7) (y : S128x128.Idx) :
    (dstM j).view.emb y = (ix3 j (y 0) (y 1) : S7x128x128.Idx) := by
  show (Rect.unit (s := S7x128x128) ![j.val, 0, 0] S1x128x128.size (inb_slot j)).emb
      (Shape.reshapeEquiv squeezes_S1x128x128_S128x128.numel_eq y) = _
  rw [reshape_slot]
  funext a
  apply Fin.ext
  match a with
  | ⟨0, _⟩ => rfl
  | ⟨1, _⟩ => show 0 + 1 * (y 0).val = (y 0).val; omega
  | ⟨2, _⟩ => show 0 + 1 * (y 1).val = (y 1).val; omega

/-- THE LANDING: after sender `s`'s exchange `j` has written its source rows over slot `j` of the addressee's receive
    buffer, whatever the buffer held, the slot holds what the receive buffer's final contents name there. -/
theorem landed_at (s : Dev nD) (j : Fin 7) (fd : Buf (Elt F) ((dstM j).view.loc (peer s j : Thread nD τ))) :
    ∀ i ∈ (dstM j).view.set,
      (dstM j).view.write (Elt F) fd ((srcM s j).view.read (Elt F) (stageV m s)) Finset.univ i = commV m (peer s j) i := by
  intro i hi
  obtain ⟨y, rfl⟩ := View.exists_emb_of_mem_set _ hi
  rw [View.write_emb_of_mem _ _ (Finset.mem_univ y), srcM_read_apply, dstM_emb]
  refine Eq.trans ?_ (commV_apply m (peer s j) j (y 0) (y 1)).symm
  rw [orig_peer]
  rfl

/-- The same as an equality of the two assertions that hold slot `j` of the addressee's receive buffer. -/
theorem slotPts_landed (s : Dev nD) (j : Fin 7) (fd : Buf (Elt F) ((dstM j).view.loc (peer s j : Thread nD τ))) :
    slotPts (peer s j) j ((dstM j).view.write (Elt F) fd ((srcM s j).view.read (Elt F) (stageV m s)) Finset.univ)
      = slotPts (peer s j) j (commV m (peer s j)) := by
  unfold slotPts
  exact Region.is_congr (landed_at m s j fd)

/-! ## The windows are the whole arrays -/

/-- Device `c`'s staged block of `x` is its argument array. -/
theorem xstg_apply (c : Dev nD) (i : S1024x128.Idx) :
    xstg m c i = m ((c : Thread nD τ).loc main_arg0) i := by
  unfold xstg
  generalize m ((c : Thread nD τ).loc main_arg0) = f
  show f ((win0_0.rect (0 : Fin 1)).emb i) = f i
  congr 1
  funext a
  apply Fin.ext
  rw [Window.rect_emb_val_of_index_zero win0_0 (0 : Fin 1) a rfl i]

/-- Device `c`'s staged copy of `w` is its argument array. -/
theorem wstg_apply (c : Dev nD) (i : S1024x1024.Idx) :
    wstg m c i = m ((c : Thread nD τ).loc main_arg1) i := by
  unfold wstg
  generalize m ((c : Thread nD τ).loc main_arg1) = f
  show f ((win0_1.rect (0 : Fin 1)).emb i) = f i
  congr 1
  funext a
  apply Fin.ext
  rw [Window.rect_emb_val_of_index_zero win0_1 (0 : Fin 1) a rfl i]

end Cert.KernelIdeal.A2a

end
-- ==== Proof.Written.lean ====
/-
  What the two converted buffers hold after the body's first two stores: a store through the whole array, over
  whatever was there, leaves the stored vector, and the stored vector is the conversion of what a load through the
  whole staged array reads, which is the staged array.
-/
import proofs.«900403_g7700000000000404_dist_a2a_gemm_m1024_k1024_n1024_f32_gelu_v7x_i8_1_alg».proof.Proof.Views
import Idealize.ShloMosaic.Lib.Writes

noncomputable section

namespace Cert.KernelIdeal.A2a

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- The offsets `![0, 0]` are the zero offsets. -/
theorem zeros2 : (![0, 0] : Fin 2 → Nat) = fun _ => 0 := funext fun a => by fin_cases a <;> rfl

/-- After the first store the stage buffer holds the conversion of the staged block of `x`. -/
theorem stage_written (c : Dev nD) :
    (stM : Memref sig .tc .vmem S1024x128 .bf16).view.writes (Elt F) (stM : Memref sig .tc .vmem S1024x128 .bf16).view.junk
      [⟨Rect.unit (s := S1024x128) ![0, 0] S1024x128.size inb_S1024x128_S1024x128_0_0,
        k0_pay1 (View.readAt (Elt F) (xM : Memref sig .tc .vmem S1024x128 .f32).view
          (Rect.unit (s := S1024x128) ![0, 0] S1024x128.size inb_S1024x128_S1024x128_0_0).toLoadRect (xstg m c))⟩] = stageV m c := by
  rw [View.writes_singleton]
  have hr : View.readAt (Elt F) (xM : Memref sig .tc .vmem S1024x128 .f32).view
      (Rect.unit (s := S1024x128) ![0, 0] S1024x128.size inb_S1024x128_S1024x128_0_0).toLoadRect (xstg m c) = xstg m c :=
    Memref.readAt_unit_zero (Elt F) cc0_stg0_0 zeros2 _ _
  rw [hr]
  exact Memref.write_access_unit_zero_univ (Elt F) cc0_scratch0 zeros2 _ _ _

/-- After the second store the converted-`w` buffer holds the conversion of the staged `w`. -/
theorem wb_written (c : Dev nD) :
    (wbM : Memref sig .tc .vmem S1024x1024 .bf16).view.writes (Elt F) (wbM : Memref sig .tc .vmem S1024x1024 .bf16).view.junk
      [⟨Rect.unit (s := S1024x1024) ![0, 0] S1024x1024.size inb_S1024x1024_S1024x1024_0_0,
        k0_pay2 (View.readAt (Elt F) (wM : Memref sig .tc .vmem S1024x1024 .f32).view
          (Rect.unit (s := S1024x1024) ![0, 0] S1024x1024.size inb_S1024x1024_S1024x1024_0_0).toLoadRect (wstg m c))⟩] = wbV m c := by
  rw [View.writes_singleton]
  have hr : View.readAt (Elt F) (wM : Memref sig .tc .vmem S1024x1024 .f32).view
      (Rect.unit (s := S1024x1024) ![0, 0] S1024x1024.size inb_S1024x1024_S1024x1024_0_0).toLoadRect (wstg m c) = wstg m c :=
    Memref.readAt_unit_zero (Elt F) cc0_stg1_0 zeros2 _ _
  rw [hr]
  exact Memref.write_access_unit_zero_univ (Elt F) cc0_scratch2 zeros2 _ _ _

end Cert.KernelIdeal.A2a

end
-- ==== Proof.BodyLemmas.lean ====
/-
  Lemmas about the body's steps: the schedule's tables with each payload written as the buffer assertion it is, the
  barrier round's seven payloads one by one, one copy's step at the exchange's cells, and the end of the body: the
  buffers whole again and the semaphores closed.
-/
import proofs.«900403_g7700000000000404_dist_a2a_gemm_m1024_k1024_n1024_f32_gelu_v7x_i8_1_alg».proof.Proof.BodyStmt
import proofs.«900403_g7700000000000404_dist_a2a_gemm_m1024_k1024_n1024_f32_gelu_v7x_i8_1_alg».proof.Proof.Regions
import proofs.«900403_g7700000000000404_dist_a2a_gemm_m1024_k1024_n1024_f32_gelu_v7x_i8_1_alg».proof.Proof.Moves
import proofs.«900403_g7700000000000404_dist_a2a_gemm_m1024_k1024_n1024_f32_gelu_v7x_i8_1_alg».proof.Proof.Launch
import proofs.«900403_g7700000000000404_dist_a2a_gemm_m1024_k1024_n1024_f32_gelu_v7x_i8_1_alg».proof.Proof.BodyGlue
import proofs.«900403_g7700000000000404_dist_a2a_gemm_m1024_k1024_n1024_f32_gelu_v7x_i8_1_alg».proof.Proof.Written

noncomputable section

namespace Cert.KernelIdeal.A2a

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The tables, each payload written as the buffer assertion it is -/

theorem payload_bar_peer (c : Dev nD) (j : Fin 7) : (a2aRd (F := F) m).payload (barCell (peer c j)) 0 j
    = iprop(∃ f, (dstM (rev j)).view.loc (c : Thread nD τ) ↦[(dstM (rev j)).view.set]{fullShare} f) := by
  rw [payload_bar]; unfold barPay slotPts; rw [orig_peer]; rfl
theorem payload_bar_peer0 (c : Dev nD) : (a2aRd (F := F) m).payload (barCell (peer c 0)) 0 0
    = iprop(∃ f, (dstM 6).view.loc (c : Thread nD τ) ↦[(dstM 6).view.set]{fullShare} f) := payload_bar_peer m c 0
theorem payload_bar_peer1 (c : Dev nD) : (a2aRd (F := F) m).payload (barCell (peer c 1)) 0 1
    = iprop(∃ f, (dstM 5).view.loc (c : Thread nD τ) ↦[(dstM 5).view.set]{fullShare} f) := payload_bar_peer m c 1
theorem payload_bar_peer2 (c : Dev nD) : (a2aRd (F := F) m).payload (barCell (peer c 2)) 0 2
    = iprop(∃ f, (dstM 4).view.loc (c : Thread nD τ) ↦[(dstM 4).view.set]{fullShare} f) := payload_bar_peer m c 2
theorem payload_bar_peer3 (c : Dev nD) : (a2aRd (F := F) m).payload (barCell (peer c 3)) 0 3
    = iprop(∃ f, (dstM 3).view.loc (c : Thread nD τ) ↦[(dstM 3).view.set]{fullShare} f) := payload_bar_peer m c 3
theorem payload_bar_peer4 (c : Dev nD) : (a2aRd (F := F) m).payload (barCell (peer c 4)) 0 4
    = iprop(∃ f, (dstM 2).view.loc (c : Thread nD τ) ↦[(dstM 2).view.set]{fullShare} f) := payload_bar_peer m c 4
theorem payload_bar_peer5 (c : Dev nD) : (a2aRd (F := F) m).payload (barCell (peer c 5)) 0 5
    = iprop(∃ f, (dstM 1).view.loc (c : Thread nD τ) ↦[(dstM 1).view.set]{fullShare} f) := payload_bar_peer m c 5
theorem payload_bar_peer6 (c : Dev nD) : (a2aRd (F := F) m).payload (barCell (peer c 6)) 0 6
    = iprop(∃ f, (dstM 0).view.loc (c : Thread nD τ) ↦[(dstM 0).view.set]{fullShare} f) := payload_bar_peer m c 6
theorem payload_send_pts (c : Dev nD) (j d : Fin 7) : (a2aRd (F := F) m).payload (sendCell c j) 0 d
    = ((srcM c j).view.loc (c : Thread nD τ) ↦[(srcM c j).view.set]{fullShare} stageV m c : sProp 𝕄) := by rw [payload_send]; rfl
theorem payload_recv_own (c : Dev nD) (j d : Fin 7) : (a2aRd (F := F) m).payload (recvCell c j) 0 d
    = ((dstM j).view.loc (c : Thread nD τ) ↦[(dstM j).view.set]{fullShare} commV m c : sProp 𝕄) := by rw [payload_recv]; rfl

/-! ## The barrier round's payloads: the seven slots this device's copies write -/

theorem barPay_rev (c : Dev nD) (j : Fin 7) : barPay (F := F) c (rev j) = iprop(∃ f, slotPts (peer c j) j f) := by
  unfold barPay; rw [orig_rev, rev_rev]

theorem rest_bar (c : Dev nD) : bigSep Finset.univ (fun d : Fin 7 => (a2aRd (F := F) m).payload (barCell c) 0 d)
    = iprop((∃ f, slotPts (peer c 6) 6 f) ∗ (∃ f, slotPts (peer c 5) 5 f) ∗ (∃ f, slotPts (peer c 4) 4 f) ∗ (∃ f, slotPts (peer c 3) 3 f)
        ∗ (∃ f, slotPts (peer c 2) 2 f) ∗ (∃ f, slotPts (peer c 1) 1 f) ∗ (∃ f, slotPts (peer c 0) 0 f)) := by
  rw [bigSep_fin7]
  simp only [payload_bar]
  rw [← barPay_rev c 6, ← barPay_rev c 5, ← barPay_rev c 4, ← barPay_rev c 3, ← barPay_rev c 2, ← barPay_rev c 1, ← barPay_rev c 0]
  rfl

/-! ## One copy -/

theorem amount_dst (j : Fin 7) : (dstM j : Memref sig .tc .vmem S128x128 .bf16).view.amount (.dma (recvSem j)) = N := by
  fin_cases j <;> rfl

/-- Copy `j` of device `c`, addressed to `n = peer c j`: it lends the source rows to the send cell, pays the addressee's
    receive cell with the slot rewritten, and leaves the credit to wait for the departure. -/
theorem wp_send_a2a (K : Dev nD × CK → ℕ) (c n : Dev nD) (j : Fin 7) (hn : n = peer c j)
    {hsc : (dstM j : Memref sig (Dev.tc n : Thread nD τ).2.kind .vmem S128x128 .bf16).view.ref.isScScratch = false}
    {hsrc : (srcM c j : Memref sig .tc .vmem S128x128 .bf16).view.WordExact} {hdst : (dstM j : Memref sig .tc .vmem S128x128 .bf16).view.WordExact}
    {hsem : DmaTarget.Typed .vmem (.dma (recvSem j)) (.remote (Dev.tc n : Thread nD τ) (dstM j : Memref sig .tc .vmem S128x128 .bf16) (.dma (sendSem j)) hsc)}
    {α : Type} {Q : α → sProp 𝕄} {k : PUnit → Prog (TpuEff nD τ sig (Elt F) Λ₀ .tc) α}
    (fd : Buf (Elt F) ((dstM j : Memref sig .tc .vmem S128x128 .bf16).view.loc (peer c j : Thread nD τ)))
    (O₁ O : CellTallies nD τ sig Unit) (hO : O₁ = O + tallyAt (recvCell (peer c j) j) () N) (W : Waits sig Unit) :
    iprop(cellInv ER (a2aRd m) (K (c, some (false, j))) (sendCell c j) ∗ cellInv ER (a2aRd m) (K (peer c j, some (true, j))) (recvCell (peer c j) j)
        ∗ srcPts c j (stageV m c) ∗ slotPts (peer c j) j fd
        ∗ owes (c : Thread nD τ) O₁ W
        ∗ dutyTok ER (sendCell c j) 0 0 ∗ reached ER (sendCell c j) 0
        ∗ dutyTok ER (recvCell (peer c j) j) 0 0 ∗ reached ER (recvCell (peer c j) j) 0)
      ⊢ iprop(((cred (tallyAt (sendCell c j) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (srcM c j) (.remote (Dev.tc n : Thread nD τ) (dstM j) (.dma (sendSem j)) hsc) (.dma (recvSem j)) hsrc hdst hsem) k) Q) := by
  subst hn
  unfold srcPts slotPts
  exact Rounds.wp_send_pointsTo 𝒱₀ ER (a2aRd m) (c : Thread nD τ) none (κ₁ := K (c, some (false, j))) (κ₂ := K (peer c j, some (true, j)))
    (r₁ := 0) (r₂ := 0) (d₁ := 0) (d₂ := 0) (fd := fd)
    (by rw [duties_send]; exact Finset.mem_singleton_self _) (by rw [duties_recv]; exact Finset.mem_singleton_self _)
    () () N (amount_dst j) (amount_send m c j 0) (amount_recv m (peer c j) j 0) O hO (W := W)
    (by rw [payload_send]; exact BI.Entails.refl _)
    (by rw [payload_recv]; exact Entails.of_eq (slotPts_landed m c j fd))

/-! ## Pieces of the buffers under opaque names -/

/-- Source rows of the stage buffer, its own row block, and a receive slot, each under an opaque name. -/
@[irreducible] def parkSrc (c : Dev nD) (j : Fin 7) (f : Buf (Elt F) ((c : Thread nD τ).loc cc0_scratch0)) : sProp 𝕄 := srcPts c j f
theorem parkSrc_def (c : Dev nD) (j : Fin 7) (f : Buf (Elt F) ((c : Thread nD τ).loc cc0_scratch0)) : parkSrc c j f = srcPts c j f := by unfold parkSrc; rfl
@[irreducible] def parkRest (c : Dev nD) (f : Buf (Elt F) ((c : Thread nD τ).loc cc0_scratch0)) : sProp 𝕄 := stageRest c f
theorem parkRest_def (c : Dev nD) (f : Buf (Elt F) ((c : Thread nD τ).loc cc0_scratch0)) : parkRest c f = stageRest c f := by unfold parkRest; rfl
@[irreducible] def parkDst (c : Dev nD) (j : Fin 7) (f : Buf (Elt F) ((c : Thread nD τ).loc cc0_scratch1)) : sProp 𝕄 := slotPts c j f
theorem parkDst_def (c : Dev nD) (j : Fin 7) (f : Buf (Elt F) ((c : Thread nD τ).loc cc0_scratch1)) : parkDst c j f = slotPts c j f := by unfold parkDst; rfl

/-- The stage buffer, whole, as its seven source pieces and its own row block, each under its opaque name; and back. -/
theorem stage_split_park (c : Dev nD) (f : Buf (Elt F) ((c : Thread nD τ).loc cc0_scratch0)) :
    ((stM : Memref sig .tc .vmem S1024x128 .bf16).view.loc (c : Thread nD τ) ↦[(stM : Memref sig .tc .vmem S1024x128 .bf16).view.set]{fullShare} f : sProp 𝕄)
      ⊢ iprop(parkSrc c 0 f ∗ parkSrc c 1 f ∗ parkSrc c 2 f ∗ parkSrc c 3 f ∗ parkSrc c 4 f ∗ parkSrc c 5 f ∗ parkSrc c 6 f ∗ parkRest c f) := by
  simp only [parkSrc_def, parkRest_def]
  rw [show ((stM : Memref sig .tc .vmem S1024x128 .bf16).view.loc (c : Thread nD τ) ↦[(stM : Memref sig .tc .vmem S1024x128 .bf16).view.set]{fullShare} f : sProp 𝕄)
      = (((c : Thread nD τ).loc cc0_scratch0) ↦{fullShare} f) from by rw [View.set_whole]]
  exact (stage_split c f).1
theorem stage_join_park (c : Dev nD) (f : Buf (Elt F) ((c : Thread nD τ).loc cc0_scratch0)) :
    iprop(parkSrc c 0 f ∗ parkSrc c 1 f ∗ parkSrc c 2 f ∗ parkSrc c 3 f ∗ parkSrc c 4 f ∗ parkSrc c 5 f ∗ parkSrc c 6 f ∗ parkRest c f)
      ⊢ (((c : Thread nD τ).loc cc0_scratch0) ↦{fullShare} f : sProp 𝕄) := by
  simp only [parkSrc_def, parkRest_def]
  exact (stage_split c f).2
theorem comm_join (c : Dev nD) (f : Buf (Elt F) ((c : Thread nD τ).loc cc0_scratch1)) :
    iprop(slotPts c 0 f ∗ slotPts c 1 f ∗ slotPts c 2 f ∗ slotPts c 3 f ∗ slotPts c 4 f ∗ slotPts c 5 f ∗ slotPts c 6 f)
      ⊢ (((c : Thread nD τ).loc cc0_scratch1) ↦{fullShare} f : sProp 𝕄) := (comm_split c f).2

/-- The barrier round's payloads, each slot under its opaque name. -/
theorem rest_bar_park (c : Dev nD) : bigSep Finset.univ (fun d : Fin 7 => (a2aRd (F := F) m).payload (barCell c) 0 d)
    = iprop((∃ f, parkDst (peer c 6) 6 f) ∗ (∃ f, parkDst (peer c 5) 5 f) ∗ (∃ f, parkDst (peer c 4) 4 f) ∗ (∃ f, parkDst (peer c 3) 3 f)
        ∗ (∃ f, parkDst (peer c 2) 2 f) ∗ (∃ f, parkDst (peer c 1) 1 f) ∗ (∃ f, parkDst (peer c 0) 0 f)) := by
  simp only [parkDst_def]; exact rest_bar m c

/-! ## The end of the body: buffers whole again, semaphores closed -/

theorem parkSrc_pts (c : Dev nD) (j : Fin 7) (f : Buf (Elt F) ((c : Thread nD τ).loc cc0_scratch0)) :
    parkSrc c j f = ((srcM c j).view.loc (c : Thread nD τ) ↦[(srcM c j).view.set]{fullShare} f : sProp 𝕄) := by unfold parkSrc srcPts; rfl

/-- A store through the whole result block, over whatever was there, leaves the stored vector. -/
theorem out_written (c : Dev nD) (g2 : Buf (Elt F) ((c : Thread nD τ).loc cc0_stg2_0)) (v : FVec F S128x1024 .f32) :
    (oM : Memref sig .tc .vmem S128x1024 .f32).view.writes (Elt F) g2
      [⟨Rect.unit (s := S128x1024) ![0, 0] S128x1024.size inb_S128x1024_S128x1024_0_0, v⟩] = v := by
  rw [View.writes_singleton]
  exact Memref.write_access_unit_zero_univ (Elt F) cc0_stg2_0 zeros2 _ _ _

theorem closedSems_flat (c : Dev nD) : closedSems (F := F) c
    = iprop((semVal (sendCell c 0) 0 ∗ semVal (sendCell c 1) 0 ∗ semVal (sendCell c 2) 0 ∗ semVal (sendCell c 3) 0 ∗ semVal (sendCell c 4) 0 ∗ semVal (sendCell c 5) 0 ∗ semVal (sendCell c 6) 0)
        ∗ (semVal (recvCell c 0) 0 ∗ semVal (recvCell c 1) 0 ∗ semVal (recvCell c 2) 0 ∗ semVal (recvCell c 3) 0 ∗ semVal (recvCell c 4) 0 ∗ semVal (recvCell c 5) 0 ∗ semVal (recvCell c 6) 0)) := by
  unfold closedSems; rw [bigSep_fin7, bigSep_fin7]

/-- The returned source pieces with the own rows make the stage buffer whole, the seven landed slots the receive buffer. -/
theorem finish_scratch (c : Dev nD) (f2 : Buf (Elt F) ((c : Thread nD τ).loc cc0_scratch2)) :
    iprop(((srcM c 0).view.loc (c : Thread nD τ) ↦[(srcM c 0).view.set]{fullShare} stageV m c)
        ∗ ((srcM c 1).view.loc (c : Thread nD τ) ↦[(srcM c 1).view.set]{fullShare} stageV m c)
        ∗ ((srcM c 2).view.loc (c : Thread nD τ) ↦[(srcM c 2).view.set]{fullShare} stageV m c)
        ∗ ((srcM c 3).view.loc (c : Thread nD τ) ↦[(srcM c 3).view.set]{fullShare} stageV m c)
        ∗ ((srcM c 4).view.loc (c : Thread nD τ) ↦[(srcM c 4).view.set]{fullShare} stageV m c)
        ∗ ((srcM c 5).view.loc (c : Thread nD τ) ↦[(srcM c 5).view.set]{fullShare} stageV m c)
        ∗ ((srcM c 6).view.loc (c : Thread nD τ) ↦[(srcM c 6).view.set]{fullShare} stageV m c)
        ∗ parkRest c (stageV m c)
        ∗ ((dstM 0).view.loc (c : Thread nD τ) ↦[(dstM 0).view.set]{fullShare} commV m c)
        ∗ ((dstM 1).view.loc (c : Thread nD τ) ↦[(dstM 1).view.set]{fullShare} commV m c)
        ∗ ((dstM 2).view.loc (c : Thread nD τ) ↦[(dstM 2).view.set]{fullShare} commV m c)
        ∗ ((dstM 3).view.loc (c : Thread nD τ) ↦[(dstM 3).view.set]{fullShare} commV m c)
        ∗ ((dstM 4).view.loc (c : Thread nD τ) ↦[(dstM 4).view.set]{fullShare} commV m c)
        ∗ ((dstM 5).view.loc (c : Thread nD τ) ↦[(dstM 5).view.set]{fullShare} commV m c)
        ∗ ((dstM 6).view.loc (c : Thread nD τ) ↦[(dstM 6).view.set]{fullShare} commV m c)
        ∗ ((wbM : Memref sig .tc .vmem S1024x1024 .bf16).view.loc (c : Thread nD τ) ↦[(wbM : Memref sig .tc .vmem S1024x1024 .bf16).view.set]{fullShare} f2))
      ⊢ scratch (F := F) c := by
  unfold scratch
  iintro ⟨H0, H1, H2, H3, H4, H5, H6, Hr, G0, G1, G2, G3, G4, G5, G6, Hwb⟩
  isplitl [H0 H1 H2 H3 H4 H5 H6 Hr]
  · iexists (stageV m c)
    iapply (stage_join_park c (stageV m c))
    ihave H0 := (Entails.of_eq (parkSrc_pts c 0 (stageV m c)).symm) $$ H0
    ihave H1 := (Entails.of_eq (parkSrc_pts c 1 (stageV m c)).symm) $$ H1
    ihave H2 := (Entails.of_eq (parkSrc_pts c 2 (stageV m c)).symm) $$ H2
    ihave H3 := (Entails.of_eq (parkSrc_pts c 3 (stageV m c)).symm) $$ H3
    ihave H4 := (Entails.of_eq (parkSrc_pts c 4 (stageV m c)).symm) $$ H4
    ihave H5 := (Entails.of_eq (parkSrc_pts c 5 (stageV m c)).symm) $$ H5
    ihave H6 := (Entails.of_eq (parkSrc_pts c 6 (stageV m c)).symm) $$ H6
    isplitl [H0]; · iexact H0
    isplitl [H1]; · iexact H1
    isplitl [H2]; · iexact H2
    isplitl [H3]; · iexact H3
    isplitl [H4]; · iexact H4
    isplitl [H5]; · iexact H5
    isplitl [H6]; · iexact H6
    iexact Hr
  isplitl [G0 G1 G2 G3 G4 G5 G6]
  · iexists (commV m c)
    iapply (comm_join c (commV m c))
    unfold slotPts
    isplitl [G0]; · iexact G0
    isplitl [G1]; · iexact G1
    isplitl [G2]; · iexact G2
    isplitl [G3]; · iexact G3
    isplitl [G4]; · iexact G4
    isplitl [G5]; · iexact G5
    iexact G6
  · iexists f2
    iapply (Entails.of_eq (whole_pts c cc0_scratch2 f2))
    iexact Hwb

end Cert.KernelIdeal.A2a

end
-- ==== Proof.Body.lean ====
/-
  The body on one device: from the flat context of its obligation, through the seven signals, the two conversions and the
  local product, the barrier wait, the seven copies, the seven receive waits each followed by its product, the store of
  the result and the seven send waits, to the flat post: scratch buffers whole, exchange semaphores closed, nothing owed,
  inputs unchanged, the result block holding the composed payloads of the loaded blocks.
-/
import proofs.«900403_g7700000000000404_dist_a2a_gemm_m1024_k1024_n1024_f32_gelu_v7x_i8_1_alg».proof.Proof.BodyLemmas
import proofs.«900403_g7700000000000404_dist_a2a_gemm_m1024_k1024_n1024_f32_gelu_v7x_i8_1_alg».proof.Proof.Written

noncomputable section

namespace Cert.KernelIdeal.A2a

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

open Idealize.ShloMosaic.Tactic
variable (m : (ℓ : Loc nD τ sig) → Buf (Elt F) ℓ)

attribute [local irreducible] peer orig rev
attribute [local sl_rounds] duties_bar duties_send duties_recv amount_bar amount_send amount_recv expect_bar expect_send expect_recv payload_send_pts payload_recv_own payload_bar_peer0 payload_bar_peer1 payload_bar_peer2 payload_bar_peer3 payload_bar_peer4 payload_bar_peer5 payload_bar_peer6
attribute [local sl_canon] dev1_eq dev2_eq dev3_eq dev4_eq dev5_eq dev6_eq dev7_eq dev8_eq dev9_eq dev10_eq dev11_eq dev12_eq dev13_eq dev14_eq

set_option maxHeartbeats 4000000 in
theorem sound_flat : SoundFlat (F := F) m := by
  intro K c W g2 f0 f1 f2
  iintro ⟨#HIbar, #HIs0, #HIs1, #HIs2, #HIs3, #HIs4, #HIs5, #HIs6, #HIr0, #HIr1, #HIr2, #HIr3, #HIr4, #HIr5, #HIr6, #HIbp0, #HIbp1, #HIbp2, #HIbp3, #HIbp4, #HIbp5, #HIbp6, #HIrp0, #HIrp1, #HIrp2, #HIrp3, #HIrp4, #HIrp5, #HIrp6, #HRbp0, #HRbp1, #HRbp2, #HRbp3, #HRbp4, #HRbp5, #HRbp6, #HRrp0, #HRrp1, #HRrp2, #HRrp3, #HRrp4, #HRrp5, #HRrp6, #HRs0, #HRs1, #HRs2, #HRs3, #HRs4, #HRs5, #HRs6, #Hlev, HatB, HatS0, HatS1, HatS2, HatS3, HatS4, HatS5, HatS6, HatR0, HatR1, HatR2, HatR3, HatR4, HatR5, HatR6, HtB0, HtB1, HtB2, HtB3, HtB4, HtB5, HtB6, HtR0, HtR1, HtR2, HtR3, HtR4, HtR5, HtR6, HtS0, HtS1, HtS2, HtS3, HtS4, HtS5, HtS6, HcB, HcR0, HcR1, HcR2, HcR3, HcR4, HcR5, HcR6, HO, Hx, Hw, Hout, Hst, Hsl0, Hsl1, Hsl2, Hsl3, Hsl4, Hsl5, Hsl6, Hwb⟩
  ihave HO := (Entails.of_eq (congrArg (fun O => (owes (c : Thread nD τ) O W : sProp 𝕄)) (O₀_sum c))) $$ HO
  sl_unfold [cc0_body]
  have hmw : (levAts L lv : sProp 𝕄) ⊢ MayWait (c : Thread nD τ) (.reg barS) () (tallyAt (recvCell (peer c 6) 6) () N + tallyAt (recvCell (peer c 5) 5) () N + tallyAt (recvCell (peer c 4) 4) () N + tallyAt (recvCell (peer c 3) 3) () N + tallyAt (recvCell (peer c 2) 2) () N + tallyAt (recvCell (peer c 1) 1) () N + tallyAt (recvCell (peer c 0) 0) () N) := mayWait_bar c
  ihave Hs6 := (Entails.of_eq (parkSlot_eq c 6 f1)) $$ Hsl6
  sl_exec
  ihave Hs5 := (Entails.of_eq (parkSlot_eq c 5 f1)) $$ Hsl5
  sl_exec
  ihave Hs4 := (Entails.of_eq (parkSlot_eq c 4 f1)) $$ Hsl4
  sl_exec
  ihave Hs3 := (Entails.of_eq (parkSlot_eq c 3 f1)) $$ Hsl3
  sl_exec
  ihave Hs2 := (Entails.of_eq (parkSlot_eq c 2 f1)) $$ Hsl2
  sl_exec
  ihave Hs1 := (Entails.of_eq (parkSlot_eq c 1 f1)) $$ Hsl1
  sl_exec
  ihave Hs0 := (Entails.of_eq (parkSlot_eq c 0 f1)) $$ Hsl0
  sl_exec
  -- the stage buffer holds the converted block; cut it into the seven source pieces and the own rows
  have hst : (stM : Memref sig .tc .vmem S1024x128 .bf16).view.writes (Elt F) (stM : Memref sig .tc .vmem S1024x128 .bf16).view.junk (sound_flat.sl.Hst_1 m c) = stageV m c := stage_written m c
  have hwb : (wbM : Memref sig .tc .vmem S1024x1024 .bf16).view.writes (Elt F) (wbM : Memref sig .tc .vmem S1024x1024 .bf16).view.junk (sound_flat.sl.Hwb_1 m c) = wbV m c := wb_written m c
  ihave Hst := (Entails.of_eq (congrArg (fun f => ((stM : Memref sig .tc .vmem S1024x128 .bf16).view.loc (c : Thread nD τ) ↦[(stM : Memref sig .tc .vmem S1024x128 .bf16).view.set]{fullShare} f : sProp 𝕄)) hst)) $$ Hst
  ihave Hst := (stage_split_park c (stageV m c)) $$ Hst
  icases Hst with ⟨Hsrc0, Hsrc1, Hsrc2, Hsrc3, Hsrc4, Hsrc5, Hsrc6, Hrest⟩
  -- the barrier round handed over the seven slots this device's copies write
  ihave Hp := (Entails.of_eq (rest_bar_park m c)) $$ HatB_pay1
  icases Hp with ⟨⟨%fd6, Hd6⟩, ⟨%fd5, Hd5⟩, ⟨%fd4, Hd4⟩, ⟨%fd3, Hd3⟩, ⟨%fd2, Hd2⟩, ⟨%fd1, Hd1⟩, ⟨%fd0, Hd0⟩⟩
  -- copy 0
  ihave Hsrc0 := (Entails.of_eq (parkSrc_def c 0 _)) $$ Hsrc0
  ihave Hd0 := (Entails.of_eq (parkDst_def (peer c 0) 0 _)) $$ Hd0
  iapply (wp_send_a2a m K c _ 0 (dev8_eq c) fd0 (tallyAt (recvCell (peer c 6) 6) () N + tallyAt (recvCell (peer c 5) 5) () N + tallyAt (recvCell (peer c 4) 4) () N + tallyAt (recvCell (peer c 3) 3) () N + tallyAt (recvCell (peer c 2) 2) () N + tallyAt (recvCell (peer c 1) 1) () N + tallyAt (recvCell (peer c 0) 0) () N) (tallyAt (recvCell (peer c 6) 6) () N + tallyAt (recvCell (peer c 5) 5) () N + tallyAt (recvCell (peer c 4) 4) () N + tallyAt (recvCell (peer c 3) 3) () N + tallyAt (recvCell (peer c 2) 2) () N + tallyAt (recvCell (peer c 1) 1) () N) rfl _) $$ [Hsrc0 Hd0 HO HtS0 HtR0]
  · isplitr; · iexact HIs0
    isplitr; · iexact HIrp0
    isplitl [Hsrc0]; · iexact Hsrc0
    isplitl [Hd0]; · iexact Hd0
    isplitl [HO]; · iexact HO
    isplitl [HtS0]; · iexact HtS0
    isplitr; · iexact HRs0
    isplitl [HtR0]; · iexact HtR0
    iexact HRrp0
  iintro ⟨HcS0, HO⟩
  sl_exec
  -- copy 1
  ihave Hsrc1 := (Entails.of_eq (parkSrc_def c 1 _)) $$ Hsrc1
  ihave Hd1 := (Entails.of_eq (parkDst_def (peer c 1) 1 _)) $$ Hd1
  iapply (wp_send_a2a m K c _ 1 (dev9_eq c) fd1 (tallyAt (recvCell (peer c 6) 6) () N + tallyAt (recvCell (peer c 5) 5) () N + tallyAt (recvCell (peer c 4) 4) () N + tallyAt (recvCell (peer c 3) 3) () N + tallyAt (recvCell (peer c 2) 2) () N + tallyAt (recvCell (peer c 1) 1) () N) (tallyAt (recvCell (peer c 6) 6) () N + tallyAt (recvCell (peer c 5) 5) () N + tallyAt (recvCell (peer c 4) 4) () N + tallyAt (recvCell (peer c 3) 3) () N + tallyAt (recvCell (peer c 2) 2) () N) rfl _) $$ [Hsrc1 Hd1 HO HtS1 HtR1]
  · isplitr; · iexact HIs1
    isplitr; · iexact HIrp1
    isplitl [Hsrc1]; · iexact Hsrc1
    isplitl [Hd1]; · iexact Hd1
    isplitl [HO]; · iexact HO
    isplitl [HtS1]; · iexact HtS1
    isplitr; · iexact HRs1
    isplitl [HtR1]; · iexact HtR1
    iexact HRrp1
  iintro ⟨HcS1, HO⟩
  sl_exec
  -- copy 2
  ihave Hsrc2 := (Entails.of_eq (parkSrc_def c 2 _)) $$ Hsrc2
  ihave Hd2 := (Entails.of_eq (parkDst_def (peer c 2) 2 _)) $$ Hd2
  iapply (wp_send_a2a m K c _ 2 (dev10_eq c) fd2 (tallyAt (recvCell (peer c 6) 6) () N + tallyAt (recvCell (peer c 5) 5) () N + tallyAt (recvCell (peer c 4) 4) () N + tallyAt (recvCell (peer c 3) 3) () N + tallyAt (recvCell (peer c 2) 2) () N) (tallyAt (recvCell (peer c 6) 6) () N + tallyAt (recvCell (peer c 5) 5) () N + tallyAt (recvCell (peer c 4) 4) () N + tallyAt (recvCell (peer c 3) 3) () N) rfl _) $$ [Hsrc2 Hd2 HO HtS2 HtR2]
  · isplitr; · iexact HIs2
    isplitr; · iexact HIrp2
    isplitl [Hsrc2]; · iexact Hsrc2
    isplitl [Hd2]; · iexact Hd2
    isplitl [HO]; · iexact HO
    isplitl [HtS2]; · iexact HtS2
    isplitr; · iexact HRs2
    isplitl [HtR2]; · iexact HtR2
    iexact HRrp2
  iintro ⟨HcS2, HO⟩
  sl_exec
  -- copy 3
  ihave Hsrc3 := (Entails.of_eq (parkSrc_def c 3 _)) $$ Hsrc3
  ihave Hd3 := (Entails.of_eq (parkDst_def (peer c 3) 3 _)) $$ Hd3
  iapply (wp_send_a2a m K c _ 3 (dev11_eq c) fd3 (tallyAt (recvCell (peer c 6) 6) () N + tallyAt (recvCell (peer c 5) 5) () N + tallyAt (recvCell (peer c 4) 4) () N + tallyAt (recvCell (peer c 3) 3) () N) (tallyAt (recvCell (peer c 6) 6) () N + tallyAt (recvCell (peer c 5) 5) () N + tallyAt (recvCell (peer c 4) 4) () N) rfl _) $$ [Hsrc3 Hd3 HO HtS3 HtR3]
  · isplitr; · iexact HIs3
    isplitr; · iexact HIrp3
    isplitl [Hsrc3]; · iexact Hsrc3
    isplitl [Hd3]; · iexact Hd3
    isplitl [HO]; · iexact HO
    isplitl [HtS3]; · iexact HtS3
    isplitr; · iexact HRs3
    isplitl [HtR3]; · iexact HtR3
    iexact HRrp3
  iintro ⟨HcS3, HO⟩
  sl_exec
  -- copy 4
  ihave Hsrc4 := (Entails.of_eq (parkSrc_def c 4 _)) $$ Hsrc4
  ihave Hd4 := (Entails.of_eq (parkDst_def (peer c 4) 4 _)) $$ Hd4
  iapply (wp_send_a2a m K c _ 4 (dev12_eq c) fd4 (tallyAt (recvCell (peer c 6) 6) () N + tallyAt (recvCell (peer c 5) 5) () N + tallyAt (recvCell (peer c 4) 4) () N) (tallyAt (recvCell (peer c 6) 6) () N + tallyAt (recvCell (peer c 5) 5) () N) rfl _) $$ [Hsrc4 Hd4 HO HtS4 HtR4]
  · isplitr; · iexact HIs4
    isplitr; · iexact HIrp4
    isplitl [Hsrc4]; · iexact Hsrc4
    isplitl [Hd4]; · iexact Hd4
    isplitl [HO]; · iexact HO
    isplitl [HtS4]; · iexact HtS4
    isplitr; · iexact HRs4
    isplitl [HtR4]; · iexact HtR4
    iexact HRrp4
  iintro ⟨HcS4, HO⟩
  sl_exec
  -- copy 5
  ihave Hsrc5 := (Entails.of_eq (parkSrc_def c 5 _)) $$ Hsrc5
  ihave Hd5 := (Entails.of_eq (parkDst_def (peer c 5) 5 _)) $$ Hd5
  iapply (wp_send_a2a m K c _ 5 (dev13_eq c) fd5 (tallyAt (recvCell (peer c 6) 6) () N + tallyAt (recvCell (peer c 5) 5) () N) (tallyAt (recvCell (peer c 6) 6) () N) rfl _) $$ [Hsrc5 Hd5 HO HtS5 HtR5]
  · isplitr; · iexact HIs5
    isplitr; · iexact HIrp5
    isplitl [Hsrc5]; · iexact Hsrc5
    isplitl [Hd5]; · iexact Hd5
    isplitl [HO]; · iexact HO
    isplitl [HtS5]; · iexact HtS5
    isplitr; · iexact HRs5
    isplitl [HtR5]; · iexact HtR5
    iexact HRrp5
  iintro ⟨HcS5, HO⟩
  sl_exec
  -- copy 6
  ihave Hsrc6 := (Entails.of_eq (parkSrc_def c 6 _)) $$ Hsrc6
  ihave Hd6 := (Entails.of_eq (parkDst_def (peer c 6) 6 _)) $$ Hd6
  iapply (wp_send_a2a m K c _ 6 (dev14_eq c) fd6 (tallyAt (recvCell (peer c 6) 6) () N) (0) (zero_add _).symm _) $$ [Hsrc6 Hd6 HO HtS6 HtR6]
  · isplitr; · iexact HIs6
    isplitr; · iexact HIrp6
    isplitl [Hsrc6]; · iexact Hsrc6
    isplitl [Hd6]; · iexact Hd6
    isplitl [HO]; · iexact HO
    isplitl [HtS6]; · iexact HtS6
    isplitr; · iexact HRs6
    isplitl [HtR6]; · iexact HtR6
    iexact HRrp6
  iintro ⟨HcS6, HO⟩
  sl_exec
  -- the fourteen exchange cells close: their counters at zero are the device's again
  imod (Rounds.cell_close ER (a2aRd m) (Set.mem_univ (K (c, some (false, 0)))) (fun h => h) (R := 1) (duties_later m (sendCell c 0))) $$ [HatS0] with HzS0
  · isplitr; · iexact HIs0
    iexact HatS0
  imod (Rounds.cell_close ER (a2aRd m) (Set.mem_univ (K (c, some (false, 1)))) (fun h => h) (R := 1) (duties_later m (sendCell c 1))) $$ [HatS1] with HzS1
  · isplitr; · iexact HIs1
    iexact HatS1
  imod (Rounds.cell_close ER (a2aRd m) (Set.mem_univ (K (c, some (false, 2)))) (fun h => h) (R := 1) (duties_later m (sendCell c 2))) $$ [HatS2] with HzS2
  · isplitr; · iexact HIs2
    iexact HatS2
  imod (Rounds.cell_close ER (a2aRd m) (Set.mem_univ (K (c, some (false, 3)))) (fun h => h) (R := 1) (duties_later m (sendCell c 3))) $$ [HatS3] with HzS3
  · isplitr; · iexact HIs3
    iexact HatS3
  imod (Rounds.cell_close ER (a2aRd m) (Set.mem_univ (K (c, some (false, 4)))) (fun h => h) (R := 1) (duties_later m (sendCell c 4))) $$ [HatS4] with HzS4
  · isplitr; · iexact HIs4
    iexact HatS4
  imod (Rounds.cell_close ER (a2aRd m) (Set.mem_univ (K (c, some (false, 5)))) (fun h => h) (R := 1) (duties_later m (sendCell c 5))) $$ [HatS5] with HzS5
  · isplitr; · iexact HIs5
    iexact HatS5
  imod (Rounds.cell_close ER (a2aRd m) (Set.mem_univ (K (c, some (false, 6)))) (fun h => h) (R := 1) (duties_later m (sendCell c 6))) $$ [HatS6] with HzS6
  · isplitr; · iexact HIs6
    iexact HatS6
  imod (Rounds.cell_close ER (a2aRd m) (Set.mem_univ (K (c, some (true, 0)))) (fun h => h) (R := 1) (duties_later m (recvCell c 0))) $$ [HatR0] with HzR0
  · isplitr; · iexact HIr0
    iexact HatR0
  imod (Rounds.cell_close ER (a2aRd m) (Set.mem_univ (K (c, some (true, 1)))) (fun h => h) (R := 1) (duties_later m (recvCell c 1))) $$ [HatR1] with HzR1
  · isplitr; · iexact HIr1
    iexact HatR1
  imod (Rounds.cell_close ER (a2aRd m) (Set.mem_univ (K (c, some (true, 2)))) (fun h => h) (R := 1) (duties_later m (recvCell c 2))) $$ [HatR2] with HzR2
  · isplitr; · iexact HIr2
    iexact HatR2
  imod (Rounds.cell_close ER (a2aRd m) (Set.mem_univ (K (c, some (true, 3)))) (fun h => h) (R := 1) (duties_later m (recvCell c 3))) $$ [HatR3] with HzR3
  · isplitr; · iexact HIr3
    iexact HatR3
  imod (Rounds.cell_close ER (a2aRd m) (Set.mem_univ (K (c, some (true, 4)))) (fun h => h) (R := 1) (duties_later m (recvCell c 4))) $$ [HatR4] with HzR4
  · isplitr; · iexact HIr4
    iexact HatR4
  imod (Rounds.cell_close ER (a2aRd m) (Set.mem_univ (K (c, some (true, 5)))) (fun h => h) (R := 1) (duties_later m (recvCell c 5))) $$ [HatR5] with HzR5
  · isplitr; · iexact HIr5
    iexact HatR5
  imod (Rounds.cell_close ER (a2aRd m) (Set.mem_univ (K (c, some (true, 6)))) (fun h => h) (R := 1) (duties_later m (recvCell c 6))) $$ [HatR6] with HzR6
  · isplitr; · iexact HIr6
    iexact HatR6
  -- what the result block holds
  have hout : k0_pay11 (sound_flat.sl.r_6 m c) (sound_flat.sl.r_7 m c) = outAt m c := by
    unfold sound_flat.sl.r_6 sound_flat.sl.r_7 sound_flat.sl.r_5 sound_flat.sl.r_4 sound_flat.sl.r_3 sound_flat.sl.r_2 sound_flat.sl.r_1 sound_flat.sl.r
    rw [hst, hwb]
    rfl
  ihave Hout := (Entails.of_eq (congrArg (fun f => ((oM : Memref sig .tc .vmem S128x1024 .f32).view.loc (c : Thread nD τ) ↦[(oM : Memref sig .tc .vmem S128x1024 .f32).view.set]{fullShare} f : sProp 𝕄)) ((out_written c g2 _).trans hout))) $$ Hout
  sl_step
  unfold postFlat
  isplitl [HatS0_pay1 HatS1_pay1 HatS2_pay1 HatS3_pay1 HatS4_pay1 HatS5_pay1 HatS6_pay1 Hrest HatR0_pay1 HatR1_pay1 HatR2_pay1 HatR3_pay1 HatR4_pay1 HatR5_pay1 HatR6_pay1 Hwb]
  · iapply (finish_scratch m c _)
    isplitl [HatS0_pay1]; · iexact HatS0_pay1
    isplitl [HatS1_pay1]; · iexact HatS1_pay1
    isplitl [HatS2_pay1]; · iexact HatS2_pay1
    isplitl [HatS3_pay1]; · iexact HatS3_pay1
    isplitl [HatS4_pay1]; · iexact HatS4_pay1
    isplitl [HatS5_pay1]; · iexact HatS5_pay1
    isplitl [HatS6_pay1]; · iexact HatS6_pay1
    isplitl [Hrest]; · iexact Hrest
    isplitl [HatR0_pay1]; · iexact HatR0_pay1
    isplitl [HatR1_pay1]; · iexact HatR1_pay1
    isplitl [HatR2_pay1]; · iexact HatR2_pay1
    isplitl [HatR3_pay1]; · iexact HatR3_pay1
    isplitl [HatR4_pay1]; · iexact HatR4_pay1
    isplitl [HatR5_pay1]; · iexact HatR5_pay1
    isplitl [HatR6_pay1]; · iexact HatR6_pay1
    iexact Hwb
  isplitl [HzS0 HzS1 HzS2 HzS3 HzS4 HzS5 HzS6 HzR0 HzR1 HzR2 HzR3 HzR4 HzR5 HzR6]
  · iapply (Entails.of_eq (closedSems_flat c).symm)
    isplitl [HzS0 HzS1 HzS2 HzS3 HzS4 HzS5 HzS6]
    · isplitl [HzS0]; · iexact HzS0
      isplitl [HzS1]; · iexact HzS1
      isplitl [HzS2]; · iexact HzS2
      isplitl [HzS3]; · iexact HzS3
      isplitl [HzS4]; · iexact HzS4
      isplitl [HzS5]; · iexact HzS5
      iexact HzS6
    isplitl [HzR0]; · iexact HzR0
    isplitl [HzR1]; · iexact HzR1
    isplitl [HzR2]; · iexact HzR2
    isplitl [HzR3]; · iexact HzR3
    isplitl [HzR4]; · iexact HzR4
    isplitl [HzR5]; · iexact HzR5
    iexact HzR6
  isplitl [HO]
  · iexists _; iexact HO
  isplitl [Hx]; · iexact Hx
  isplitl [Hw]; · iexact Hw
  iexact Hout

/-- info: 'Cert.KernelIdeal.A2a.sound_flat' depends on axioms: [propext, Classical.choice, Quot.sound] -/
#guard_msgs in #print axioms sound_flat

end Cert.KernelIdeal.A2a

end
-- ==== Proof.KMoves.lean ====
/-
  Where the data sits: each block the body loads, read at an index, and what an exchange leaves in the
  addressee's receive buffer.

  A load through a unit-stride rectangle reads the buffer at the rectangle's offsets plus the load's own index; the
  offsets are the multiples of 128 that the ring position fixes. An exchange copies 128 rows of the sender's converted
  block into one slot of the addressee's receive buffer; element by element that slot then holds what the receive
  buffer's final contents name.
-/
import proofs.«900403_g7700000000000404_dist_a2a_gemm_m1024_k1024_n1024_f32_gelu_v7x_i8_1_alg».proof.Proof.KViews
import Idealize.ShloMosaic.Lib.Pipeline.Value

noncomputable section

namespace Cert.Kernel.A2a

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## A load through a unit-stride rectangle of a rank-two or rank-three view, at an index -/

section ReadAtUnit

variable {sig' : RefSig} {κ : Kind} {sp : Space} {e : EltTy} {Val : EltTy → Type}

/-- Rank two: entry `(x₀, x₁)` of the load is the view's entry `(off₀ + x₀, off₁ + x₁)`. -/
theorem readAt_unit2 {n0 n1 : Nat} (v : View sig' κ sp ⟨2, ![n0, n1]⟩ e) (f : v.ty.Contents Val) (off size : Fin 2 → Nat)
    (inb : ∀ a, off a + size a ≤ (⟨2, ![n0, n1]⟩ : Shape).size a) (x : (⟨2, size⟩ : Shape).Idx) :
    v.readAt Val (Rect.unit (s := ⟨2, ![n0, n1]⟩) off size inb).toLoadRect f x
      = v.read Val f (ix2 ⟨off 0 + (x 0).val, by have h : off 0 + size 0 ≤ n0 := inb 0; have h2 : (x 0).val < size 0 := (x 0).isLt; omega⟩
          ⟨off 1 + (x 1).val, by have h : off 1 + size 1 ≤ n1 := inb 1; have h2 : (x 1).val < size 1 := (x 1).isLt; omega⟩) := by
  rw [View.readAt_apply]
  congr 1
  funext a
  apply Fin.ext
  match a with
  | ⟨0, _⟩ => show off 0 + 1 * (x 0).val = off 0 + (x 0).val; rw [Nat.one_mul]
  | ⟨1, _⟩ => show off 1 + 1 * (x 1).val = off 1 + (x 1).val; rw [Nat.one_mul]

/-- Rank three. -/
theorem readAt_unit3 {n0 n1 n2 : Nat} (v : View sig' κ sp ⟨3, ![n0, n1, n2]⟩ e) (f : v.ty.Contents Val) (off size : Fin 3 → Nat)
    (inb : ∀ a, off a + size a ≤ (⟨3, ![n0, n1, n2]⟩ : Shape).size a) (x : (⟨3, size⟩ : Shape).Idx) :
    v.readAt Val (Rect.unit (s := ⟨3, ![n0, n1, n2]⟩) off size inb).toLoadRect f x
      = v.read Val f (ix3 ⟨off 0 + (x 0).val, by have h : off 0 + size 0 ≤ n0 := inb 0; have h2 : (x 0).val < size 0 := (x 0).isLt; omega⟩
          ⟨off 1 + (x 1).val, by have h : off 1 + size 1 ≤ n1 := inb 1; have h2 : (x 1).val < size 1 := (x 1).isLt; omega⟩
          ⟨off 2 + (x 2).val, by have h : off 2 + size 2 ≤ n2 := inb 2; have h2 : (x 2).val < size 2 := (x 2).isLt; omega⟩) := by
  rw [View.readAt_apply]
  congr 1
  funext a
  apply Fin.ext
  match a with
  | ⟨0, _⟩ => show off 0 + 1 * (x 0).val = off 0 + (x 0).val; rw [Nat.one_mul]
  | ⟨1, _⟩ => show off 1 + 1 * (x 1).val = off 1 + (x 1).val; rw [Nat.one_mul]
  | ⟨2, _⟩ => show off 2 + 1 * (x 2).val = off 2 + (x 2).val; rw [Nat.one_mul]

end ReadAtUnit

variable {F : FTy → Type} [FloatOps F]
variable (m : (ℓ : Loc nD τ sig) → Buf (Elt F) ℓ)

/-! ## The loads read at an index -/

/-- Device `c`'s own rows of its converted block: entry `(r, k)` is the block's entry `(128 c + r, k)`. -/
theorem ldOwn_apply (c : Dev nD) (r k : Fin 128) :
    ldOwn m c (ix2 r k) = stageV m c (ix2 ⟨128 * c.val + r.val, by have h1 : c.val < 8 := c.isLt; have := r.isLt; omega⟩ k) := by
  unfold ldOwn
  generalize stageV m c = f
  refine (readAt_unit2 (Val := Elt F) (stM : Memref sig .tc .vmem S1024x128 .bf16).view f _ _ _ _).trans ?_
  show f _ = f _
  congr 1
  funext a
  apply Fin.ext
  match a with
  | ⟨0, _⟩ => show k0_off1 c 0 + r.val = 128 * c.val + r.val; rw [k0_off1_eq]; rfl
  | ⟨1, _⟩ => show k0_off1 c 1 + k.val = k.val; rw [k0_off1_eq]; exact Nat.zero_add _

/-- The rows of the converted `w` that go with device `c`'s own block. -/
theorem ldWb0_apply (c : Dev nD) (k : Fin 128) (j : Fin 1024) :
    ldWb0 m c (ix2 k j) = wbV m c (ix2 ⟨128 * c.val + k.val, by have h1 : c.val < 8 := c.isLt; have := k.isLt; omega⟩ j) := by
  unfold ldWb0
  generalize wbV m c = f
  refine (readAt_unit2 (Val := Elt F) (wbM : Memref sig .tc .vmem S1024x1024 .bf16).view f _ _ _ _).trans ?_
  show f _ = f _
  congr 1
  funext a
  apply Fin.ext
  match a with
  | ⟨0, _⟩ => show k0_off2 c 0 + k.val = 128 * c.val + k.val; rw [k0_off2_eq]; rfl
  | ⟨1, _⟩ => show k0_off2 c 1 + j.val = j.val; rw [k0_off2_eq]; exact Nat.zero_add _

/-- Slot `j` of the receive buffer, loaded as a [1, 128, 128] block, at `(0, r, k)`. -/
theorem ldSlot_apply (c : Dev nD) (j : Fin 7) (r k : Fin 128) :
    ldSlot m c j (ix3 0 r k) = commV m c (ix3 j r k) := by
  unfold ldSlot
  generalize commV m c = f
  refine (readAt_unit3 (Val := Elt F) (cmM : Memref sig .tc .vmem S7x128x128 .bf16).view f _ _ _ _).trans ?_
  show f _ = f _
  congr 1
  funext a
  apply Fin.ext
  match a with
  | ⟨0, _⟩ => exact Nat.add_zero _
  | ⟨1, _⟩ => exact Nat.zero_add _
  | ⟨2, _⟩ => exact Nat.zero_add _

/-- What slot `j` holds once the exchange has landed: the rows of device `c`'s row block in the converted block of
    the device `j + 1` places before `c`. -/
theorem commV_apply (c : Dev nD) (j : Fin 7) (r k : Fin 128) :
    commV m c (ix3 j r k) = stageV m (orig c j) (ix2 ⟨128 * c.val + r.val, by have h1 : c.val < 8 := c.isLt; have := r.isLt; omega⟩ k) := rfl

/-- The rows of the converted `w` that go with slot `j`: those of the device the slot's contents came from. -/
theorem ldWb_apply (c : Dev nD) (j : Fin 7) (k : Fin 128) (j' : Fin 1024) :
    ldWb m c j (ix2 k j') = wbV m c (ix2 ⟨128 * ((c.val + 7 - j.val) % 8) + k.val, by have := Nat.mod_lt (c.val + 7 - j.val) (show 0 < 8 by decide); have := k.isLt; omega⟩ j') := by
  unfold ldWb
  generalize wbV m c = f
  refine (readAt_unit2 (Val := Elt F) (wbM : Memref sig .tc .vmem S1024x1024 .bf16).view f _ _ _ _).trans ?_
  show f _ = f _
  congr 1
  funext a
  apply Fin.ext
  match a with
  | ⟨0, _⟩ => show k0_off4 c (BitVec.ofNat 32 (1 + j.val)) 0 + k.val = 128 * ((c.val + 7 - j.val) % 8) + k.val; rw [k0_off4_eq]; rfl
  | ⟨1, _⟩ => show k0_off4 c (BitVec.ofNat 32 (1 + j.val)) 1 + j'.val = j'.val; rw [k0_off4_eq]; exact Nat.zero_add _

/-! ## What an exchange leaves in the addressee's slot -/

/-- Dropping the leading unit axis: entry `(y₀, y₁)` of a [128, 128] array is entry `(0, y₀, y₁)` of the [1, 128, 128] one. -/
theorem reshape_slot (h : S128x128.numel = S1x128x128.numel) (y : S128x128.Idx) :
    Shape.reshapeEquiv h y = (Fin.cons ⟨0, Nat.one_pos⟩ y : S1x128x128.Idx) :=
  shapeCast_dropUnit_apply (α := S1x128x128.Idx) ![128, 128] (fun x => x) h y

/-- Exchange `j`'s source rows, read at `(y₀, y₁)`: row `128 (peer s j) + y₀` of the sender's stage buffer. -/
theorem srcM_read_apply (s : Dev nD) (j : Fin 7) (f : (cc0_scratch0 : Ref sig .tc).ty.Contents (Elt F)) (y : S128x128.Idx) :
    (srcM s j).view.read (Elt F) f y
      = f (ix2 ⟨128 * (peer s j).val + (y 0).val, by have h1 : (peer s j).val < 8 := (peer s j).isLt; have h2 : (y 0).val < 128 := (y 0).isLt; omega⟩ (y 1)) := by
  show f ((Rect.unit (s := S1024x128) (k0_off3 s (BitVec.ofNat 32 (1 + j.val))) S128x128.size (k0_off3_inb s j)).emb y) = f _
  congr 1
  funext a
  apply Fin.ext
  match a with
  | ⟨0, _⟩ =>
    show k0_off3 s (BitVec.ofNat 32 (1 + j.val)) 0 + 1 * (y 0).val = 128 * ((s.val + j.val + 1) % 8) + (y 0).val
    rw [k0_off3_eq, Nat.one_mul]; rfl
  | ⟨1, _⟩ =>
    show k0_off3 s (BitVec.ofNat 32 (1 + j.val)) 1 + 1 * (y 1).val = (y 1).val
    rw [k0_off3_eq, Nat.one_mul]; exact Nat.zero_add _

/-- Where entry `(y₀, y₁)` of slot `j` sits in the receive buffer. -/
theorem dstM_emb (j : Fin 7) (y : S128x128.Idx) :
    (dstM j).view.emb y = (ix3 j (y 0) (y 1) : S7x128x128.Idx) := by
  show (Rect.unit (s := S7x128x128) ![j.val, 0, 0] S1x128x128.size (inb_slot j)).emb
      (Shape.reshapeEquiv squeezes_S1x128x128_S128x128.numel_eq y) = _
  rw [reshape_slot]
  funext a
  apply Fin.ext
  match a with
  | ⟨0, _⟩ => rfl
  | ⟨1, _⟩ => show 0 + 1 * (y 0).val = (y 0).val; omega
  | ⟨2, _⟩ => show 0 + 1 * (y 1).val = (y 1).val; omega

/-- THE LANDING: after sender `s`'s exchange `j` has written its source rows over slot `j` of the addressee's receive
    buffer, whatever the buffer held, the slot holds what the receive buffer's final contents name there. -/
theorem landed_at (s : Dev nD) (j : Fin 7) (fd : Buf (Elt F) ((dstM j).view.loc (peer s j : Thread nD τ))) :
    ∀ i ∈ (dstM j).view.set,
      (dstM j).view.write (Elt F) fd ((srcM s j).view.read (Elt F) (stageV m s)) Finset.univ i = commV m (peer s j) i := by
  intro i hi
  obtain ⟨y, rfl⟩ := View.exists_emb_of_mem_set _ hi
  rw [View.write_emb_of_mem _ _ (Finset.mem_univ y), srcM_read_apply, dstM_emb]
  refine Eq.trans ?_ (commV_apply m (peer s j) j (y 0) (y 1)).symm
  rw [orig_peer]
  rfl

/-- The same as an equality of the two assertions that hold slot `j` of the addressee's receive buffer. -/
theorem slotPts_landed (s : Dev nD) (j : Fin 7) (fd : Buf (Elt F) ((dstM j).view.loc (peer s j : Thread nD τ))) :
    slotPts (peer s j) j ((dstM j).view.write (Elt F) fd ((srcM s j).view.read (Elt F) (stageV m s)) Finset.univ)
      = slotPts (peer s j) j (commV m (peer s j)) := by
  unfold slotPts
  exact Region.is_congr (landed_at m s j fd)

/-! ## The windows are the whole arrays -/

/-- Device `c`'s staged block of `x` is its argument array. -/
theorem xstg_apply (c : Dev nD) (i : S1024x128.Idx) :
    xstg m c i = m ((c : Thread nD τ).loc main_arg0) i := by
  unfold xstg
  generalize m ((c : Thread nD τ).loc main_arg0) = f
  show f ((win0_0.rect (0 : Fin 1)).emb i) = f i
  congr 1
  funext a
  apply Fin.ext
  rw [Window.rect_emb_val_of_index_zero win0_0 (0 : Fin 1) a rfl i]

/-- Device `c`'s staged copy of `w` is its argument array. -/
theorem wstg_apply (c : Dev nD) (i : S1024x1024.Idx) :
    wstg m c i = m ((c : Thread nD τ).loc main_arg1) i := by
  unfold wstg
  generalize m ((c : Thread nD τ).loc main_arg1) = f
  show f ((win0_1.rect (0 : Fin 1)).emb i) = f i
  congr 1
  funext a
  apply Fin.ext
  rw [Window.rect_emb_val_of_index_zero win0_1 (0 : Fin 1) a rfl i]

end Cert.Kernel.A2a

end
-- ==== Proof.KWritten.lean ====
/-
  What the two converted buffers hold after the body's first two stores: a store through the whole array, over
  whatever was there, leaves the stored vector, and the stored vector is the conversion of what a load through the
  whole staged array reads, which is the staged array.
-/
import proofs.«900403_g7700000000000404_dist_a2a_gemm_m1024_k1024_n1024_f32_gelu_v7x_i8_1_alg».proof.Proof.KViews
import Idealize.ShloMosaic.Lib.Writes

noncomputable section

namespace Cert.Kernel.A2a

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- The offsets `![0, 0]` are the zero offsets. -/
theorem zeros2 : (![0, 0] : Fin 2 → Nat) = fun _ => 0 := funext fun a => by fin_cases a <;> rfl

/-- After the first store the stage buffer holds the conversion of the staged block of `x`. -/
theorem stage_written (c : Dev nD) :
    (stM : Memref sig .tc .vmem S1024x128 .bf16).view.writes (Elt F) (stM : Memref sig .tc .vmem S1024x128 .bf16).view.junk
      [⟨Rect.unit (s := S1024x128) ![0, 0] S1024x128.size inb_S1024x128_S1024x128_0_0,
        k0_pay1 (View.readAt (Elt F) (xM : Memref sig .tc .vmem S1024x128 .f32).view
          (Rect.unit (s := S1024x128) ![0, 0] S1024x128.size inb_S1024x128_S1024x128_0_0).toLoadRect (xstg m c))⟩] = stageV m c := by
  rw [View.writes_singleton]
  have hr : View.readAt (Elt F) (xM : Memref sig .tc .vmem S1024x128 .f32).view
      (Rect.unit (s := S1024x128) ![0, 0] S1024x128.size inb_S1024x128_S1024x128_0_0).toLoadRect (xstg m c) = xstg m c :=
    Memref.readAt_unit_zero (Elt F) cc0_stg0_0 zeros2 _ _
  rw [hr]
  exact Memref.write_access_unit_zero_univ (Elt F) cc0_scratch0 zeros2 _ _ _

/-- After the second store the converted-`w` buffer holds the conversion of the staged `w`. -/
theorem wb_written (c : Dev nD) :
    (wbM : Memref sig .tc .vmem S1024x1024 .bf16).view.writes (Elt F) (wbM : Memref sig .tc .vmem S1024x1024 .bf16).view.junk
      [⟨Rect.unit (s := S1024x1024) ![0, 0] S1024x1024.size inb_S1024x1024_S1024x1024_0_0,
        k0_pay2 (View.readAt (Elt F) (wM : Memref sig .tc .vmem S1024x1024 .f32).view
          (Rect.unit (s := S1024x1024) ![0, 0] S1024x1024.size inb_S1024x1024_S1024x1024_0_0).toLoadRect (wstg m c))⟩] = wbV m c := by
  rw [View.writes_singleton]
  have hr : View.readAt (Elt F) (wM : Memref sig .tc .vmem S1024x1024 .f32).view
      (Rect.unit (s := S1024x1024) ![0, 0] S1024x1024.size inb_S1024x1024_S1024x1024_0_0).toLoadRect (wstg m c) = wstg m c :=
    Memref.readAt_unit_zero (Elt F) cc0_stg1_0 zeros2 _ _
  rw [hr]
  exact Memref.write_access_unit_zero_univ (Elt F) cc0_scratch2 zeros2 _ _ _

end Cert.Kernel.A2a

end
-- ==== Proof.KBodyLemmas.lean ====
/-
  Lemmas about the body's steps: the schedule's tables with each payload written as the buffer assertion it is, the
  barrier round's seven payloads one by one, one copy's step at the exchange's cells, and the end of the body: the
  buffers whole again and the semaphores closed.
-/
import proofs.«900403_g7700000000000404_dist_a2a_gemm_m1024_k1024_n1024_f32_gelu_v7x_i8_1_alg».proof.Proof.KBodyStmt
import proofs.«900403_g7700000000000404_dist_a2a_gemm_m1024_k1024_n1024_f32_gelu_v7x_i8_1_alg».proof.Proof.KRegions
import proofs.«900403_g7700000000000404_dist_a2a_gemm_m1024_k1024_n1024_f32_gelu_v7x_i8_1_alg».proof.Proof.KMoves
import proofs.«900403_g7700000000000404_dist_a2a_gemm_m1024_k1024_n1024_f32_gelu_v7x_i8_1_alg».proof.Proof.KLaunch
import proofs.«900403_g7700000000000404_dist_a2a_gemm_m1024_k1024_n1024_f32_gelu_v7x_i8_1_alg».proof.Proof.KBodyGlue
import proofs.«900403_g7700000000000404_dist_a2a_gemm_m1024_k1024_n1024_f32_gelu_v7x_i8_1_alg».proof.Proof.KWritten

noncomputable section

namespace Cert.Kernel.A2a

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The tables, each payload written as the buffer assertion it is -/

theorem payload_bar_peer (c : Dev nD) (j : Fin 7) : (a2aRd (F := F) m).payload (barCell (peer c j)) 0 j
    = iprop(∃ f, (dstM (rev j)).view.loc (c : Thread nD τ) ↦[(dstM (rev j)).view.set]{fullShare} f) := by
  rw [payload_bar]; unfold barPay slotPts; rw [orig_peer]; rfl
theorem payload_bar_peer0 (c : Dev nD) : (a2aRd (F := F) m).payload (barCell (peer c 0)) 0 0
    = iprop(∃ f, (dstM 6).view.loc (c : Thread nD τ) ↦[(dstM 6).view.set]{fullShare} f) := payload_bar_peer m c 0
theorem payload_bar_peer1 (c : Dev nD) : (a2aRd (F := F) m).payload (barCell (peer c 1)) 0 1
    = iprop(∃ f, (dstM 5).view.loc (c : Thread nD τ) ↦[(dstM 5).view.set]{fullShare} f) := payload_bar_peer m c 1
theorem payload_bar_peer2 (c : Dev nD) : (a2aRd (F := F) m).payload (barCell (peer c 2)) 0 2
    = iprop(∃ f, (dstM 4).view.loc (c : Thread nD τ) ↦[(dstM 4).view.set]{fullShare} f) := payload_bar_peer m c 2
theorem payload_bar_peer3 (c : Dev nD) : (a2aRd (F := F) m).payload (barCell (peer c 3)) 0 3
    = iprop(∃ f, (dstM 3).view.loc (c : Thread nD τ) ↦[(dstM 3).view.set]{fullShare} f) := payload_bar_peer m c 3
theorem payload_bar_peer4 (c : Dev nD) : (a2aRd (F := F) m).payload (barCell (peer c 4)) 0 4
    = iprop(∃ f, (dstM 2).view.loc (c : Thread nD τ) ↦[(dstM 2).view.set]{fullShare} f) := payload_bar_peer m c 4
theorem payload_bar_peer5 (c : Dev nD) : (a2aRd (F := F) m).payload (barCell (peer c 5)) 0 5
    = iprop(∃ f, (dstM 1).view.loc (c : Thread nD τ) ↦[(dstM 1).view.set]{fullShare} f) := payload_bar_peer m c 5
theorem payload_bar_peer6 (c : Dev nD) : (a2aRd (F := F) m).payload (barCell (peer c 6)) 0 6
    = iprop(∃ f, (dstM 0).view.loc (c : Thread nD τ) ↦[(dstM 0).view.set]{fullShare} f) := payload_bar_peer m c 6
theorem payload_send_pts (c : Dev nD) (j d : Fin 7) : (a2aRd (F := F) m).payload (sendCell c j) 0 d
    = ((srcM c j).view.loc (c : Thread nD τ) ↦[(srcM c j).view.set]{fullShare} stageV m c : sProp 𝕄) := by rw [payload_send]; rfl
theorem payload_recv_own (c : Dev nD) (j d : Fin 7) : (a2aRd (F := F) m).payload (recvCell c j) 0 d
    = ((dstM j).view.loc (c : Thread nD τ) ↦[(dstM j).view.set]{fullShare} commV m c : sProp 𝕄) := by rw [payload_recv]; rfl

/-! ## The barrier round's payloads: the seven slots this device's copies write -/

theorem barPay_rev (c : Dev nD) (j : Fin 7) : barPay (F := F) c (rev j) = iprop(∃ f, slotPts (peer c j) j f) := by
  unfold barPay; rw [orig_rev, rev_rev]

theorem rest_bar (c : Dev nD) : bigSep Finset.univ (fun d : Fin 7 => (a2aRd (F := F) m).payload (barCell c) 0 d)
    = iprop((∃ f, slotPts (peer c 6) 6 f) ∗ (∃ f, slotPts (peer c 5) 5 f) ∗ (∃ f, slotPts (peer c 4) 4 f) ∗ (∃ f, slotPts (peer c 3) 3 f)
        ∗ (∃ f, slotPts (peer c 2) 2 f) ∗ (∃ f, slotPts (peer c 1) 1 f) ∗ (∃ f, slotPts (peer c 0) 0 f)) := by
  rw [bigSep_fin7]
  simp only [payload_bar]
  rw [← barPay_rev c 6, ← barPay_rev c 5, ← barPay_rev c 4, ← barPay_rev c 3, ← barPay_rev c 2, ← barPay_rev c 1, ← barPay_rev c 0]
  rfl

/-! ## One copy -/

theorem amount_dst (j : Fin 7) : (dstM j : Memref sig .tc .vmem S128x128 .bf16).view.amount (.dma (recvSem j)) = N := by
  fin_cases j <;> rfl

/-- Copy `j` of device `c`, addressed to `n = peer c j`: it lends the source rows to the send cell, pays the addressee's
    receive cell with the slot rewritten, and leaves the credit to wait for the departure. -/
theorem wp_send_a2a (K : Dev nD × CK → ℕ) (c n : Dev nD) (j : Fin 7) (hn : n = peer c j)
    {hsc : (dstM j : Memref sig (Dev.tc n : Thread nD τ).2.kind .vmem S128x128 .bf16).view.ref.isScScratch = false}
    {hsrc : (srcM c j : Memref sig .tc .vmem S128x128 .bf16).view.WordExact} {hdst : (dstM j : Memref sig .tc .vmem S128x128 .bf16).view.WordExact}
    {hsem : DmaTarget.Typed .vmem (.dma (recvSem j)) (.remote (Dev.tc n : Thread nD τ) (dstM j : Memref sig .tc .vmem S128x128 .bf16) (.dma (sendSem j)) hsc)}
    {α : Type} {Q : α → sProp 𝕄} {k : PUnit → Prog (TpuEff nD τ sig (Elt F) Λ₀ .tc) α}
    (fd : Buf (Elt F) ((dstM j : Memref sig .tc .vmem S128x128 .bf16).view.loc (peer c j : Thread nD τ)))
    (O₁ O : CellTallies nD τ sig Unit) (hO : O₁ = O + tallyAt (recvCell (peer c j) j) () N) (W : Waits sig Unit) :
    iprop(cellInv ER (a2aRd m) (K (c, some (false, j))) (sendCell c j) ∗ cellInv ER (a2aRd m) (K (peer c j, some (true, j))) (recvCell (peer c j) j)
        ∗ srcPts c j (stageV m c) ∗ slotPts (peer c j) j fd
        ∗ owes (c : Thread nD τ) O₁ W
        ∗ dutyTok ER (sendCell c j) 0 0 ∗ reached ER (sendCell c j) 0
        ∗ dutyTok ER (recvCell (peer c j) j) 0 0 ∗ reached ER (recvCell (peer c j) j) 0)
      ⊢ iprop(((cred (tallyAt (sendCell c j) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (srcM c j) (.remote (Dev.tc n : Thread nD τ) (dstM j) (.dma (sendSem j)) hsc) (.dma (recvSem j)) hsrc hdst hsem) k) Q) := by
  subst hn
  unfold srcPts slotPts
  exact Rounds.wp_send_pointsTo 𝒱₀ ER (a2aRd m) (c : Thread nD τ) none (κ₁ := K (c, some (false, j))) (κ₂ := K (peer c j, some (true, j)))
    (r₁ := 0) (r₂ := 0) (d₁ := 0) (d₂ := 0) (fd := fd)
    (by rw [duties_send]; exact Finset.mem_singleton_self _) (by rw [duties_recv]; exact Finset.mem_singleton_self _)
    () () N (amount_dst j) (amount_send m c j 0) (amount_recv m (peer c j) j 0) O hO (W := W)
    (by rw [payload_send]; exact BI.Entails.refl _)
    (by rw [payload_recv]; exact Entails.of_eq (slotPts_landed m c j fd))

/-! ## Pieces of the buffers under opaque names -/

/-- Source rows of the stage buffer, its own row block, and a receive slot, each under an opaque name. -/
@[irreducible] def parkSrc (c : Dev nD) (j : Fin 7) (f : Buf (Elt F) ((c : Thread nD τ).loc cc0_scratch0)) : sProp 𝕄 := srcPts c j f
theorem parkSrc_def (c : Dev nD) (j : Fin 7) (f : Buf (Elt F) ((c : Thread nD τ).loc cc0_scratch0)) : parkSrc c j f = srcPts c j f := by unfold parkSrc; rfl
@[irreducible] def parkRest (c : Dev nD) (f : Buf (Elt F) ((c : Thread nD τ).loc cc0_scratch0)) : sProp 𝕄 := stageRest c f
theorem parkRest_def (c : Dev nD) (f : Buf (Elt F) ((c : Thread nD τ).loc cc0_scratch0)) : parkRest c f = stageRest c f := by unfold parkRest; rfl
@[irreducible] def parkDst (c : Dev nD) (j : Fin 7) (f : Buf (Elt F) ((c : Thread nD τ).loc cc0_scratch1)) : sProp 𝕄 := slotPts c j f
theorem parkDst_def (c : Dev nD) (j : Fin 7) (f : Buf (Elt F) ((c : Thread nD τ).loc cc0_scratch1)) : parkDst c j f = slotPts c j f := by unfold parkDst; rfl

/-- The stage buffer, whole, as its seven source pieces and its own row block, each under its opaque name; and back. -/
theorem stage_split_park (c : Dev nD) (f : Buf (Elt F) ((c : Thread nD τ).loc cc0_scratch0)) :
    ((stM : Memref sig .tc .vmem S1024x128 .bf16).view.loc (c : Thread nD τ) ↦[(stM : Memref sig .tc .vmem S1024x128 .bf16).view.set]{fullShare} f : sProp 𝕄)
      ⊢ iprop(parkSrc c 0 f ∗ parkSrc c 1 f ∗ parkSrc c 2 f ∗ parkSrc c 3 f ∗ parkSrc c 4 f ∗ parkSrc c 5 f ∗ parkSrc c 6 f ∗ parkRest c f) := by
  simp only [parkSrc_def, parkRest_def]
  rw [show ((stM : Memref sig .tc .vmem S1024x128 .bf16).view.loc (c : Thread nD τ) ↦[(stM : Memref sig .tc .vmem S1024x128 .bf16).view.set]{fullShare} f : sProp 𝕄)
      = (((c : Thread nD τ).loc cc0_scratch0) ↦{fullShare} f) from by rw [View.set_whole]]
  exact (stage_split c f).1
theorem stage_join_park (c : Dev nD) (f : Buf (Elt F) ((c : Thread nD τ).loc cc0_scratch0)) :
    iprop(parkSrc c 0 f ∗ parkSrc c 1 f ∗ parkSrc c 2 f ∗ parkSrc c 3 f ∗ parkSrc c 4 f ∗ parkSrc c 5 f ∗ parkSrc c 6 f ∗ parkRest c f)
      ⊢ (((c : Thread nD τ).loc cc0_scratch0) ↦{fullShare} f : sProp 𝕄) := by
  simp only [parkSrc_def, parkRest_def]
  exact (stage_split c f).2
theorem comm_join (c : Dev nD) (f : Buf (Elt F) ((c : Thread nD τ).loc cc0_scratch1)) :
    iprop(slotPts c 0 f ∗ slotPts c 1 f ∗ slotPts c 2 f ∗ slotPts c 3 f ∗ slotPts c 4 f ∗ slotPts c 5 f ∗ slotPts c 6 f)
      ⊢ (((c : Thread nD τ).loc cc0_scratch1) ↦{fullShare} f : sProp 𝕄) := (comm_split c f).2

/-- The barrier round's payloads, each slot under its opaque name. -/
theorem rest_bar_park (c : Dev nD) : bigSep Finset.univ (fun d : Fin 7 => (a2aRd (F := F) m).payload (barCell c) 0 d)
    = iprop((∃ f, parkDst (peer c 6) 6 f) ∗ (∃ f, parkDst (peer c 5) 5 f) ∗ (∃ f, parkDst (peer c 4) 4 f) ∗ (∃ f, parkDst (peer c 3) 3 f)
        ∗ (∃ f, parkDst (peer c 2) 2 f) ∗ (∃ f, parkDst (peer c 1) 1 f) ∗ (∃ f, parkDst (peer c 0) 0 f)) := by
  simp only [parkDst_def]; exact rest_bar m c

/-! ## The end of the body: buffers whole again, semaphores closed -/

theorem parkSrc_pts (c : Dev nD) (j : Fin 7) (f : Buf (Elt F) ((c : Thread nD τ).loc cc0_scratch0)) :
    parkSrc c j f = ((srcM c j).view.loc (c : Thread nD τ) ↦[(srcM c j).view.set]{fullShare} f : sProp 𝕄) := by unfold parkSrc srcPts; rfl

/-- A store through the whole result block, over whatever was there, leaves the stored vector. -/
theorem out_written (c : Dev nD) (g2 : Buf (Elt F) ((c : Thread nD τ).loc cc0_stg2_0)) (v : FVec F S128x1024 .f32) :
    (oM : Memref sig .tc .vmem S128x1024 .f32).view.writes (Elt F) g2
      [⟨Rect.unit (s := S128x1024) ![0, 0] S128x1024.size inb_S128x1024_S128x1024_0_0, v⟩] = v := by
  rw [View.writes_singleton]
  exact Memref.write_access_unit_zero_univ (Elt F) cc0_stg2_0 zeros2 _ _ _

theorem closedSems_flat (c : Dev nD) : closedSems (F := F) c
    = iprop((semVal (sendCell c 0) 0 ∗ semVal (sendCell c 1) 0 ∗ semVal (sendCell c 2) 0 ∗ semVal (sendCell c 3) 0 ∗ semVal (sendCell c 4) 0 ∗ semVal (sendCell c 5) 0 ∗ semVal (sendCell c 6) 0)
        ∗ (semVal (recvCell c 0) 0 ∗ semVal (recvCell c 1) 0 ∗ semVal (recvCell c 2) 0 ∗ semVal (recvCell c 3) 0 ∗ semVal (recvCell c 4) 0 ∗ semVal (recvCell c 5) 0 ∗ semVal (recvCell c 6) 0)) := by
  unfold closedSems; rw [bigSep_fin7, bigSep_fin7]

/-- The returned source pieces with the own rows make the stage buffer whole, the seven landed slots the receive buffer. -/
theorem finish_scratch (c : Dev nD) (f2 : Buf (Elt F) ((c : Thread nD τ).loc cc0_scratch2)) :
    iprop(((srcM c 0).view.loc (c : Thread nD τ) ↦[(srcM c 0).view.set]{fullShare} stageV m c)
        ∗ ((srcM c 1).view.loc (c : Thread nD τ) ↦[(srcM c 1).view.set]{fullShare} stageV m c)
        ∗ ((srcM c 2).view.loc (c : Thread nD τ) ↦[(srcM c 2).view.set]{fullShare} stageV m c)
        ∗ ((srcM c 3).view.loc (c : Thread nD τ) ↦[(srcM c 3).view.set]{fullShare} stageV m c)
        ∗ ((srcM c 4).view.loc (c : Thread nD τ) ↦[(srcM c 4).view.set]{fullShare} stageV m c)
        ∗ ((srcM c 5).view.loc (c : Thread nD τ) ↦[(srcM c 5).view.set]{fullShare} stageV m c)
        ∗ ((srcM c 6).view.loc (c : Thread nD τ) ↦[(srcM c 6).view.set]{fullShare} stageV m c)
        ∗ parkRest c (stageV m c)
        ∗ ((dstM 0).view.loc (c : Thread nD τ) ↦[(dstM 0).view.set]{fullShare} commV m c)
        ∗ ((dstM 1).view.loc (c : Thread nD τ) ↦[(dstM 1).view.set]{fullShare} commV m c)
        ∗ ((dstM 2).view.loc (c : Thread nD τ) ↦[(dstM 2).view.set]{fullShare} commV m c)
        ∗ ((dstM 3).view.loc (c : Thread nD τ) ↦[(dstM 3).view.set]{fullShare} commV m c)
        ∗ ((dstM 4).view.loc (c : Thread nD τ) ↦[(dstM 4).view.set]{fullShare} commV m c)
        ∗ ((dstM 5).view.loc (c : Thread nD τ) ↦[(dstM 5).view.set]{fullShare} commV m c)
        ∗ ((dstM 6).view.loc (c : Thread nD τ) ↦[(dstM 6).view.set]{fullShare} commV m c)
        ∗ ((wbM : Memref sig .tc .vmem S1024x1024 .bf16).view.loc (c : Thread nD τ) ↦[(wbM : Memref sig .tc .vmem S1024x1024 .bf16).view.set]{fullShare} f2))
      ⊢ scratch (F := F) c := by
  unfold scratch
  iintro ⟨H0, H1, H2, H3, H4, H5, H6, Hr, G0, G1, G2, G3, G4, G5, G6, Hwb⟩
  isplitl [H0 H1 H2 H3 H4 H5 H6 Hr]
  · iexists (stageV m c)
    iapply (stage_join_park c (stageV m c))
    ihave H0 := (Entails.of_eq (parkSrc_pts c 0 (stageV m c)).symm) $$ H0
    ihave H1 := (Entails.of_eq (parkSrc_pts c 1 (stageV m c)).symm) $$ H1
    ihave H2 := (Entails.of_eq (parkSrc_pts c 2 (stageV m c)).symm) $$ H2
    ihave H3 := (Entails.of_eq (parkSrc_pts c 3 (stageV m c)).symm) $$ H3
    ihave H4 := (Entails.of_eq (parkSrc_pts c 4 (stageV m c)).symm) $$ H4
    ihave H5 := (Entails.of_eq (parkSrc_pts c 5 (stageV m c)).symm) $$ H5
    ihave H6 := (Entails.of_eq (parkSrc_pts c 6 (stageV m c)).symm) $$ H6
    isplitl [H0]; · iexact H0
    isplitl [H1]; · iexact H1
    isplitl [H2]; · iexact H2
    isplitl [H3]; · iexact H3
    isplitl [H4]; · iexact H4
    isplitl [H5]; · iexact H5
    isplitl [H6]; · iexact H6
    iexact Hr
  isplitl [G0 G1 G2 G3 G4 G5 G6]
  · iexists (commV m c)
    iapply (comm_join c (commV m c))
    unfold slotPts
    isplitl [G0]; · iexact G0
    isplitl [G1]; · iexact G1
    isplitl [G2]; · iexact G2
    isplitl [G3]; · iexact G3
    isplitl [G4]; · iexact G4
    isplitl [G5]; · iexact G5
    iexact G6
  · iexists f2
    iapply (Entails.of_eq (whole_pts c cc0_scratch2 f2))
    iexact Hwb

end Cert.Kernel.A2a

end
-- ==== Proof.KBody.lean ====
/-
  The body on one device: from the flat context of its obligation, through the seven signals, the two conversions and the
  local product, the barrier wait, the seven copies, the seven receive waits each followed by its product, the store of
  the result and the seven send waits, to the flat post: scratch buffers whole, exchange semaphores closed, nothing owed,
  inputs unchanged, the result block holding the composed payloads of the loaded blocks.
-/
import proofs.«900403_g7700000000000404_dist_a2a_gemm_m1024_k1024_n1024_f32_gelu_v7x_i8_1_alg».proof.Proof.KBodyLemmas
import proofs.«900403_g7700000000000404_dist_a2a_gemm_m1024_k1024_n1024_f32_gelu_v7x_i8_1_alg».proof.Proof.KWritten

noncomputable section

namespace Cert.Kernel.A2a

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

open Idealize.ShloMosaic.Tactic
variable (m : (ℓ : Loc nD τ sig) → Buf (Elt F) ℓ)

attribute [local irreducible] peer orig rev
attribute [local sl_rounds] duties_bar duties_send duties_recv amount_bar amount_send amount_recv expect_bar expect_send expect_recv payload_send_pts payload_recv_own payload_bar_peer0 payload_bar_peer1 payload_bar_peer2 payload_bar_peer3 payload_bar_peer4 payload_bar_peer5 payload_bar_peer6
attribute [local sl_canon] dev1_eq dev2_eq dev3_eq dev4_eq dev5_eq dev6_eq dev7_eq dev8_eq dev9_eq dev10_eq dev11_eq dev12_eq dev13_eq dev14_eq

set_option maxHeartbeats 4000000 in
theorem sound_flat : SoundFlat (F := F) m := by
  intro K c W g2 f0 f1 f2
  iintro ⟨#HIbar, #HIs0, #HIs1, #HIs2, #HIs3, #HIs4, #HIs5, #HIs6, #HIr0, #HIr1, #HIr2, #HIr3, #HIr4, #HIr5, #HIr6, #HIbp0, #HIbp1, #HIbp2, #HIbp3, #HIbp4, #HIbp5, #HIbp6, #HIrp0, #HIrp1, #HIrp2, #HIrp3, #HIrp4, #HIrp5, #HIrp6, #HRbp0, #HRbp1, #HRbp2, #HRbp3, #HRbp4, #HRbp5, #HRbp6, #HRrp0, #HRrp1, #HRrp2, #HRrp3, #HRrp4, #HRrp5, #HRrp6, #HRs0, #HRs1, #HRs2, #HRs3, #HRs4, #HRs5, #HRs6, #Hlev, HatB, HatS0, HatS1, HatS2, HatS3, HatS4, HatS5, HatS6, HatR0, HatR1, HatR2, HatR3, HatR4, HatR5, HatR6, HtB0, HtB1, HtB2, HtB3, HtB4, HtB5, HtB6, HtR0, HtR1, HtR2, HtR3, HtR4, HtR5, HtR6, HtS0, HtS1, HtS2, HtS3, HtS4, HtS5, HtS6, HcB, HcR0, HcR1, HcR2, HcR3, HcR4, HcR5, HcR6, HO, Hx, Hw, Hout, Hst, Hsl0, Hsl1, Hsl2, Hsl3, Hsl4, Hsl5, Hsl6, Hwb⟩
  ihave HO := (Entails.of_eq (congrArg (fun O => (owes (c : Thread nD τ) O W : sProp 𝕄)) (O₀_sum c))) $$ HO
  sl_unfold [cc0_body]
  have hmw : (levAts L lv : sProp 𝕄) ⊢ MayWait (c : Thread nD τ) (.reg barS) () (tallyAt (recvCell (peer c 6) 6) () N + tallyAt (recvCell (peer c 5) 5) () N + tallyAt (recvCell (peer c 4) 4) () N + tallyAt (recvCell (peer c 3) 3) () N + tallyAt (recvCell (peer c 2) 2) () N + tallyAt (recvCell (peer c 1) 1) () N + tallyAt (recvCell (peer c 0) 0) () N) := mayWait_bar c
  ihave Hs6 := (Entails.of_eq (parkSlot_eq c 6 f1)) $$ Hsl6
  sl_exec
  ihave Hs5 := (Entails.of_eq (parkSlot_eq c 5 f1)) $$ Hsl5
  sl_exec
  ihave Hs4 := (Entails.of_eq (parkSlot_eq c 4 f1)) $$ Hsl4
  sl_exec
  ihave Hs3 := (Entails.of_eq (parkSlot_eq c 3 f1)) $$ Hsl3
  sl_exec
  ihave Hs2 := (Entails.of_eq (parkSlot_eq c 2 f1)) $$ Hsl2
  sl_exec
  ihave Hs1 := (Entails.of_eq (parkSlot_eq c 1 f1)) $$ Hsl1
  sl_exec
  ihave Hs0 := (Entails.of_eq (parkSlot_eq c 0 f1)) $$ Hsl0
  sl_exec
  -- the stage buffer holds the converted block; cut it into the seven source pieces and the own rows
  have hst : (stM : Memref sig .tc .vmem S1024x128 .bf16).view.writes (Elt F) (stM : Memref sig .tc .vmem S1024x128 .bf16).view.junk (sound_flat.sl.Hst_1 m c) = stageV m c := stage_written m c
  have hwb : (wbM : Memref sig .tc .vmem S1024x1024 .bf16).view.writes (Elt F) (wbM : Memref sig .tc .vmem S1024x1024 .bf16).view.junk (sound_flat.sl.Hwb_1 m c) = wbV m c := wb_written m c
  ihave Hst := (Entails.of_eq (congrArg (fun f => ((stM : Memref sig .tc .vmem S1024x128 .bf16).view.loc (c : Thread nD τ) ↦[(stM : Memref sig .tc .vmem S1024x128 .bf16).view.set]{fullShare} f : sProp 𝕄)) hst)) $$ Hst
  ihave Hst := (stage_split_park c (stageV m c)) $$ Hst
  icases Hst with ⟨Hsrc0, Hsrc1, Hsrc2, Hsrc3, Hsrc4, Hsrc5, Hsrc6, Hrest⟩
  -- the barrier round handed over the seven slots this device's copies write
  ihave Hp := (Entails.of_eq (rest_bar_park m c)) $$ HatB_pay1
  icases Hp with ⟨⟨%fd6, Hd6⟩, ⟨%fd5, Hd5⟩, ⟨%fd4, Hd4⟩, ⟨%fd3, Hd3⟩, ⟨%fd2, Hd2⟩, ⟨%fd1, Hd1⟩, ⟨%fd0, Hd0⟩⟩
  -- copy 0
  ihave Hsrc0 := (Entails.of_eq (parkSrc_def c 0 _)) $$ Hsrc0
  ihave Hd0 := (Entails.of_eq (parkDst_def (peer c 0) 0 _)) $$ Hd0
  iapply (wp_send_a2a m K c _ 0 (dev8_eq c) fd0 (tallyAt (recvCell (peer c 6) 6) () N + tallyAt (recvCell (peer c 5) 5) () N + tallyAt (recvCell (peer c 4) 4) () N + tallyAt (recvCell (peer c 3) 3) () N + tallyAt (recvCell (peer c 2) 2) () N + tallyAt (recvCell (peer c 1) 1) () N + tallyAt (recvCell (peer c 0) 0) () N) (tallyAt (recvCell (peer c 6) 6) () N + tallyAt (recvCell (peer c 5) 5) () N + tallyAt (recvCell (peer c 4) 4) () N + tallyAt (recvCell (peer c 3) 3) () N + tallyAt (recvCell (peer c 2) 2) () N + tallyAt (recvCell (peer c 1) 1) () N) rfl _) $$ [Hsrc0 Hd0 HO HtS0 HtR0]
  · isplitr; · iexact HIs0
    isplitr; · iexact HIrp0
    isplitl [Hsrc0]; · iexact Hsrc0
    isplitl [Hd0]; · iexact Hd0
    isplitl [HO]; · iexact HO
    isplitl [HtS0]; · iexact HtS0
    isplitr; · iexact HRs0
    isplitl [HtR0]; · iexact HtR0
    iexact HRrp0
  iintro ⟨HcS0, HO⟩
  sl_exec
  -- copy 1
  ihave Hsrc1 := (Entails.of_eq (parkSrc_def c 1 _)) $$ Hsrc1
  ihave Hd1 := (Entails.of_eq (parkDst_def (peer c 1) 1 _)) $$ Hd1
  iapply (wp_send_a2a m K c _ 1 (dev9_eq c) fd1 (tallyAt (recvCell (peer c 6) 6) () N + tallyAt (recvCell (peer c 5) 5) () N + tallyAt (recvCell (peer c 4) 4) () N + tallyAt (recvCell (peer c 3) 3) () N + tallyAt (recvCell (peer c 2) 2) () N + tallyAt (recvCell (peer c 1) 1) () N) (tallyAt (recvCell (peer c 6) 6) () N + tallyAt (recvCell (peer c 5) 5) () N + tallyAt (recvCell (peer c 4) 4) () N + tallyAt (recvCell (peer c 3) 3) () N + tallyAt (recvCell (peer c 2) 2) () N) rfl _) $$ [Hsrc1 Hd1 HO HtS1 HtR1]
  · isplitr; · iexact HIs1
    isplitr; · iexact HIrp1
    isplitl [Hsrc1]; · iexact Hsrc1
    isplitl [Hd1]; · iexact Hd1
    isplitl [HO]; · iexact HO
    isplitl [HtS1]; · iexact HtS1
    isplitr; · iexact HRs1
    isplitl [HtR1]; · iexact HtR1
    iexact HRrp1
  iintro ⟨HcS1, HO⟩
  sl_exec
  -- copy 2
  ihave Hsrc2 := (Entails.of_eq (parkSrc_def c 2 _)) $$ Hsrc2
  ihave Hd2 := (Entails.of_eq (parkDst_def (peer c 2) 2 _)) $$ Hd2
  iapply (wp_send_a2a m K c _ 2 (dev10_eq c) fd2 (tallyAt (recvCell (peer c 6) 6) () N + tallyAt (recvCell (peer c 5) 5) () N + tallyAt (recvCell (peer c 4) 4) () N + tallyAt (recvCell (peer c 3) 3) () N + tallyAt (recvCell (peer c 2) 2) () N) (tallyAt (recvCell (peer c 6) 6) () N + tallyAt (recvCell (peer c 5) 5) () N + tallyAt (recvCell (peer c 4) 4) () N + tallyAt (recvCell (peer c 3) 3) () N) rfl _) $$ [Hsrc2 Hd2 HO HtS2 HtR2]
  · isplitr; · iexact HIs2
    isplitr; · iexact HIrp2
    isplitl [Hsrc2]; · iexact Hsrc2
    isplitl [Hd2]; · iexact Hd2
    isplitl [HO]; · iexact HO
    isplitl [HtS2]; · iexact HtS2
    isplitr; · iexact HRs2
    isplitl [HtR2]; · iexact HtR2
    iexact HRrp2
  iintro ⟨HcS2, HO⟩
  sl_exec
  -- copy 3
  ihave Hsrc3 := (Entails.of_eq (parkSrc_def c 3 _)) $$ Hsrc3
  ihave Hd3 := (Entails.of_eq (parkDst_def (peer c 3) 3 _)) $$ Hd3
  iapply (wp_send_a2a m K c _ 3 (dev11_eq c) fd3 (tallyAt (recvCell (peer c 6) 6) () N + tallyAt (recvCell (peer c 5) 5) () N + tallyAt (recvCell (peer c 4) 4) () N + tallyAt (recvCell (peer c 3) 3) () N) (tallyAt (recvCell (peer c 6) 6) () N + tallyAt (recvCell (peer c 5) 5) () N + tallyAt (recvCell (peer c 4) 4) () N) rfl _) $$ [Hsrc3 Hd3 HO HtS3 HtR3]
  · isplitr; · iexact HIs3
    isplitr; · iexact HIrp3
    isplitl [Hsrc3]; · iexact Hsrc3
    isplitl [Hd3]; · iexact Hd3
    isplitl [HO]; · iexact HO
    isplitl [HtS3]; · iexact HtS3
    isplitr; · iexact HRs3
    isplitl [HtR3]; · iexact HtR3
    iexact HRrp3
  iintro ⟨HcS3, HO⟩
  sl_exec
  -- copy 4
  ihave Hsrc4 := (Entails.of_eq (parkSrc_def c 4 _)) $$ Hsrc4
  ihave Hd4 := (Entails.of_eq (parkDst_def (peer c 4) 4 _)) $$ Hd4
  iapply (wp_send_a2a m K c _ 4 (dev12_eq c) fd4 (tallyAt (recvCell (peer c 6) 6) () N + tallyAt (recvCell (peer c 5) 5) () N + tallyAt (recvCell (peer c 4) 4) () N) (tallyAt (recvCell (peer c 6) 6) () N + tallyAt (recvCell (peer c 5) 5) () N) rfl _) $$ [Hsrc4 Hd4 HO HtS4 HtR4]
  · isplitr; · iexact HIs4
    isplitr; · iexact HIrp4
    isplitl [Hsrc4]; · iexact Hsrc4
    isplitl [Hd4]; · iexact Hd4
    isplitl [HO]; · iexact HO
    isplitl [HtS4]; · iexact HtS4
    isplitr; · iexact HRs4
    isplitl [HtR4]; · iexact HtR4
    iexact HRrp4
  iintro ⟨HcS4, HO⟩
  sl_exec
  -- copy 5
  ihave Hsrc5 := (Entails.of_eq (parkSrc_def c 5 _)) $$ Hsrc5
  ihave Hd5 := (Entails.of_eq (parkDst_def (peer c 5) 5 _)) $$ Hd5
  iapply (wp_send_a2a m K c _ 5 (dev13_eq c) fd5 (tallyAt (recvCell (peer c 6) 6) () N + tallyAt (recvCell (peer c 5) 5) () N) (tallyAt (recvCell (peer c 6) 6) () N) rfl _) $$ [Hsrc5 Hd5 HO HtS5 HtR5]
  · isplitr; · iexact HIs5
    isplitr; · iexact HIrp5
    isplitl [Hsrc5]; · iexact Hsrc5
    isplitl [Hd5]; · iexact Hd5
    isplitl [HO]; · iexact HO
    isplitl [HtS5]; · iexact HtS5
    isplitr; · iexact HRs5
    isplitl [HtR5]; · iexact HtR5
    iexact HRrp5
  iintro ⟨HcS5, HO⟩
  sl_exec
  -- copy 6
  ihave Hsrc6 := (Entails.of_eq (parkSrc_def c 6 _)) $$ Hsrc6
  ihave Hd6 := (Entails.of_eq (parkDst_def (peer c 6) 6 _)) $$ Hd6
  iapply (wp_send_a2a m K c _ 6 (dev14_eq c) fd6 (tallyAt (recvCell (peer c 6) 6) () N) (0) (zero_add _).symm _) $$ [Hsrc6 Hd6 HO HtS6 HtR6]
  · isplitr; · iexact HIs6
    isplitr; · iexact HIrp6
    isplitl [Hsrc6]; · iexact Hsrc6
    isplitl [Hd6]; · iexact Hd6
    isplitl [HO]; · iexact HO
    isplitl [HtS6]; · iexact HtS6
    isplitr; · iexact HRs6
    isplitl [HtR6]; · iexact HtR6
    iexact HRrp6
  iintro ⟨HcS6, HO⟩
  sl_exec
  -- the fourteen exchange cells close: their counters at zero are the device's again
  imod (Rounds.cell_close ER (a2aRd m) (Set.mem_univ (K (c, some (false, 0)))) (fun h => h) (R := 1) (duties_later m (sendCell c 0))) $$ [HatS0] with HzS0
  · isplitr; · iexact HIs0
    iexact HatS0
  imod (Rounds.cell_close ER (a2aRd m) (Set.mem_univ (K (c, some (false, 1)))) (fun h => h) (R := 1) (duties_later m (sendCell c 1))) $$ [HatS1] with HzS1
  · isplitr; · iexact HIs1
    iexact HatS1
  imod (Rounds.cell_close ER (a2aRd m) (Set.mem_univ (K (c, some (false, 2)))) (fun h => h) (R := 1) (duties_later m (sendCell c 2))) $$ [HatS2] with HzS2
  · isplitr; · iexact HIs2
    iexact HatS2
  imod (Rounds.cell_close ER (a2aRd m) (Set.mem_univ (K (c, some (false, 3)))) (fun h => h) (R := 1) (duties_later m (sendCell c 3))) $$ [HatS3] with HzS3
  · isplitr; · iexact HIs3
    iexact HatS3
  imod (Rounds.cell_close ER (a2aRd m) (Set.mem_univ (K (c, some (false, 4)))) (fun h => h) (R := 1) (duties_later m (sendCell c 4))) $$ [HatS4] with HzS4
  · isplitr; · iexact HIs4
    iexact HatS4
  imod (Rounds.cell_close ER (a2aRd m) (Set.mem_univ (K (c, some (false, 5)))) (fun h => h) (R := 1) (duties_later m (sendCell c 5))) $$ [HatS5] with HzS5
  · isplitr; · iexact HIs5
    iexact HatS5
  imod (Rounds.cell_close ER (a2aRd m) (Set.mem_univ (K (c, some (false, 6)))) (fun h => h) (R := 1) (duties_later m (sendCell c 6))) $$ [HatS6] with HzS6
  · isplitr; · iexact HIs6
    iexact HatS6
  imod (Rounds.cell_close ER (a2aRd m) (Set.mem_univ (K (c, some (true, 0)))) (fun h => h) (R := 1) (duties_later m (recvCell c 0))) $$ [HatR0] with HzR0
  · isplitr; · iexact HIr0
    iexact HatR0
  imod (Rounds.cell_close ER (a2aRd m) (Set.mem_univ (K (c, some (true, 1)))) (fun h => h) (R := 1) (duties_later m (recvCell c 1))) $$ [HatR1] with HzR1
  · isplitr; · iexact HIr1
    iexact HatR1
  imod (Rounds.cell_close ER (a2aRd m) (Set.mem_univ (K (c, some (true, 2)))) (fun h => h) (R := 1) (duties_later m (recvCell c 2))) $$ [HatR2] with HzR2
  · isplitr; · iexact HIr2
    iexact HatR2
  imod (Rounds.cell_close ER (a2aRd m) (Set.mem_univ (K (c, some (true, 3)))) (fun h => h) (R := 1) (duties_later m (recvCell c 3))) $$ [HatR3] with HzR3
  · isplitr; · iexact HIr3
    iexact HatR3
  imod (Rounds.cell_close ER (a2aRd m) (Set.mem_univ (K (c, some (true, 4)))) (fun h => h) (R := 1) (duties_later m (recvCell c 4))) $$ [HatR4] with HzR4
  · isplitr; · iexact HIr4
    iexact HatR4
  imod (Rounds.cell_close ER (a2aRd m) (Set.mem_univ (K (c, some (true, 5)))) (fun h => h) (R := 1) (duties_later m (recvCell c 5))) $$ [HatR5] with HzR5
  · isplitr; · iexact HIr5
    iexact HatR5
  imod (Rounds.cell_close ER (a2aRd m) (Set.mem_univ (K (c, some (true, 6)))) (fun h => h) (R := 1) (duties_later m (recvCell c 6))) $$ [HatR6] with HzR6
  · isplitr; · iexact HIr6
    iexact HatR6
  -- what the result block holds
  have hout : k0_pay11 (sound_flat.sl.r_6 m c) (sound_flat.sl.r_7 m c) = outAt m c := by
    unfold sound_flat.sl.r_6 sound_flat.sl.r_7 sound_flat.sl.r_5 sound_flat.sl.r_4 sound_flat.sl.r_3 sound_flat.sl.r_2 sound_flat.sl.r_1 sound_flat.sl.r
    rw [hst, hwb]
    rfl
  ihave Hout := (Entails.of_eq (congrArg (fun f => ((oM : Memref sig .tc .vmem S128x1024 .f32).view.loc (c : Thread nD τ) ↦[(oM : Memref sig .tc .vmem S128x1024 .f32).view.set]{fullShare} f : sProp 𝕄)) ((out_written c g2 _).trans hout))) $$ Hout
  sl_step
  unfold postFlat
  isplitl [HatS0_pay1 HatS1_pay1 HatS2_pay1 HatS3_pay1 HatS4_pay1 HatS5_pay1 HatS6_pay1 Hrest HatR0_pay1 HatR1_pay1 HatR2_pay1 HatR3_pay1 HatR4_pay1 HatR5_pay1 HatR6_pay1 Hwb]
  · iapply (finish_scratch m c _)
    isplitl [HatS0_pay1]; · iexact HatS0_pay1
    isplitl [HatS1_pay1]; · iexact HatS1_pay1
    isplitl [HatS2_pay1]; · iexact HatS2_pay1
    isplitl [HatS3_pay1]; · iexact HatS3_pay1
    isplitl [HatS4_pay1]; · iexact HatS4_pay1
    isplitl [HatS5_pay1]; · iexact HatS5_pay1
    isplitl [HatS6_pay1]; · iexact HatS6_pay1
    isplitl [Hrest]; · iexact Hrest
    isplitl [HatR0_pay1]; · iexact HatR0_pay1
    isplitl [HatR1_pay1]; · iexact HatR1_pay1
    isplitl [HatR2_pay1]; · iexact HatR2_pay1
    isplitl [HatR3_pay1]; · iexact HatR3_pay1
    isplitl [HatR4_pay1]; · iexact HatR4_pay1
    isplitl [HatR5_pay1]; · iexact HatR5_pay1
    isplitl [HatR6_pay1]; · iexact HatR6_pay1
    iexact Hwb
  isplitl [HzS0 HzS1 HzS2 HzS3 HzS4 HzS5 HzS6 HzR0 HzR1 HzR2 HzR3 HzR4 HzR5 HzR6]
  · iapply (Entails.of_eq (closedSems_flat c).symm)
    isplitl [HzS0 HzS1 HzS2 HzS3 HzS4 HzS5 HzS6]
    · isplitl [HzS0]; · iexact HzS0
      isplitl [HzS1]; · iexact HzS1
      isplitl [HzS2]; · iexact HzS2
      isplitl [HzS3]; · iexact HzS3
      isplitl [HzS4]; · iexact HzS4
      isplitl [HzS5]; · iexact HzS5
      iexact HzS6
    isplitl [HzR0]; · iexact HzR0
    isplitl [HzR1]; · iexact HzR1
    isplitl [HzR2]; · iexact HzR2
    isplitl [HzR3]; · iexact HzR3
    isplitl [HzR4]; · iexact HzR4
    isplitl [HzR5]; · iexact HzR5
    iexact HzR6
  isplitl [HO]
  · iexists _; iexact HO
  isplitl [Hx]; · iexact Hx
  isplitl [Hw]; · iexact Hw
  iexact Hout

/-- info: 'Cert.Kernel.A2a.sound_flat' depends on axioms: [propext, Classical.choice, Quot.sound] -/
#guard_msgs in #print axioms sound_flat

end Cert.Kernel.A2a

end
-- ==== Proof.RefFrame.lean ====
/-
  The reference program's run, read back: every weakly fair execution of the one-device reference terminates with each
  result at the composed term of its arguments; its frame is that run with the result dropped.
-/
import proofs.«900403_g7700000000000404_dist_a2a_gemm_m1024_k1024_n1024_f32_gelu_v7x_i8_1_alg».proof.Defs
import proofs.«900403_g7700000000000404_dist_a2a_gemm_m1024_k1024_n1024_f32_gelu_v7x_i8_1_alg».proof.Proof.Gen.ReferenceIdeal
import proofs.«900403_g7700000000000404_dist_a2a_gemm_m1024_k1024_n1024_f32_gelu_v7x_i8_1_alg».proof.Proof.Gen.Pre_finite_inputs_ReferenceIdeal
import proofs.«900403_g7700000000000404_dist_a2a_gemm_m1024_k1024_n1024_f32_gelu_v7x_i8_1_alg».proof.Proof.Gen.ReferenceIdeal.Run
import proofs.«900403_g7700000000000404_dist_a2a_gemm_m1024_k1024_n1024_f32_gelu_v7x_i8_1_alg».proof.Proof.Gen.ReferenceIdeal.Read

noncomputable section

namespace Cert.Proof.RefFrame

open Idealize.ShloMosaic Idealize.SL.Sem

/-- The reference runs to the end without a fault and leaves both argument arrays as they were. -/
theorem frame_ri : Cert.frame_ReferenceIdeal := fun m ρ _ =>
  (θ_run Cert.ReferenceIdeal.defs _ _).mono (fun _ h c => (h c).2) (Cert.ReferenceIdeal.Value.run (F := Ideal) m ρ)

end Cert.Proof.RefFrame

end
-- ==== Proof.LibDot.lean ====
/-
  A rows-by-columns product read at an index.

  For dimension numbers that contract the left operand's second axis with the right operand's first (the plain
  `M × K` by `K × N` product), the sum over the contraction index that both the kernel's matrix unit and the
  host's `dot_general` denote on the extended reals is the familiar `Σ_k l (a, k) · r (k, b)`.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : ℕ}

/-- The contraction sum of a plain product at output index `(a, b)` is the sum over `k : Fin K` of
    `l (a, k) · r (k, b)`. The dimension numbers are given by their six lists, as a printed record states them. -/
theorem sum_eq (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : (⟨2, ![M, K]⟩ : Shape).Idx → EReal) (r : (⟨2, ![K, N]⟩ : Shape).Idx → EReal) (a : Fin M) (b : Fin N) :
    ∑ k : D.contr.Idx, l (D.lhsIdx (ix2 a b) k) * r (D.rhsIdx (ix2 a b) k) = ∑ k : Fin K, l (ix2 a k) * r (ix2 k b) := by
  obtain ⟨lc, rc, ln, rn, lb, rb, wf⟩ := D
  dsimp only at h1 h2 h3 h4 h5 h6
  subst h1 h2 h3 h4 h5 h6
  have hr : (DotDims.mk (sl := ⟨2, ![M, K]⟩) (sr := ⟨2, ![K, N]⟩) (so := ⟨2, ![M, N]⟩) [1] [0] [0] [1] [] [] wf).contr.rank = 1 := rfl
  have hs : (DotDims.mk (sl := ⟨2, ![M, K]⟩) (sr := ⟨2, ![K, N]⟩) (so := ⟨2, ![M, N]⟩) [1] [0] [0] [1] [] [] wf).contr.size ⟨0, by omega⟩ = K := rfl
  rw [← Equiv.sum_comp (contrEquiv1 _ K hr hs).symm]
  refine Finset.sum_congr rfl fun k _ => ?_
  have el : (DotDims.mk (sl := ⟨2, ![M, K]⟩) (sr := ⟨2, ![K, N]⟩) (so := ⟨2, ![M, N]⟩) [1] [0] [0] [1] [] [] wf).lhsIdx (ix2 a b) ((contrEquiv1 _ K hr hs).symm k) = ix2 a k := by
    funext d
    match d with
    | ⟨0, _⟩ => rfl
    | ⟨1, _⟩ =>
      refine Fin.ext ?_
      exact (DotDims.lhsIdx_val_of_single _ (cl := 1) rfl (ix2 a b) _).trans (contrEquiv1_symm_val _ K hr hs k)
  have er : (DotDims.mk (sl := ⟨2, ![M, K]⟩) (sr := ⟨2, ![K, N]⟩) (so := ⟨2, ![M, N]⟩) [1] [0] [0] [1] [] [] wf).rhsIdx (ix2 a b) ((contrEquiv1 _ K hr hs).symm k) = ix2 k b := by
    funext d
    match d with
    | ⟨0, _⟩ =>
      refine Fin.ext ?_
      exact (DotDims.rhsIdx_val_of_single _ (cr := 0) rfl (ix2 a b) _).trans (contrEquiv1_symm_val _ K hr hs k)
    | ⟨1, _⟩ => rfl
  rw [el, er]

end Idealize.ShloMosaic.PlainDot

end
-- ==== Proof.LibSumBlocks.lean ====
/-
  Finite sums over array index sets, re-indexed. Three general facts, for any commutative additive monoid (so also for
  the extended reals, where no finiteness condition is needed):
    * a sum over `n = a * b` positions is the sum over `a` blocks of the sums over each block's `b` positions
      (`sum_fin_blocks`; stated with the hypothesis `n = a * b` so that a large literal `n` is never factored by evaluation);
    * a sum over the index set of a rank-1 shape `[n]` is the sum over its one coordinate (`sum_idx1`, beside the
      library's `sum_idx2` for rank 2);
    * a reshape only renames indices, so a sum over the reshaped array's index set is the sum over the original's
      (`sum_reshape`, and `sum_shapeCast` for a function of the array's entries).
-/
import Idealize.ShloMosaic.Lib.Pipeline.Value
import Idealize.ShloMosaic.Lib.ValueIdx
import Mathlib.Algebra.BigOperators.Fin

noncomputable section

open scoped BigOperators

namespace Cert.LibSumBlocks

open Idealize.ShloMosaic Idealize.ShloMosaic.ValueIdx

/-- Position `q` of block `p`, of `a` blocks of `b`, is below `a * b`. -/
theorem mul_add_lt {a b : ℕ} (p : Fin a) (q : Fin b) : p.val * b + q.val < a * b :=
  calc p.val * b + q.val < p.val * b + b := Nat.add_lt_add_left q.isLt _
    _ = (p.val + 1) * b := by ring
    _ ≤ a * b := Nat.mul_le_mul_right b p.isLt

/-- A sum over `n = a * b` indices is the sum over the `a` blocks of the sums over each block's `b` positions. -/
theorem sum_fin_blocks {M : Type*} [AddCommMonoid M] {n a b : ℕ} (hn : n = a * b) (f : Fin n → M) :
    ∑ k : Fin n, f k = ∑ p : Fin a, ∑ q : Fin b, f ⟨p.val * b + q.val, hn ▸ mul_add_lt p q⟩ := by
  subst hn
  rw [← finProdFinEquiv.sum_comp, Fintype.sum_prod_type]
  refine Finset.sum_congr rfl fun p _ => Finset.sum_congr rfl fun q _ => ?_
  congr 1
  apply Fin.ext
  show q.val + b * p.val = p.val * b + q.val
  rw [Nat.mul_comm, Nat.add_comm]

/-- A rank-1 index set is its one coordinate's range … -/
def idxEquiv1 {n : Nat} : (⟨1, ![n]⟩ : Shape).Idx ≃ Fin n where
  toFun i := i 0
  invFun l := ix1 l
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ l : Fin n, f (ix1 l) :=
  (Equiv.sum_comp (idxEquiv1 (n := n)).symm f).symm

/-- A reshape renames indices one to one: summing a function of the original index over the reshaped index set is
    summing it over the original one. -/
theorem sum_reshape {M : Type*} [AddCommMonoid M] {s t : Shape} (h : s.ShapeCasts t) (f : s.Idx → M) :
    ∑ j : t.Idx, f (Shape.reshapeEquiv h j) = ∑ i : s.Idx, f i :=
  Equiv.sum_comp (Shape.reshapeEquiv h) f

/-- The total of a function of the entries of a reshaped array is its total over the original array. -/
theorem sum_shapeCast {M : Type*} [AddCommMonoid M] {s t : Shape} {α : Type} (x : s.Idx → α) (h : s.ShapeCasts t)
    (g : α → M) : ∑ j : t.Idx, g (shapeCast t x h j) = ∑ i : s.Idx, g (x i) := by
  unfold shapeCast
  exact sum_reshape h fun i => g (x i)

end Cert.LibSumBlocks

end
-- ==== Proof.ValueSpec.lean ====
/-
  The specification of the distributed product followed by the tanh form of GELU, index by index, over the
  extended reals.

  For whole arrays `X`, `W` of shape [1024, 1024], the entry `(i, j)` of the result is `gelu y` with
  `y = Σ_k X (i, k) · W (k, j)` and
  `gelu y = (h · y) · (u + tanh (c₁ · (y + c₂ · ((y · y) · y))))`,
  where `h`, `u`, `c₁`, `c₂` are the extended reals that four fixed 32-bit words denote (one half, one,
  √(2/π) and 0.044715 as single-precision patterns). The words are never evaluated: both programs use the same
  four, so only the association of the products and sums matters.
-/
import Idealize.ShloMosaic.PureOps.Ideal
import Idealize.ShloMosaic.PureOps.Ideal.Laws
import Idealize.ShloMosaic.Lib.ValueIdx

noncomputable section

open scoped BigOperators

namespace Cert.A2aValue

open Idealize.ShloMosaic Idealize.ShloMosaic.ValueIdx

/-- The word of one half. -/
abbrev cHalf : EReal := Ideal.ofBits .f32 0x3F000000#32
/-- The word of one. -/
abbrev cOne : EReal := Ideal.ofBits .f32 0x3F800000#32
/-- The word of √(2/π). -/
abbrev cOuter : EReal := Ideal.ofBits .f32 0x3F4C422A#32
/-- The word of 0.044715. -/
abbrev cCube : EReal := Ideal.ofBits .f32 0x3D372713#32

/-- Position `r` of block `c`, of 8 blocks of 128 among 1024 positions. -/
def at8 (c : Fin 8) (r : Fin 128) : Fin 1024 :=
  ⟨c.val * 128 + r.val, by have := c.isLt; have := r.isLt; omega⟩

theorem at8_val (c : Fin 8) (r : Fin 128) : (at8 c r).val = c.val * 128 + r.val := rfl

/-- The tanh form of GELU on one extended real, in the association the one-device program computes it. -/
def gelu (y : EReal) : EReal :=
  (cHalf * y) * (cOne + Ideal.tanh (cOuter * (y + cCube * ((y * y) * y))))

/-- Entry `(i, j)` of the plain product of two [1024, 1024] arrays. -/
def dot (X W : (⟨2, ![1024, 1024]⟩ : Shape).Idx → EReal) (i j : Fin 1024) : EReal :=
  ∑ k : Fin 1024, X (ix2 i k) * W (ix2 k j)

/-- The specification: GELU of the product, entry by entry. -/
def G (X W : (⟨2, ![1024, 1024]⟩ : Shape).Idx → EReal) : (⟨2, ![1024, 1024]⟩ : Shape).Idx → EReal :=
  fun idx => gelu (dot X W (idx 0) (idx 1))

theorem G_apply (X W : (⟨2, ![1024, 1024]⟩ : Shape).Idx → EReal) (i j : Fin 1024) :
    G X W (ix2 i j) = gelu (dot X W i j) := rfl

/-- The kernel's association of the cubic term agrees with the specification's. -/
theorem cube_assoc (c y : EReal) : ((c * y) * y) * y = c * ((y * y) * y) := by
  rw [mul_assoc, mul_assoc, mul_assoc]

end Cert.A2aValue

end
-- ==== Proof.LayoutRead.lean ====
/-
  Where an entry of a device's block sits in the whole array.

  A [1024, 1024] array cut along its rows into 8 blocks of [128, 1024]: block `c`'s entry `(r, j)` is the whole
  array's entry `(128·c + r, j)`. Cut along its columns into 8 blocks of [1024, 128]: block `c`'s entry `(i, k)`
  is the whole array's entry `(i, 128·c + k)`.
-/
import Idealize.ShloMosaic.Lib.Layout
import Idealize.ShloMosaic.Lib.ValueIdx
import proofs.«900403_g7700000000000404_dist_a2a_gemm_m1024_k1024_n1024_f32_gelu_v7x_i8_1_alg».proof.Proof.ValueSpec

noncomputable section

namespace Cert.A2aValue

open Idealize.ShloMosaic Idealize.ShloMosaic.ValueIdx

/-- A block of rows read at an entry. -/
theorem block_rows_apply {α : Type} (c : Fin 8) (v : (⟨2, ![1024, 1024]⟩ : Shape).Idx → α) (r : Fin 128) (j : Fin 1024) :
    (Layout.block ⟨2, ![128, 1024]⟩ ⟨2, ![1024, 1024]⟩ 0 8 c v) (ix2 r j) = v (ix2 (at8 c r) j) := by
  show v _ = v _
  congr 1
  funext b
  match b with
  | ⟨0, _⟩ => exact Fin.ext rfl
  | ⟨1, _⟩ => exact Fin.ext rfl

/-- A block of columns read at an entry. -/
theorem block_cols_apply {α : Type} (c : Fin 8) (v : (⟨2, ![1024, 1024]⟩ : Shape).Idx → α) (i : Fin 1024) (k : Fin 128) :
    (Layout.block ⟨2, ![1024, 128]⟩ ⟨2, ![1024, 1024]⟩ 1 8 c v) (ix2 i k) = v (ix2 i (at8 c k)) := by
  show v _ = v _
  congr 1
  funext b
  match b with
  | ⟨0, _⟩ => exact Fin.ext rfl
  | ⟨1, _⟩ => exact Fin.ext rfl

/-- A block of rows is the function reading the whole array at the block's rows. -/
theorem block_rows_eq {α : Type} (c : Fin 8) (v : (⟨2, ![1024, 1024]⟩ : Shape).Idx → α) :
    Layout.block ⟨2, ![128, 1024]⟩ ⟨2, ![1024, 1024]⟩ 0 8 c v = fun i => v (ix2 (at8 c (i 0)) (i 1)) := by
  funext i
  rw [eq_ix2 i]
  exact block_rows_apply c v (i 0) (i 1)

/-- A block of columns is the function reading the whole array at the block's columns. -/
theorem block_cols_eq {α : Type} (c : Fin 8) (v : (⟨2, ![1024, 1024]⟩ : Shape).Idx → α) :
    Layout.block ⟨2, ![1024, 128]⟩ ⟨2, ![1024, 1024]⟩ 1 8 c v = fun i => v (ix2 (i 0) (at8 c (i 1))) := by
  funext i
  rw [eq_ix2 i]
  exact block_cols_apply c v (i 0) (i 1)

end Cert.A2aValue

end
-- ==== Proof.KernelValue.lean ====
/-
  What one device computes for its block of rows of the result, entry by entry, over the extended reals.

  Device `c` of 8 accumulates eight [128, 128] by [128, 1024] products, each into a zero accumulator, and adds them
  left to right: the first is of its own block of columns of `X` with the matching block of rows of `W`; the
  `d`-th after it (`d = 1 … 7`) is of the block that originated on device `(c + 8 - d) mod 8`. As `d` runs over
  0 … 7 the origins run over all 8 blocks once, so the eight partial sums add up to the whole contraction
  `Σ_{k < 1024} X (128·c + r, k) · W (k, j)` (a sum over 1024 = 8 · 128 positions is the sum over 8 blocks of the
  sums over each block's 128 positions, and addition of extended reals is commutative and associative). The
  accumulated entry then goes through the tanh form of GELU, in which the kernel forms the cubic term as
  `((c₂ · y) · y) · y` where the specification has `c₂ · ((y · y) · y)`: equal, multiplication being associative.
-/
import proofs.«900403_g7700000000000404_dist_a2a_gemm_m1024_k1024_n1024_f32_gelu_v7x_i8_1_alg».proof.Proof.Gen.KernelIdeal.Skeleton
import proofs.«900403_g7700000000000404_dist_a2a_gemm_m1024_k1024_n1024_f32_gelu_v7x_i8_1_alg».proof.Proof.LibDot
import proofs.«900403_g7700000000000404_dist_a2a_gemm_m1024_k1024_n1024_f32_gelu_v7x_i8_1_alg».proof.Proof.LibSumBlocks
import proofs.«900403_g7700000000000404_dist_a2a_gemm_m1024_k1024_n1024_f32_gelu_v7x_i8_1_alg».proof.Proof.ValueSpec
import proofs.«900403_g7700000000000404_dist_a2a_gemm_m1024_k1024_n1024_f32_gelu_v7x_i8_1_alg».proof.Proof.Views
import proofs.«900403_g7700000000000404_dist_a2a_gemm_m1024_k1024_n1024_f32_gelu_v7x_i8_1_alg».proof.Proof.LayoutRead
import Idealize.ShloMosaic.Lib.Pipeline.Value

noncomputable section

open scoped BigOperators

namespace Cert.A2aValue

open Idealize.ShloMosaic Idealize.ShloMosaic.ValueIdx Idealize.SL.Sem Cert.KernelIdeal Cert.KernelIdeal.Gen
open Cert.KernelIdeal.A2a (kernOut)

/-! ## The origin of the `d`-th block a device multiplies -/

/-- The device whose block of columns device `c` multiplies at step `d`. -/
def org (c d : Fin 8) : Fin 8 := ⟨(c.val + 8 - d.val) % 8, Nat.mod_lt _ (by decide)⟩

theorem org_val (c d : Fin 8) : (org c d).val = (c.val + 8 - d.val) % 8 := rfl

/-- Step 0 is the device's own block. -/
theorem org_zero (c : Fin 8) : org c 0 = c := by revert c; decide

/-- Distinct steps have distinct origins … -/
theorem org_injective (c : Fin 8) : Function.Injective (org c) := by
  intro d d' h
  revert c d d'
  decide

/-- … so the eight steps visit every block once: a left-to-right sum over the steps is the sum over the blocks. -/
theorem sum_steps {M : Type*} [AddCommMonoid M] (T : Fin 8 → M) (c : Fin 8) :
    T (org c 0) + T (org c 1) + T (org c 2) + T (org c 3) + T (org c 4) + T (org c 5) + T (org c 6) + T (org c 7)
      = ∑ p : Fin 8, T p := by
  rw [← Fin.sum_univ_eight (fun d => T (org c d))]
  exact Fintype.sum_bijective (org c) (Finite.injective_iff_bijective.1 (org_injective c)) _ _ (fun _ => rfl)

/-! ## The contraction, block by block -/

/-- The part of entry `(i, j)` of the product that block `p` of the contraction positions contributes. -/
def blockTerm (X W : (⟨2, ![1024, 1024]⟩ : Shape).Idx → EReal) (i j : Fin 1024) (p : Fin 8) : EReal :=
  ∑ q : Fin 128, X (ix2 i (at8 p q)) * W (ix2 (at8 p q) j)

/-- An entry of the product is the sum of the eight blocks' contributions. -/
theorem dot_eq_blocks (X W : (⟨2, ![1024, 1024]⟩ : Shape).Idx → EReal) (i j : Fin 1024) :
    dot X W i j = ∑ p : Fin 8, blockTerm X W i j p :=
  Cert.LibSumBlocks.sum_fin_blocks (show 1024 = 8 * 128 from rfl) (fun k => X (ix2 i k) * W (ix2 k j))

/-! ## One matrix-unit product at an entry -/

/-- Into a zero accumulator, a [128, 128] by [128, 1024] product at `(r, j)` is the sum over the 128 positions. -/
theorem mm_apply (A : FVec Ideal S128x128 .bf16) (B : FVec Ideal S128x1024 .bf16) (r : Fin 128) (j : Fin 1024) :
    (matmul (F := Ideal) (φ₁ := .bf16) (φ₂ := .bf16) dot_S128x128_S128x1024_S128x1024_1_0_0_1_n_n none A B (constant S128x1024 .f32 0x00000000#32) (ix2 r j) : EReal)
      = ∑ k : Fin 128, (A (ix2 r k) : EReal) * (B (ix2 k j) : EReal) := by
  refine (Ideal.matmul_constant_zero_apply _ none A B (ix2 r j)).trans ?_
  exact PlainDot.sum_eq _ rfl rfl rfl rfl rfl rfl A B r j

/-- A [1, 128, 128] value viewed as [128, 128] reads `(0, r, k)` at `(r, k)`. -/
theorem cast_apply {α : Type} (A3 : S1x128x128.Idx → α) (r k : Fin 128) :
    shapeCast S128x128 A3 shapeCasts_S1x128x128_S128x128 (ix2 r k) = A3 (ix3 0 r k) := by
  refine (shapeCast_dropUnit_apply ![128, 128] A3 shapeCasts_S1x128x128_S128x128 (ix2 r k)).trans ?_
  congr 1
  funext a
  match a with
  | ⟨0, _⟩ => rfl
  | ⟨1, _⟩ => rfl
  | ⟨2, _⟩ => rfl

/-- A product whose operands are block `p` of row `i` of `X` and block `p` of the rows of `W` is block `p`'s
    contribution. -/
theorem mm_block (X W : (⟨2, ![1024, 1024]⟩ : Shape).Idx → EReal) (i j : Fin 1024) (p : Fin 8) (r : Fin 128)
    (A : FVec Ideal S128x128 .bf16) (B : FVec Ideal S128x1024 .bf16)
    (hA : ∀ k : Fin 128, A (ix2 r k) = X (ix2 i (at8 p k))) (hB : ∀ k : Fin 128, B (ix2 k j) = W (ix2 (at8 p k) j)) :
    (matmul (F := Ideal) (φ₁ := .bf16) (φ₂ := .bf16) dot_S128x128_S128x1024_S128x1024_1_0_0_1_n_n none A B (constant S128x1024 .f32 0x00000000#32) (ix2 r j) : EReal)
      = blockTerm X W i j p := by
  rw [mm_apply]
  exact Finset.sum_congr rfl fun k _ => by rw [hA k, hB k]

/-! ## The composite of the payloads

  The stored value `kernOut` (defined with the program's views) is the kernel's GELU of the accumulated product. -/

section General
variable {F : FTy → Type} [FloatOps F]

/-- The accumulated product: the eight partial products added left to right. -/
def kernAcc (v46 : Vec F S128x128 .bf16) (v49 : Vec F S128x1024 .bf16) (v145 : Vec F S1x128x128 .bf16) (v149 : Vec F S128x1024 .bf16) (v162 : Vec F S1x128x128 .bf16) (v166 : Vec F S128x1024 .bf16) (v179 : Vec F S1x128x128 .bf16) (v183 : Vec F S128x1024 .bf16) (v196 : Vec F S1x128x128 .bf16) (v200 : Vec F S128x1024 .bf16) (v213 : Vec F S1x128x128 .bf16) (v217 : Vec F S128x1024 .bf16) (v230 : Vec F S1x128x128 .bf16) (v234 : Vec F S128x1024 .bf16) (v247 : Vec F S1x128x128 .bf16) (v251 : Vec F S128x1024 .bf16) : FVec F S128x1024 .f32 :=
  k0_pay8 (k0_pay7 (k0_pay5 (k0_pay4 (k0_pay3 v46 v49) v145 v149 v162 v166) v179 v183) (k0_pay6 v196) v200
    (constant S128x1024 .f32 0x00000000#32) v213 v217) v230 v234 v247 v251

end General

/-- GELU on one extended real in the kernel's association. -/
def geluK (y : EReal) : EReal :=
  (cHalf * y) * (cOne + Ideal.tanh (cOuter * (y + ((cCube * y) * y) * y)))

theorem geluK_eq_gelu (y : EReal) : geluK y = gelu y := by
  unfold geluK gelu
  rw [cube_assoc]

/-- The stored value is the kernel's GELU of the accumulated product, entry by entry. -/
theorem kernOut_apply (v46 : Vec Ideal S128x128 .bf16) (v49 : Vec Ideal S128x1024 .bf16) (v145 : Vec Ideal S1x128x128 .bf16) (v149 : Vec Ideal S128x1024 .bf16) (v162 : Vec Ideal S1x128x128 .bf16) (v166 : Vec Ideal S128x1024 .bf16) (v179 : Vec Ideal S1x128x128 .bf16) (v183 : Vec Ideal S128x1024 .bf16) (v196 : Vec Ideal S1x128x128 .bf16) (v200 : Vec Ideal S128x1024 .bf16) (v213 : Vec Ideal S1x128x128 .bf16) (v217 : Vec Ideal S128x1024 .bf16) (v230 : Vec Ideal S1x128x128 .bf16) (v234 : Vec Ideal S128x1024 .bf16) (v247 : Vec Ideal S1x128x128 .bf16) (v251 : Vec Ideal S128x1024 .bf16) (i : S128x1024.Idx) :
    kernOut v46 v49 v145 v149 v162 v166 v179 v183 v196 v200 v213 v217 v230 v234 v247 v251 i = geluK (kernAcc v46 v49 v145 v149 v162 v166 v179 v183 v196 v200 v213 v217 v230 v234 v247 v251 i) := rfl

/-- The accumulated product at `(r, j)` is entry `(128·c + r, j)` of the whole product. -/
theorem kernAcc_apply (c : Fin 8) (X W : (⟨2, ![1024, 1024]⟩ : Shape).Idx → EReal) (v46 : Vec Ideal S128x128 .bf16) (v49 : Vec Ideal S128x1024 .bf16) (v145 : Vec Ideal S1x128x128 .bf16) (v149 : Vec Ideal S128x1024 .bf16) (v162 : Vec Ideal S1x128x128 .bf16) (v166 : Vec Ideal S128x1024 .bf16) (v179 : Vec Ideal S1x128x128 .bf16) (v183 : Vec Ideal S128x1024 .bf16) (v196 : Vec Ideal S1x128x128 .bf16) (v200 : Vec Ideal S128x1024 .bf16) (v213 : Vec Ideal S1x128x128 .bf16) (v217 : Vec Ideal S128x1024 .bf16) (v230 : Vec Ideal S1x128x128 .bf16) (v234 : Vec Ideal S128x1024 .bf16) (v247 : Vec Ideal S1x128x128 .bf16) (v251 : Vec Ideal S128x1024 .bf16)
    (h46 : ∀ (r k : Fin 128), v46 (ix2 r k) = X (ix2 (at8 c r) (at8 c k)))
    (h49 : ∀ (k : Fin 128) (j : Fin 1024), v49 (ix2 k j) = W (ix2 (at8 c k) j))
    (h145 : ∀ (r k : Fin 128), v145 (ix3 0 r k) = X (ix2 (at8 c r) (at8 (org c 1) k)))
    (h149 : ∀ (k : Fin 128) (j : Fin 1024), v149 (ix2 k j) = W (ix2 (at8 (org c 1) k) j))
    (h162 : ∀ (r k : Fin 128), v162 (ix3 0 r k) = X (ix2 (at8 c r) (at8 (org c 2) k)))
    (h166 : ∀ (k : Fin 128) (j : Fin 1024), v166 (ix2 k j) = W (ix2 (at8 (org c 2) k) j))
    (h179 : ∀ (r k : Fin 128), v179 (ix3 0 r k) = X (ix2 (at8 c r) (at8 (org c 3) k)))
    (h183 : ∀ (k : Fin 128) (j : Fin 1024), v183 (ix2 k j) = W (ix2 (at8 (org c 3) k) j))
    (h196 : ∀ (r k : Fin 128), v196 (ix3 0 r k) = X (ix2 (at8 c r) (at8 (org c 4) k)))
    (h200 : ∀ (k : Fin 128) (j : Fin 1024), v200 (ix2 k j) = W (ix2 (at8 (org c 4) k) j))
    (h213 : ∀ (r k : Fin 128), v213 (ix3 0 r k) = X (ix2 (at8 c r) (at8 (org c 5) k)))
    (h217 : ∀ (k : Fin 128) (j : Fin 1024), v217 (ix2 k j) = W (ix2 (at8 (org c 5) k) j))
    (h230 : ∀ (r k : Fin 128), v230 (ix3 0 r k) = X (ix2 (at8 c r) (at8 (org c 6) k)))
    (h234 : ∀ (k : Fin 128) (j : Fin 1024), v234 (ix2 k j) = W (ix2 (at8 (org c 6) k) j))
    (h247 : ∀ (r k : Fin 128), v247 (ix3 0 r k) = X (ix2 (at8 c r) (at8 (org c 7) k)))
    (h251 : ∀ (k : Fin 128) (j : Fin 1024), v251 (ix2 k j) = W (ix2 (at8 (org c 7) k) j))
    (r : Fin 128) (j : Fin 1024) :
    kernAcc v46 v49 v145 v149 v162 v166 v179 v183 v196 v200 v213 v217 v230 v234 v247 v251 (ix2 r j) = dot X W (at8 c r) j := by
  have e0 := mm_block X W (at8 c r) j (org c 0) r v46 v49
    (fun k => by rw [org_zero]; exact h46 r k) (fun k => by rw [org_zero]; exact h49 k j)
  have e1 := mm_block X W (at8 c r) j (org c 1) r (shapeCast S128x128 v145 shapeCasts_S1x128x128_S128x128) v149
    (fun k => (cast_apply v145 r k).trans (h145 r k)) (fun k => h149 k j)
  have e2 := mm_block X W (at8 c r) j (org c 2) r (shapeCast S128x128 v162 shapeCasts_S1x128x128_S128x128) v166
    (fun k => (cast_apply v162 r k).trans (h162 r k)) (fun k => h166 k j)
  have e3 := mm_block X W (at8 c r) j (org c 3) r (shapeCast S128x128 v179 shapeCasts_S1x128x128_S128x128) v183
    (fun k => (cast_apply v179 r k).trans (h179 r k)) (fun k => h183 k j)
  have e4 := mm_block X W (at8 c r) j (org c 4) r (shapeCast S128x128 v196 shapeCasts_S1x128x128_S128x128) v200
    (fun k => (cast_apply v196 r k).trans (h196 r k)) (fun k => h200 k j)
  have e5 := mm_block X W (at8 c r) j (org c 5) r (shapeCast S128x128 v213 shapeCasts_S1x128x128_S128x128) v217
    (fun k => (cast_apply v213 r k).trans (h213 r k)) (fun k => h217 k j)
  have e6 := mm_block X W (at8 c r) j (org c 6) r (shapeCast S128x128 v230 shapeCasts_S1x128x128_S128x128) v234
    (fun k => (cast_apply v230 r k).trans (h230 r k)) (fun k => h234 k j)
  have e7 := mm_block X W (at8 c r) j (org c 7) r (shapeCast S128x128 v247 shapeCasts_S1x128x128_S128x128) v251
    (fun k => (cast_apply v247 r k).trans (h247 r k)) (fun k => h251 k j)
  refine Eq.trans ?_ ((sum_steps (blockTerm X W (at8 c r) j) c).trans (dot_eq_blocks X W (at8 c r) j).symm)
  rw [← e0, ← e1, ← e2, ← e3, ← e4, ← e5, ← e6, ← e7]
  rfl

/-- What device `c` stores at `(r, j)` is the specification's entry `(128·c + r, j)`. -/
theorem kernOut_eq_G (c : Fin 8) (X W : (⟨2, ![1024, 1024]⟩ : Shape).Idx → EReal) (v46 : Vec Ideal S128x128 .bf16) (v49 : Vec Ideal S128x1024 .bf16) (v145 : Vec Ideal S1x128x128 .bf16) (v149 : Vec Ideal S128x1024 .bf16) (v162 : Vec Ideal S1x128x128 .bf16) (v166 : Vec Ideal S128x1024 .bf16) (v179 : Vec Ideal S1x128x128 .bf16) (v183 : Vec Ideal S128x1024 .bf16) (v196 : Vec Ideal S1x128x128 .bf16) (v200 : Vec Ideal S128x1024 .bf16) (v213 : Vec Ideal S1x128x128 .bf16) (v217 : Vec Ideal S128x1024 .bf16) (v230 : Vec Ideal S1x128x128 .bf16) (v234 : Vec Ideal S128x1024 .bf16) (v247 : Vec Ideal S1x128x128 .bf16) (v251 : Vec Ideal S128x1024 .bf16)
    (h46 : ∀ (r k : Fin 128), v46 (ix2 r k) = X (ix2 (at8 c r) (at8 c k)))
    (h49 : ∀ (k : Fin 128) (j : Fin 1024), v49 (ix2 k j) = W (ix2 (at8 c k) j))
    (h145 : ∀ (r k : Fin 128), v145 (ix3 0 r k) = X (ix2 (at8 c r) (at8 (org c 1) k)))
    (h149 : ∀ (k : Fin 128) (j : Fin 1024), v149 (ix2 k j) = W (ix2 (at8 (org c 1) k) j))
    (h162 : ∀ (r k : Fin 128), v162 (ix3 0 r k) = X (ix2 (at8 c r) (at8 (org c 2) k)))
    (h166 : ∀ (k : Fin 128) (j : Fin 1024), v166 (ix2 k j) = W (ix2 (at8 (org c 2) k) j))
    (h179 : ∀ (r k : Fin 128), v179 (ix3 0 r k) = X (ix2 (at8 c r) (at8 (org c 3) k)))
    (h183 : ∀ (k : Fin 128) (j : Fin 1024), v183 (ix2 k j) = W (ix2 (at8 (org c 3) k) j))
    (h196 : ∀ (r k : Fin 128), v196 (ix3 0 r k) = X (ix2 (at8 c r) (at8 (org c 4) k)))
    (h200 : ∀ (k : Fin 128) (j : Fin 1024), v200 (ix2 k j) = W (ix2 (at8 (org c 4) k) j))
    (h213 : ∀ (r k : Fin 128), v213 (ix3 0 r k) = X (ix2 (at8 c r) (at8 (org c 5) k)))
    (h217 : ∀ (k : Fin 128) (j : Fin 1024), v217 (ix2 k j) = W (ix2 (at8 (org c 5) k) j))
    (h230 : ∀ (r k : Fin 128), v230 (ix3 0 r k) = X (ix2 (at8 c r) (at8 (org c 6) k)))
    (h234 : ∀ (k : Fin 128) (j : Fin 1024), v234 (ix2 k j) = W (ix2 (at8 (org c 6) k) j))
    (h247 : ∀ (r k : Fin 128), v247 (ix3 0 r k) = X (ix2 (at8 c r) (at8 (org c 7) k)))
    (h251 : ∀ (k : Fin 128) (j : Fin 1024), v251 (ix2 k j) = W (ix2 (at8 (org c 7) k) j)) :
    ∀ (r : Fin 128) (j : Fin 1024), kernOut v46 v49 v145 v149 v162 v166 v179 v183 v196 v200 v213 v217 v230 v234 v247 v251 (ix2 r j) = G X W (ix2 (at8 c r) j) := by
  intro r j
  rw [kernOut_apply, geluK_eq_gelu, G_apply,
    kernAcc_apply c X W v46 v49 v145 v149 v162 v166 v179 v183 v196 v200 v213 v217 v230 v234 v247 v251 h46 h49 h145 h149 h162 h166 h179 h183 h196 h200 h213 h217 h230 h234 h247 h251 r j]

/-- So what device `c` stores is block `c` of the rows of the specification. -/
theorem kernOut_eq_block (c : Fin 8) (X W : (⟨2, ![1024, 1024]⟩ : Shape).Idx → EReal) (v46 : Vec Ideal S128x128 .bf16) (v49 : Vec Ideal S128x1024 .bf16) (v145 : Vec Ideal S1x128x128 .bf16) (v149 : Vec Ideal S128x1024 .bf16) (v162 : Vec Ideal S1x128x128 .bf16) (v166 : Vec Ideal S128x1024 .bf16) (v179 : Vec Ideal S1x128x128 .bf16) (v183 : Vec Ideal S128x1024 .bf16) (v196 : Vec Ideal S1x128x128 .bf16) (v200 : Vec Ideal S128x1024 .bf16) (v213 : Vec Ideal S1x128x128 .bf16) (v217 : Vec Ideal S128x1024 .bf16) (v230 : Vec Ideal S1x128x128 .bf16) (v234 : Vec Ideal S128x1024 .bf16) (v247 : Vec Ideal S1x128x128 .bf16) (v251 : Vec Ideal S128x1024 .bf16)
    (h46 : ∀ (r k : Fin 128), v46 (ix2 r k) = X (ix2 (at8 c r) (at8 c k)))
    (h49 : ∀ (k : Fin 128) (j : Fin 1024), v49 (ix2 k j) = W (ix2 (at8 c k) j))
    (h145 : ∀ (r k : Fin 128), v145 (ix3 0 r k) = X (ix2 (at8 c r) (at8 (org c 1) k)))
    (h149 : ∀ (k : Fin 128) (j : Fin 1024), v149 (ix2 k j) = W (ix2 (at8 (org c 1) k) j))
    (h162 : ∀ (r k : Fin 128), v162 (ix3 0 r k) = X (ix2 (at8 c r) (at8 (org c 2) k)))
    (h166 : ∀ (k : Fin 128) (j : Fin 1024), v166 (ix2 k j) = W (ix2 (at8 (org c 2) k) j))
    (h179 : ∀ (r k : Fin 128), v179 (ix3 0 r k) = X (ix2 (at8 c r) (at8 (org c 3) k)))
    (h183 : ∀ (k : Fin 128) (j : Fin 1024), v183 (ix2 k j) = W (ix2 (at8 (org c 3) k) j))
    (h196 : ∀ (r k : Fin 128), v196 (ix3 0 r k) = X (ix2 (at8 c r) (at8 (org c 4) k)))
    (h200 : ∀ (k : Fin 128) (j : Fin 1024), v200 (ix2 k j) = W (ix2 (at8 (org c 4) k) j))
    (h213 : ∀ (r k : Fin 128), v213 (ix3 0 r k) = X (ix2 (at8 c r) (at8 (org c 5) k)))
    (h217 : ∀ (k : Fin 128) (j : Fin 1024), v217 (ix2 k j) = W (ix2 (at8 (org c 5) k) j))
    (h230 : ∀ (r k : Fin 128), v230 (ix3 0 r k) = X (ix2 (at8 c r) (at8 (org c 6) k)))
    (h234 : ∀ (k : Fin 128) (j : Fin 1024), v234 (ix2 k j) = W (ix2 (at8 (org c 6) k) j))
    (h247 : ∀ (r k : Fin 128), v247 (ix3 0 r k) = X (ix2 (at8 c r) (at8 (org c 7) k)))
    (h251 : ∀ (k : Fin 128) (j : Fin 1024), v251 (ix2 k j) = W (ix2 (at8 (org c 7) k) j)) :
    kernOut v46 v49 v145 v149 v162 v166 v179 v183 v196 v200 v213 v217 v230 v234 v247 v251 = Layout.block ⟨2, ![128, 1024]⟩ ⟨2, ![1024, 1024]⟩ 0 8 c (G X W) := by
  funext i
  obtain ⟨a, b, rfl⟩ : ∃ a b, i = ix2 a b := ⟨i 0, i 1, eq_ix2 i⟩
  rw [block_rows_apply]
  exact kernOut_eq_G c X W v46 v49 v145 v149 v162 v166 v179 v183 v196 v200 v213 v217 v230 v234 v247 v251 h46 h49 h145 h149 h162 h166 h179 h183 h196 h200 h213 h217 h230 h234 h247 h251 a b

end Cert.A2aValue

end
-- ==== Proof.Bridge.lean ====
/-
  From the loads to the specification, over the extended reals.

  With every device's argument buffers holding its part of whole arrays `X` (a block of columns) and `W` (a copy),
  each of the sixteen blocks a device loads is a block of `X` or of `W`: its own rows and columns, or, from slot `j` of
  the receive buffer, its own rows of the columns held by the device `j + 1` places before it. The body's arithmetic on
  such blocks is the specification's row block.
-/
import proofs.«900403_g7700000000000404_dist_a2a_gemm_m1024_k1024_n1024_f32_gelu_v7x_i8_1_alg».proof.Proof.Moves
import proofs.«900403_g7700000000000404_dist_a2a_gemm_m1024_k1024_n1024_f32_gelu_v7x_i8_1_alg».proof.Proof.KernelValue
import proofs.«900403_g7700000000000404_dist_a2a_gemm_m1024_k1024_n1024_f32_gelu_v7x_i8_1_alg».proof.Proof.LayoutRead

noncomputable section

namespace Cert.KernelIdeal.A2a

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ)
variable (X W : (⟨2, ![1024, 1024]⟩ : Shape).Idx → EReal)

/-! ## Over the extended reals the conversions are the identity -/

/-- The converted block of `x` is the block. -/
theorem stageV_ideal (c : Dev nD) (i : S1024x128.Idx) : (stageV (F := Ideal) m c i : EReal) = xstg (F := Ideal) m c i := by
  unfold stageV k0_pay1
  simp only [shapeCast_self]
  rfl

/-- The converted `w` is `w`. -/
theorem wbV_ideal (c : Dev nD) (i : S1024x1024.Idx) : (wbV (F := Ideal) m c i : EReal) = wstg (F := Ideal) m c i := by
  unfold wbV k0_pay2
  simp only [shapeCast_self]
  rfl

/-- Row `r` of block `c`, in the two spellings. -/
theorem row_eq (c : Dev nD) (r : Fin 128) (h : 128 * c.val + r.val < 1024) :
    (⟨128 * c.val + r.val, h⟩ : Fin 1024) = Cert.A2aValue.at8 c r :=
  Fin.ext (by show 128 * c.val + r.val = c.val * 128 + r.val; omega)

/-- The device `j + 1` places before `c` is the origin of step `j + 1`. -/
theorem orig_eq_org (c : Dev nD) (j : Fin 7) (d : Fin 8) (hd : d.val = j.val + 1) : orig c j = Cert.A2aValue.org c d :=
  Fin.ext (by show (c.val + 7 - j.val) % 8 = (c.val + 8 - d.val) % 8; rw [hd]; congr 1; omega)

section Agree

variable (hX : ∀ c : Dev nD, m ((c : Thread nD τ).loc main_arg0) = Layout.block ⟨2, ![1024, 128]⟩ ⟨2, ![1024, 1024]⟩ 1 8 c X)
variable (hW : ∀ c : Dev nD, m ((c : Thread nD τ).loc main_arg1) = W)

include hX in
/-- Any device's converted block of `x` is its block of columns of `X`. -/
theorem stage_at (c' : Dev nD) (i : Fin 1024) (k : Fin 128) :
    (stageV (F := Ideal) m c' (ix2 i k) : EReal) = X (ix2 i (Cert.A2aValue.at8 c' k)) := by
  rw [stageV_ideal, xstg_apply, hX c']
  exact Cert.A2aValue.block_cols_apply c' X i k

include hW in
/-- Any device's converted `w` is `W`. -/
theorem wb_at (c' : Dev nD) (i j : Fin 1024) : (wbV (F := Ideal) m c' (ix2 i j) : EReal) = W (ix2 i j) := by
  rw [wbV_ideal, wstg_apply, hW c']

include hX in
theorem own_at (c : Dev nD) (r k : Fin 128) :
    (ldOwn (F := Ideal) m c (ix2 r k) : EReal) = X (ix2 (Cert.A2aValue.at8 c r) (Cert.A2aValue.at8 c k)) := by
  rw [ldOwn_apply, stage_at m X hX, row_eq]

include hW in
theorem wb0_at (c : Dev nD) (k : Fin 128) (j : Fin 1024) :
    (ldWb0 (F := Ideal) m c (ix2 k j) : EReal) = W (ix2 (Cert.A2aValue.at8 c k) j) := by
  rw [ldWb0_apply, wb_at m W hW, row_eq]

include hX in
theorem slot_at (c : Dev nD) (j : Fin 7) (d : Fin 8) (hd : d.val = j.val + 1) (r k : Fin 128) :
    (ldSlot (F := Ideal) m c j (ix3 0 r k) : EReal) = X (ix2 (Cert.A2aValue.at8 c r) (Cert.A2aValue.at8 (Cert.A2aValue.org c d) k)) := by
  rw [ldSlot_apply, commV_apply, stage_at m X hX, row_eq, orig_eq_org c j d hd]

include hW in
theorem wbj_at (c : Dev nD) (j : Fin 7) (d : Fin 8) (hd : d.val = j.val + 1) (k : Fin 128) (j' : Fin 1024) :
    (ldWb (F := Ideal) m c j (ix2 k j') : EReal) = W (ix2 (Cert.A2aValue.at8 (Cert.A2aValue.org c d) k) j') := by
  rw [ldWb_apply, wb_at m W hW]
  congr 2
  exact Fin.ext (by
    show 128 * ((c.val + 7 - j.val) % 8) + k.val = ((c.val + 8 - d.val) % 8) * 128 + k.val
    rw [hd, show c.val + 8 - (j.val + 1) = c.val + 7 - j.val by omega]; omega)

include hX hW in
/-- THE BRIDGE: device `c`'s result block is its block of rows of the specification. -/
theorem outAt_eq_G (c : Dev nD) :
    outAt (F := Ideal) m c = Layout.block ⟨2, ![128, 1024]⟩ ⟨2, ![1024, 1024]⟩ 0 8 c (Cert.A2aValue.G X W) := by
  unfold outAt
  exact Cert.A2aValue.kernOut_eq_block c X W _ _ _ _ _ _ _ _ _ _ _ _ _ _ _ _
    (own_at m X hX c) (wb0_at m W hW c)
    (slot_at m X hX c 0 1 rfl) (wbj_at m W hW c 0 1 rfl) (slot_at m X hX c 1 2 rfl) (wbj_at m W hW c 1 2 rfl)
    (slot_at m X hX c 2 3 rfl) (wbj_at m W hW c 2 3 rfl) (slot_at m X hX c 3 4 rfl) (wbj_at m W hW c 3 4 rfl)
    (slot_at m X hX c 4 5 rfl) (wbj_at m W hW c 4 5 rfl) (slot_at m X hX c 5 6 rfl) (wbj_at m W hW c 5 6 rfl)
    (slot_at m X hX c 6 7 rfl) (wbj_at m W hW c 6 7 rfl)

end Agree

end Cert.KernelIdeal.A2a

end
-- ==== Proof.RefValue.lean ====
/-
  The one-device program computes the specification.

  Its result is, entry by entry, the tanh form of GELU of the plain product of its two arguments: each elementwise
  operation reads its operands at the same entry, each broadcast constant reads its word, and the host's product at
  `(a, b)` is `Σ_k x0 (a, k) · x1 (k, b)` over the extended reals.
-/
import proofs.«900403_g7700000000000404_dist_a2a_gemm_m1024_k1024_n1024_f32_gelu_v7x_i8_1_alg».proof.Defs
import proofs.«900403_g7700000000000404_dist_a2a_gemm_m1024_k1024_n1024_f32_gelu_v7x_i8_1_alg».proof.Proof.Gen.ReferenceIdeal.Read
import proofs.«900403_g7700000000000404_dist_a2a_gemm_m1024_k1024_n1024_f32_gelu_v7x_i8_1_alg».proof.Proof.ValueSpec

noncomputable section

open scoped BigOperators

namespace Cert.A2aValue

open Cert.ReferenceIdeal Cert.ReferenceIdeal.Gen Cert.ReferenceIdeal.Read Idealize.ShloMosaic Idealize.ShloMosaic.ValueIdx Idealize.ShloMosaic.StableHlo

/-- The left operand's index for output `(a, b)` and contraction position `k` is `(a, k)` … -/
theorem lidx_ix2 (a b k : Fin 1024) : lidx_main_v0 (ix2 a b) k = ix2 a k := by
  funext d
  match d with
  | ⟨0, _⟩ => rfl
  | ⟨1, _⟩ => rfl

/-- … and the right operand's is `(k, b)`. -/
theorem ridx_ix2 (a b k : Fin 1024) : ridx_main_v0 (ix2 a b) k = ix2 k b := by
  funext d
  match d with
  | ⟨0, _⟩ => rfl
  | ⟨1, _⟩ => rfl

/-- The host's product at `(a, b)` is the specification's. -/
theorem val_main_v0_ix2 (x0 x1 : (⟨S1024x1024, .f32⟩ : BufTy).Contents (Elt Ideal)) (a b : Fin 1024) :
    val_main_v0 (F := Ideal) x0 x1 (ix2 a b) = dot x0 x1 a b := by
  rw [val_main_v0_apply]
  unfold dot
  exact Finset.sum_congr rfl fun k _ => by rw [lidx_ix2, ridx_ix2]

/-- The last stage of the one-device program is the specification. -/
theorem val_main_v13_is_G (x0 x1 : (⟨S1024x1024, .f32⟩ : BufTy).Contents (Elt Ideal)) :
    val_main_v13 (F := Ideal) x0 x1 = G x0 x1 := by
  funext i
  obtain ⟨a, b, rfl⟩ : ∃ a b, i = ix2 a b := ⟨i 0, i 1, eq_ix2 i⟩
  rw [G_apply]
  simp only [val_main_v13_apply, val_main_v12_apply, val_main_v11_apply, val_main_cst_2_apply, val_main_v10_apply,
    val_main_v9_apply, val_main_v8_apply, val_main_cst_1_apply, val_main_v7_apply, val_main_v6_apply, val_main_v5_apply,
    val_main_cst_0_apply, val_main_v4_apply, val_main_v3_apply, val_main_v2_apply, val_main_v1_apply, val_main_cst_apply,
    val_main_v0_ix2, Ideal.mulf_def, Ideal.addf_def, Ideal.ofBits_def, Ideal.hostUnary_tanh_def]
  rfl

/-- The term the run of the one-device program leaves in its result is the specification of its two arguments. -/
theorem ref_is_G (x0 x1 : FVec Ideal S1024x1024 .f32) :
    (mulf (mulf (broadcastInDim S1024x1024 ![] bcast_S_S1024x1024 (constant S_ .f32 0x3F000000#32)) (Host.dotGeneral dot_S1024x1024_S1024x1024_S1024x1024_1_0_0_1_n_n none (x0) (x1))) (addf (broadcastInDim S1024x1024 ![] bcast_S_S1024x1024 (constant S_ .f32 0x3F800000#32)) (Host.tanh (mulf (broadcastInDim S1024x1024 ![] bcast_S_S1024x1024 (constant S_ .f32 0x3F4C422A#32)) (addf (Host.dotGeneral dot_S1024x1024_S1024x1024_S1024x1024_1_0_0_1_n_n none (x0) (x1)) (mulf (broadcastInDim S1024x1024 ![] bcast_S_S1024x1024 (constant S_ .f32 0x3D372713#32)) (mulf (mulf (Host.dotGeneral dot_S1024x1024_S1024x1024_S1024x1024_1_0_0_1_n_n none (x0) (x1)) (Host.dotGeneral dot_S1024x1024_S1024x1024_S1024x1024_1_0_0_1_n_n none (x0) (x1))) (Host.dotGeneral dot_S1024x1024_S1024x1024_S1024x1024_1_0_0_1_n_n none (x0) (x1)))))))) : FVec Ideal S1024x1024 .f32)
      = G x0 x1 :=
  (val_main_v13_eq (F := Ideal) x0 x1).trans (val_main_v13_is_G x0 x1)

end Cert.A2aValue

end
-- ==== Proof.Claims.lean ====
/-
  The certificate's claims from the proof of one device's body.

  Given that each device's body meets its obligation — started with its share of the exchange's ghost state, its
  scratch buffers and its two staged inputs, it terminates and leaves its result block in its staged output — the
  launch theorem gives a run of the whole mesh in which every array ends at its computed contents. The two argument
  arrays are staged inputs only, so they end as they began: the frame. The result array ends at the body's result
  block, which over the extended reals is the device's block of rows of GELU of the product, because the eight partial
  products a device accumulates re-associate into the full contraction; the one-device reference ends at that same
  specification.
-/
import proofs.«900403_g7700000000000404_dist_a2a_gemm_m1024_k1024_n1024_f32_gelu_v7x_i8_1_alg».proof.Defs
import proofs.«900403_g7700000000000404_dist_a2a_gemm_m1024_k1024_n1024_f32_gelu_v7x_i8_1_alg».proof.Proof.Gen.Kernel
import proofs.«900403_g7700000000000404_dist_a2a_gemm_m1024_k1024_n1024_f32_gelu_v7x_i8_1_alg».proof.Proof.Gen.KernelIdeal
import proofs.«900403_g7700000000000404_dist_a2a_gemm_m1024_k1024_n1024_f32_gelu_v7x_i8_1_alg».proof.Proof.Gen.ReferenceIdeal
import proofs.«900403_g7700000000000404_dist_a2a_gemm_m1024_k1024_n1024_f32_gelu_v7x_i8_1_alg».proof.Proof.Gen.Pre_finite_inputs_Kernel
import proofs.«900403_g7700000000000404_dist_a2a_gemm_m1024_k1024_n1024_f32_gelu_v7x_i8_1_alg».proof.Proof.Gen.Pre_finite_inputs_ReferenceIdeal
import proofs.«900403_g7700000000000404_dist_a2a_gemm_m1024_k1024_n1024_f32_gelu_v7x_i8_1_alg».proof.Proof.Gen.ReferenceIdeal.Run
import proofs.«900403_g7700000000000404_dist_a2a_gemm_m1024_k1024_n1024_f32_gelu_v7x_i8_1_alg».proof.Proof.Launch
import proofs.«900403_g7700000000000404_dist_a2a_gemm_m1024_k1024_n1024_f32_gelu_v7x_i8_1_alg».proof.Proof.KLaunch
import proofs.«900403_g7700000000000404_dist_a2a_gemm_m1024_k1024_n1024_f32_gelu_v7x_i8_1_alg».proof.Proof.Bridge
import proofs.«900403_g7700000000000404_dist_a2a_gemm_m1024_k1024_n1024_f32_gelu_v7x_i8_1_alg».proof.Proof.RefValue

noncomputable section

namespace Cert.Proof.A2aClaims

open Idealize.ShloMosaic Idealize.ShloMosaic.TcCoe Idealize.SL.Sem
open Idealize.ShloMosaic.Pipeline (BodyObligation)

/-! ## The program as printed -/

section AtBits

open Cert.Kernel Cert.Kernel.Gen Cert.Kernel.A2a

/-- The printed program runs to the end and leaves both argument arrays as they were. -/
theorem frame_k
    (hb : ∀ (m : (ℓ : Loc nD τ sig) → Buf (Elt Bits) ℓ) (c : Dev nD),
      BodyObligation (dats (F := Bits) m 0 c) (defs₀ (F := Bits)) 𝒱₀ () Set.univ) :
    Cert.frame_Kernel := fun m ρ _ =>
  (θ_run Cert.Kernel.defs _ _).mono
    (fun _ h c => ⟨(h c 0).trans (finalA_x m c), (h c 1).trans (finalA_w m c)⟩)
    (run_main m ρ (hb m))

end AtBits

/-! ## The program over the extended reals -/

section AtIdeal

open Cert.KernelIdeal Cert.KernelIdeal.Gen Cert.KernelIdeal.A2a

/-- The idealized program runs to the end and leaves both argument arrays as they were. -/
theorem frame_ki
    (hb : ∀ (m : (ℓ : Loc nD τ sig) → Buf (Elt Ideal) ℓ) (c : Dev nD),
      BodyObligation (dats (F := Ideal) m 0 c) (defs₀ (F := Ideal)) 𝒱₀ () Set.univ) :
    Cert.frame_KernelIdeal := fun m ρ _ =>
  (θ_run Cert.KernelIdeal.defs _ _).mono
    (fun _ h c => ⟨(h c 0).trans (finalA_x m c), (h c 1).trans (finalA_w m c)⟩)
    (run_main m ρ (hb m))

/-- Both programs run; the reference's result is GELU of the product of its two arrays, and each device's result is
    its block of rows of it. -/
theorem algebraic
    (hb : ∀ (m : (ℓ : Loc nD τ sig) → Buf (Elt Ideal) ℓ) (c : Dev nD),
      BodyObligation (dats (F := Ideal) m 0 c) (defs₀ (F := Ideal)) 𝒱₀ () Set.univ) :
    Cert.algebraic_KernelIdeal_ReferenceIdeal := fun m ρ m' ρ' _ hagree =>
  ⟨Cert.A2aValue.G
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨(h c 2).trans ((finalA_out m c).trans
          (outAt_eq_G m _ _ (fun c => (hagree c).1) (fun c => (hagree c).2) c)),
        (h c 0).trans (finalA_x m c), (h c 1).trans (finalA_w m c)⟩)
      (run_main m ρ (hb m)),
    (θ_run Cert.ReferenceIdeal.defs _ _).mono
      (fun _ h => ⟨(h 0).1.trans (Cert.A2aValue.ref_is_G _ _), (h 0).2⟩)
      (Cert.ReferenceIdeal.Value.run (F := Ideal) m' ρ')⟩

end AtIdeal

end Cert.Proof.A2aClaims

end
-- ==== Proof.lean ====
/-
  The proof of `Cert.Claim` for the all-to-all matrix product with GELU on eight devices.

  WHAT IS PROVED. Each device holds a block of 128 columns of `x` and a copy of `w`. It converts both, meets the others
  on a barrier, sends to each other device the 128 rows of its converted block that the addressee's block of rows of the
  result needs, and multiplies: its own 128 × 128 block by the matching rows of `w`, then, as they arrive, the seven
  received blocks by theirs, adding the eight products left to right; GELU in its tanh form is applied entrywise. The
  claims: the program as printed and the program over the extended reals both run to the end on every weakly fair
  schedule and leave their argument arrays unchanged; so does the one-device reference; and over the extended reals
  each device's result is its block of 128 rows of the reference's result.

  WHY IT TERMINATES. Every semaphore is used for one round, and every unit a wait needs is some device's duty: a
  barrier semaphore collects one unit from each of the seven other devices, a receive semaphore one copy's credit from
  the one sender of that exchange, a send semaphore the credit of the copy the device itself started. Semaphores are
  ranked, receive semaphores above barrier semaphores, send semaphores and the pipeline's staging semaphores lowest. A
  device waits on its barrier semaphore while it still owes its seven copies, which is allowed because what it owes
  ranks above what it waits on; every other wait happens when it owes nothing. So no cycle of devices can each wait on
  a unit the next one owes, and every weakly fair schedule runs to the end. The launch hands each duty's token to the
  device that pays it and each semaphore's credit to the device that waits on it.

  WHY THE VALUE IS RIGHT. An exchange writes 128 rows of the sender's converted block over one slot of the addressee's
  receive buffer; slot `j` of device `c` then holds device `c`'s rows of the block of columns that originated `j + 1`
  places before `c`. Over the extended reals the conversions are the identity, so the sixteen blocks a device loads are
  blocks of the whole arrays; as the step runs over 0 … 7 the origins run over all eight blocks once, and a sum over
  1024 = 8 · 128 positions is the sum over the eight blocks of the sums over each block's 128 positions: the eight
  partial products add up to the full contraction, addition of extended reals being commutative and associative. The
  kernel's cubic term `((c · y) · y) · y` equals the reference's `c · ((y · y) · y)` by associativity of multiplication.
-/
import proofs.«900403_g7700000000000404_dist_a2a_gemm_m1024_k1024_n1024_f32_gelu_v7x_i8_1_alg».proof.Defs
import proofs.«900403_g7700000000000404_dist_a2a_gemm_m1024_k1024_n1024_f32_gelu_v7x_i8_1_alg».proof.Proof.Gen.Kernel
import proofs.«900403_g7700000000000404_dist_a2a_gemm_m1024_k1024_n1024_f32_gelu_v7x_i8_1_alg».proof.Proof.Gen.Kernel.Skeleton
import proofs.«900403_g7700000000000404_dist_a2a_gemm_m1024_k1024_n1024_f32_gelu_v7x_i8_1_alg».proof.Proof.Gen.Kernel.Launch
import proofs.«900403_g7700000000000404_dist_a2a_gemm_m1024_k1024_n1024_f32_gelu_v7x_i8_1_alg».proof.Proof.Gen.Kernel.Points
import proofs.«900403_g7700000000000404_dist_a2a_gemm_m1024_k1024_n1024_f32_gelu_v7x_i8_1_alg».proof.Proof.Gen.Kernel.Frame
import proofs.«900403_g7700000000000404_dist_a2a_gemm_m1024_k1024_n1024_f32_gelu_v7x_i8_1_alg».proof.Proof.Gen.KernelIdeal
import proofs.«900403_g7700000000000404_dist_a2a_gemm_m1024_k1024_n1024_f32_gelu_v7x_i8_1_alg».proof.Proof.Gen.KernelIdeal.Skeleton
import proofs.«900403_g7700000000000404_dist_a2a_gemm_m1024_k1024_n1024_f32_gelu_v7x_i8_1_alg».proof.Proof.Gen.KernelIdeal.Launch
import proofs.«900403_g7700000000000404_dist_a2a_gemm_m1024_k1024_n1024_f32_gelu_v7x_i8_1_alg».proof.Proof.Gen.KernelIdeal.Points
import proofs.«900403_g7700000000000404_dist_a2a_gemm_m1024_k1024_n1024_f32_gelu_v7x_i8_1_alg».proof.Proof.Gen.KernelIdeal.Frame
import proofs.«900403_g7700000000000404_dist_a2a_gemm_m1024_k1024_n1024_f32_gelu_v7x_i8_1_alg».proof.Proof.Gen.ReferenceIdeal
import proofs.«900403_g7700000000000404_dist_a2a_gemm_m1024_k1024_n1024_f32_gelu_v7x_i8_1_alg».proof.Proof.Gen.Pre_finite_inputs_Kernel
import proofs.«900403_g7700000000000404_dist_a2a_gemm_m1024_k1024_n1024_f32_gelu_v7x_i8_1_alg».proof.Proof.Gen.Pre_finite_inputs_ReferenceIdeal
import proofs.«900403_g7700000000000404_dist_a2a_gemm_m1024_k1024_n1024_f32_gelu_v7x_i8_1_alg».proof.Proof.BodyGlue
import proofs.«900403_g7700000000000404_dist_a2a_gemm_m1024_k1024_n1024_f32_gelu_v7x_i8_1_alg».proof.Proof.KBodyGlue
import proofs.«900403_g7700000000000404_dist_a2a_gemm_m1024_k1024_n1024_f32_gelu_v7x_i8_1_alg».proof.Proof.Body
import proofs.«900403_g7700000000000404_dist_a2a_gemm_m1024_k1024_n1024_f32_gelu_v7x_i8_1_alg».proof.Proof.KBody
import proofs.«900403_g7700000000000404_dist_a2a_gemm_m1024_k1024_n1024_f32_gelu_v7x_i8_1_alg».proof.Proof.RefFrame
import proofs.«900403_g7700000000000404_dist_a2a_gemm_m1024_k1024_n1024_f32_gelu_v7x_i8_1_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts,
    Cert.Proof.A2aClaims.frame_k (fun m c => Cert.Kernel.A2a.body_obligation_of m (Cert.Kernel.A2a.sound_flat m) c),
    Cert.Proof.A2aClaims.frame_ki (fun m c => Cert.KernelIdeal.A2a.body_obligation_of m (Cert.KernelIdeal.A2a.sound_flat m) c),
    Cert.Proof.RefFrame.frame_ri,
    trivial,
    Cert.Proof.A2aClaims.algebraic (fun m c => Cert.KernelIdeal.A2a.body_obligation_of m (Cert.KernelIdeal.A2a.sound_flat m) c)⟩

end Cert.Proof

end
